-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S512x512 : Shape := ⟨2, ![512, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  main_v18

def fn {F : FTy → Type} [FloatOps F] (main_arg0 : FVec F S8x2048x512 .f32) (main_arg1 : FVec F S8x2048x512 .f32) (main_arg2 : FVec F S512x512 .f32) (main_arg3 : FVec F S512x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x512 .f32 := Host.absf main_arg1
  let main_cst_0 : FVec F S_ .f32 := constant S_ .f32 0x7F800000#32
  let main_v5 : FVec F S8x2048x512 .f32 := broadcastInDim S8x2048x512 ![] bcast_S_S8x2048x512 main_cst_0
  let main_v6 : IVec S8x2048x512 1 := cmpf .olt main_v4 main_v5
  let main_c_1 : IVec S_ 1 := constantI S_ 1 1#1
  let main_v7 : IVec S_ 1 := (fun x v => Host.reduce IntOp.andi x v reducesTo_S8x2048x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_v13 main_v16
-- ==== Kernel.lean ====
abbrev S8x2048x512 : Shape := ⟨3, ![8, 2048, 512]⟩
abbrev S512x512 : Shape := ⟨2, ![512, 512]⟩
abbrev S1x2048x512 : Shape := ⟨3, ![1, 2048, 512]⟩
abbrev S2048x512 : Shape := ⟨2, ![2048, 512]⟩
abbrev S8x512x2048 : Shape := ⟨3, ![8, 512, 2048]⟩
abbrev S1x256x512 : Shape := ⟨3, ![1, 256, 512]⟩
abbrev S1x512x2048 : Shape := ⟨3, ![1, 512, 2048]⟩
abbrev S1x2048 : Shape := ⟨2, ![1, 2048]⟩
abbrev S512x2048 : Shape := ⟨2, ![512, 2048]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 24
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S512x512, .f32⟩
  | .hbm, ⟨3, _⟩ => ⟨S512x512, .f32⟩
  | .hbm, ⟨4, _⟩ => ⟨S8x2048x512, .bf16⟩
  | .hbm, ⟨5, _⟩ => ⟨S8x2048x512, .bf16⟩
  | .hbm, ⟨6, _⟩ => ⟨S8x2048x512, .f32⟩
  | .hbm, ⟨7, _⟩ => ⟨S8x512x2048, .f32⟩
  | .hbm, ⟨8, _⟩ => ⟨S8x2048x512, .f32⟩
  | .local _ .vmem, ⟨0, _⟩ => ⟨S1x2048x512, .f32⟩
  | .local _ .vmem, ⟨1, _⟩ => ⟨S1x2048x512, .f32⟩
  | .local _ .vmem, ⟨2, _⟩ => ⟨S512x512, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .f32⟩
  | .local _ .vmem, ⟨6, _⟩ => ⟨S1x2048x512, .f32⟩
  | .local _ .vmem, ⟨7, _⟩ => ⟨S512x512, .f32⟩
  | .local _ .vmem, ⟨8, _⟩ => ⟨S1x2048x512, .bf16⟩
  | .local _ .vmem, ⟨9, _⟩ => ⟨S1x2048x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x2048x512, .bf16⟩
  | .local _ .vmem, ⟨13, _⟩ => ⟨S1x2048x512, .bf16⟩
  | .local _ .vmem, ⟨14, _⟩ => ⟨S1x256x512, .f32⟩
  | .local _ .vmem, ⟨15, _⟩ => ⟨S1x256x512, .f32⟩
  | .local _ .vmem, ⟨16, _⟩ => ⟨S1x2048x512, .f32⟩
  | .local _ .vmem, ⟨17, _⟩ => ⟨S1x2048x512, .f32⟩
  | .local _ .vmem, ⟨18, _⟩ => ⟨S1x256x512, .f32⟩
  | .local _ .vmem, ⟨19, _⟩ => ⟨S1x256x512, .f32⟩
  | .local _ .vmem, ⟨20, _⟩ => ⟨S1x512x2048, .f32⟩
  | .local _ .vmem, ⟨21, _⟩ => ⟨S1x512x2048, .f32⟩
  | .local _ .vmem, ⟨22, _⟩ => ⟨S1x2048, .f32⟩
  | .local _ .vmem, ⟨23, _⟩ => ⟨S1x2048, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc2_scratch0 : Ref sig .tc := ⟨.vmem, 22, rfl⟩
abbrev cc2_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x256x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x256x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x2048x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x256x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x512x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S2048x512_S1x2048x512 : S2048x512.ShapeCasts S1x2048x512
  packedbf16_S1x2048x512_S1x2048x512_0_0_0 : (Rect.unit (s := S1x2048x512) ![0, 0, 0] S1x2048x512.size inb_S1x2048x512_S1x2048x512_0_0_0).PackedRows (EltTy.packing .bf16)
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  reduces_S256x2048_S256 : S256x2048.Reduces [1] S256
  shapeCasts_S256_S256x1 : S256.ShapeCasts S256x1
  broadcasts_S256x1_S256x2048 : S256x1.Broadcasts S256x2048
  broadcasts_S256x1_S256x512 : S256x1.Broadcasts S256x512
  shapeCasts_S256x512_S1x256x512 : S256x512.ShapeCasts S1x256x512
  reduces_S256x2048_S2048 : S256x2048.Reduces [0] S2048
  shapeCasts_S2048_S1x2048 : S2048.ShapeCasts S1x2048
  broadcasts_S1x2048_S256x2048 : S1x2048.Broadcasts S256x2048
  broadcasts_S1x2048_S512x2048 : S1x2048.Broadcasts S512x2048
  transposes_S8x512x2048_S8x2048x512_0_2_1 : S8x512x2048.Transposes [0, 2, 1] S8x2048x512
  dot_S2048x512_S512x512_S2048x512_1_1_0_0_n_n_wf : DotDims.WF S2048x512 S512x512 S2048x512 [1] [1] [0] [0] [] []
  dot_S256x512_S2048x512_S256x2048_1_1_0_0_n_n_wf : DotDims.WF S256x512 S2048x512 S256x2048 [1] [1] [0] [0] [] []
  dot_S256x2048_S2048x512_S256x512_1_0_0_1_n_n_wf : DotDims.WF S256x2048 S2048x512 S256x512 [1] [0] [0] [1] [] []
  dot_S256x512_S256x2048_S512x2048_0_0_1_1_n_n_wf : DotDims.WF S256x512 S256x2048 S512x2048 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x2048x512.size a
  hwx0_0 : ∀ i : grid0.Coords, EltTy.bits .f32 = 32 ∨ (Rect.block (s := S8x2048x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S8x2048x512.size a
  hwx0_2 : ∀ i : grid0.Coords, EltTy.bits .bf16 = 32 ∨ (Rect.block (s := S8x2048x512) S1x2048x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x512.size a ≤ S8x2048x512.size a
  hwx1_0 : ∀ i : grid1.Coords, EltTy.bits .f32 = 32 ∨ (Rect.block (s := S8x2048x512) S1x2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x512.size a ≤ S8x2048x512.size a
  hwx1_2 : ∀ i : grid1.Coords, EltTy.bits .bf16 = 32 ∨ (Rect.block (s := S8x2048x512) S1x2048x512.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x512.size a ≤ S8x2048x512.size a
  hwx2_0 : ∀ i : grid2.Coords, EltTy.bits .bf16 = 32 ∨ (Rect.block (s := S8x2048x512) S1x256x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048x512.size a ≤ S8x2048x512.size a
  hwx2_1 : ∀ i : grid2.Coords, EltTy.bits .bf16 = 32 ∨ (Rect.block (s := S8x2048x512) S1x2048x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256x512.size a ≤ S8x2048x512.size a
  hwx2_2 : ∀ i : grid2.Coords, EltTy.bits .f32 = 32 ∨ (Rect.block (s := S8x2048x512) S1x256x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x2048x512.size a ≤ S8x2048x512.size a
  hwx2_3 : ∀ i : grid2.Coords, EltTy.bits .f32 = 32 ∨ (Rect.block (s := S8x2048x512) S1x2048x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x256x512.size a ≤ S8x2048x512.size a
  hwx2_4 : ∀ i : grid2.Coords, EltTy.bits .f32 = 32 ∨ (Rect.block (s := S8x2048x512) S1x256x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x512x2048.size a ≤ S8x512x2048.size a
  hwx2_5 : ∀ i : grid2.Coords, EltTy.bits .f32 = 32 ∨ (Rect.block (s := S8x512x2048) S1x512x2048.size (cc2_transform_5 i) (hinb2_5 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf
def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S256x512_S256x2048_S512x2048_0_0_1_1_n_n : DotDims S256x512 S256x2048 S512x2048 where
  lhsContracting := [0]
  rhsContracting := [0]
  lhsNonContracting := [1]
  rhsNonContracting := [1]
  lhsBatch := []
  rhsBatch := []
  wf := dot_S256x512_S256x2048_S512x2048_0_0_1_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S1x256x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1x2048x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S1x256x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg1) S1x2048x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2_0) S1x256x512.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v2_1) S1x512x2048.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S8x2048x512 : Shape := ⟨3, ![8, 2048, 512]⟩
abbrev S512x512 : Shape := ⟨2, ![512, 512]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S512x512, .f32⟩
  | .hbm, ⟨3, _⟩ => ⟨S512x512, .f32⟩
  | .hbm, ⟨4, _⟩ => ⟨S8x2048x512, .f32⟩
  | .hbm, ⟨5, _⟩ => ⟨S8x2048x512, .f32⟩
  | .hbm, ⟨6, _⟩ => ⟨S8x2048x2048, .f32⟩
  | .hbm, ⟨7, _⟩ => ⟨S_, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048x1, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S_, .f32⟩
  | .hbm, ⟨25, _⟩ => ⟨S8x2048, .f32⟩
  | .hbm, ⟨26, _⟩ => ⟨S8x2048, .f32⟩
  | .hbm, ⟨27, _⟩ => ⟨S8x2048x1, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S8x2048, .f32⟩
  | .hbm, ⟨33, _⟩ => ⟨S8x2048x1, .f32⟩
  | .hbm, ⟨34, _⟩ => ⟨S8x2048x2048, .f32⟩
  | .hbm, ⟨35, _⟩ => ⟨S8x2048x2048, .f32⟩
  | .hbm, ⟨36, _⟩ => ⟨S8x2048x512, .f32⟩
  | .hbm, ⟨37, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  transposes_S8x2048x2048_S8x2048x2048_0_2_1 : S8x2048x2048.Transposes [0, 2, 1] S8x2048x2048
  dot_S8x2048x512_S512x512_S8x2048x512_2_1_01_0_n_n_wf : DotDims.WF S8x2048x512 S512x512 S8x2048x512 [2] [1] [0, 1] [0] [] []
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]

variable [Facts₀]

def dot_S8x2048x512_S512x512_S8x2048x512_2_1_01_0_n_n : DotDims S8x2048x512 S512x512 S8x2048x512 where
  lhsContracting := [2]
  rhsContracting := [1]
  lhsNonContracting := [0, 1]
  rhsNonContracting := [0]
  lhsBatch := []
  rhsBatch := []
  wf := dot_S8x2048x512_S512x512_S8x2048x512_2_1_01_0_n_n_wf
def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf

class Facts : Prop extends Facts₀ where

variable [Facts]
-- ==== Proof.KB.Proj0.lean ====
/-
  Region 0 of the program: the projection kernel `y = x · wᵀ` on one batch slab per grid point.
  Its three windows are the slab of the input (block `t` of the array), the whole weight matrix (one block, never
  moving) and the slab of the result.  The body loads the two inputs whole and stores one value — the matrix product,
  rounded — over the whole result block; so after the body each input buffer holds its block and the output buffer holds
  that one stored value.  Stated at any float instance.
-/
import proofs.«104582_j57698590654943_2_alg».proof.Proof.Gen.Kernel.Launch
import proofs.«104582_j57698590654943_2_alg».proof.Proof.Gen.Kernel.Skeleton
import proofs.«104582_j57698590654943_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input slab's staging buffer holds block `t` of its array at point `t`. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole matrix at every point (its block never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rx0 : Rect S1x2048x512 := Rect.unit (s := S1x2048x512) ![0, 0, 0] S1x2048x512.size inb_S1x2048x512_S1x2048x512_0_0_0
abbrev rw0 : Rect S512x512 := Rect.unit (s := S512x512) ![0, 0] S512x512.size inb_S512x512_S512x512_0_0

/-- What the body leaves in the result's staging buffer: its one store, of the rounded product of the two loads. -/
def out0_2 (x0 : Vec F S1x2048x512 .f32) (x1 : Vec F S512x512 .f32) : Vec F S1x2048x512 .bf16 :=
  View.canon [⟨rx0, k0_pay1 (View.ld x0 rx0) (View.ld x1 rw0)⟩]

/-- The one store covers the whole block. -/
theorem cover0_2 (p0 : Vec F S1x2048x512 .bf16) (y : S1x2048x512.Idx) :
    ∃ pc ∈ ([⟨rx0, p0⟩] : List (View.Piece (Elt F) S1x2048x512 .bf16)), y ∈ pc.1.set :=
  View.cover_of_tiled [⟨rx0, p0⟩] S1x2048x512.size (by rfl) y

set_option maxHeartbeats 1000000 in
/-- The body on whole staging buffers, the inputs at known contents and the output at anything, runs without a fault
    and leaves the inputs as they were and the output at `out0_2` of them. -/
theorem sound_kernel0 (c : Dev nD) (E : Set ℕ) (i : grid0.Coords) (arg1 : Memref sig .tc .vmem S1x2048x512 .f32) (harg1 : arg1.IsWhole)
    (arg2 : Memref sig .tc .vmem S512x512 .f32) (harg2 : arg2.IsWhole) (arg3 : Memref sig .tc .vmem S1x2048x512 .bf16) (harg3 : arg3.IsWhole)
    (x0 : Vec F S1x2048x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this region on core `c`: the arrays as found; after the body at point `t` each input buffer at
    its block and the result buffer at `out0_2` of the two input blocks; nothing else carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KB.Proj1.lean ====
/-
  Region 1 of the program: the projection kernel `y = x · wᵀ` on one batch slab per grid point.
  Its three windows are the slab of the input (block `t` of the array), the whole weight matrix (one block, never
  moving) and the slab of the result.  The body loads the two inputs whole and stores one value — the matrix product,
  rounded — over the whole result block; so after the body each input buffer holds its block and the output buffer holds
  that one stored value.  Stated at any float instance.
-/
import proofs.«104582_j57698590654943_2_alg».proof.Proof.Gen.Kernel.Launch
import proofs.«104582_j57698590654943_2_alg».proof.Proof.Gen.Kernel.Skeleton
import proofs.«104582_j57698590654943_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input slab's staging buffer holds block `t` of its array at point `t`. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight's staging buffer holds the whole matrix at every point (its block never moves). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rx1 : Rect S1x2048x512 := Rect.unit (s := S1x2048x512) ![0, 0, 0] S1x2048x512.size inb_S1x2048x512_S1x2048x512_0_0_0
abbrev rw1 : Rect S512x512 := Rect.unit (s := S512x512) ![0, 0] S512x512.size inb_S512x512_S512x512_0_0

/-- What the body leaves in the result's staging buffer: its one store, of the rounded product of the two loads. -/
def out1_2 (x0 : Vec F S1x2048x512 .f32) (x1 : Vec F S512x512 .f32) : Vec F S1x2048x512 .bf16 :=
  View.canon [⟨rx1, k1_pay1 (View.ld x0 rx1) (View.ld x1 rw1)⟩]

/-- The one store covers the whole block. -/
theorem cover1_2 (p0 : Vec F S1x2048x512 .bf16) (y : S1x2048x512.Idx) :
    ∃ pc ∈ ([⟨rx1, p0⟩] : List (View.Piece (Elt F) S1x2048x512 .bf16)), y ∈ pc.1.set :=
  View.cover_of_tiled [⟨rx1, p0⟩] S1x2048x512.size (by rfl) y

set_option maxHeartbeats 1000000 in
/-- The body on whole staging buffers, the inputs at known contents and the output at anything, runs without a fault
    and leaves the inputs as they were and the output at `out1_2` of them. -/
theorem sound_kernel1 (c : Dev nD) (E : Set ℕ) (i : grid1.Coords) (arg1 : Memref sig .tc .vmem S1x2048x512 .f32) (harg1 : arg1.IsWhole)
    (arg2 : Memref sig .tc .vmem S512x512 .f32) (harg2 : arg2.IsWhole) (arg3 : Memref sig .tc .vmem S1x2048x512 .bf16) (harg3 : arg3.IsWhole)
    (x0 : Vec F S1x2048x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__proj_kernel i arg1 harg1 arg2 harg2 arg3 harg3) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of this region on core `c`: the arrays as found; after the body at point `t` each input buffer at
    its block and the result buffer at `out1_2` of the two input blocks; nothing else carried, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KB.AttnShared.lean ====
/-
  Region 2 of the program, the fused attention kernel on the grid (batch, row tile): what its body is stated over.
  Four input windows (the projected row tile q, the projected k of the batch, the row tile of the first input, the
  second input of the batch), two output windows (the row tile of the first result; the whole transposed second result
  of the batch, kept in its staging buffer across the eight row tiles and written back after the last), and two
  scratch rows the kernel carries between row tiles (the running column maximum and the running column sum).
  The body has two conditions on the row-tile coordinate: "first tile" (reset the carried rows and the accumulator) and
  "last tile" (divide the accumulator by the running sum).
-/
import proofs.«104582_j57698590654943_2_alg».proof.Proof.Gen.Kernel.Launch
import proofs.«104582_j57698590654943_2_alg».proof.Proof.Gen.Kernel.Skeleton
import proofs.«104582_j57698590654943_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or kept from the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or kept from the point before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or kept from the point before. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or kept from the point before. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- "This is the first row tile", as the body computes it from the grid coordinates. -/
abbrev cond2_0 (i : grid2.Coords) : Prop := (Scalar.cmpi .ne (Scalar.extui (Scalar.cmpi .eq (BitVec.ofNat 32 (i 1).val) 0#32)) 0#32) = 1#1
/-- It holds exactly at the points ≡ 0 (mod 8). -/
theorem hcond2_0 : ∀ t : Fin cfg2.N, cond2_0 (grid2.coords t) ↔ t.val % 8 = 0 :=
  (by decide +kernel : ∀ t : Fin grid2.N, cond2_0 (grid2.coords t) ↔ t.val % 8 = 0)
/-- "This is the last row tile". -/
abbrev cond2_1 (i : grid2.Coords) : Prop := (Scalar.cmpi .ne (Scalar.extui (Scalar.cmpi .eq (BitVec.ofNat 32 (i 1).val) 7#32)) 0#32) = 1#1
/-- It holds exactly at the points ≡ 7 (mod 8). -/
theorem hcond2_1 : ∀ t : Fin cfg2.N, cond2_1 (grid2.coords t) ↔ t.val % 8 = 7 :=
  (by decide +kernel : ∀ t : Fin grid2.N, cond2_1 (grid2.coords t) ↔ t.val % 8 = 7)

/-- One staging buffer of each output window, through which its contents are stated. -/
abbrev VO2_4 : View sig .tc .vmem S1x256x512 .f32 := (Memref.whole cc2_stg4_0 : Memref sig .tc .vmem S1x256x512 .f32).view
abbrev VO2_5 : View sig .tc .vmem S1x512x2048 .f32 := (Memref.whole cc2_stg5_0 : Memref sig .tc .vmem S1x512x2048 .f32).view
/-- Each window's current staging memref at point `t`, and its wholeness. -/
abbrev ms2_0 (t : Fin cfg2.N) : Memref sig .tc .vmem S1x256x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x2048x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x2048x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x512x2048 .f32 := win2_5.stage (cfg2.slots t 5)
abbrev hs2_5 (t : Fin cfg2.N) : (ms2_5 t).IsWhole := hstage2_5 ((cfg2.slots t 5).cast nbuf2_5)
/-- The two carried scratch rows: whole scoped buffers of the kernel's own. -/
abbrev scM2_0 : Memref sig .tc .vmem S1x2048 .f32 := Memref.whole cc2_scratch0
abbrev scM2_1 : Memref sig .tc .vmem S1x2048 .f32 := Memref.whole cc2_scratch1
abbrev VS2_0 : View sig .tc .vmem S1x2048 .f32 := scM2_0.view
abbrev VS2_1 : View sig .tc .vmem S1x2048 .f32 := scM2_1.view

end Cert.Kernel.Fr

end
-- ==== Proof.KB.AttnRunA.lean ====
/-
  The fused attention body run whole in one of its three control cases: the FIRST row tile (the carried rows and the accumulator are reset, then updated).
  The stores each buffer ends with are found by running the body; the run faults nowhere.
-/
import proofs.«104582_j57698590654943_2_alg».proof.Proof.KB.AttnShared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body on whole staging buffers — the four inputs at known contents, the first result's buffer at anything, the accumulator and the two carried rows at anything — runs to the end,
    the inputs as they were, every written buffer with its stores (last first) as pieces. -/
noncomputable def kernelRun2_A (c : Dev nD) (i : grid2.Coords)
    (arg2 : Memref sig .tc .vmem S1x256x512 .bf16) (harg2 : arg2.IsWhole) (arg3 : Memref sig .tc .vmem S1x2048x512 .bf16) (harg3 : arg3.IsWhole)
    (arg4 : Memref sig .tc .vmem S1x256x512 .f32) (harg4 : arg4.IsWhole) (arg5 : Memref sig .tc .vmem S1x2048x512 .f32) (harg5 : arg5.IsWhole)
    (arg6 : Memref sig .tc .vmem S1x256x512 .f32) (harg6 : arg6.IsWhole) (arg7 : Memref sig .tc .vmem S1x512x2048 .f32) (harg7 : arg7.IsWhole)
    (arg8 : Memref sig .tc .vmem S1x2048 .f32) (harg8 : arg8.IsWhole) (arg9 : Memref sig .tc .vmem S1x2048 .f32) (harg9 : arg9.IsWhole)
    (hc0 : cond2_0 i) (hc1 : ¬cond2_1 i)
    (x0 : Vec F S1x256x512 .bf16) (x1 : Vec F S1x2048x512 .bf16) (x2 : Vec F S1x256x512 .f32) (x3 : Vec F S1x2048x512 .f32)  :
    Σ' (L4 : List (View.Piece (Elt F) S1x256x512 .f32)) (L5 : List (View.Piece (Elt F) S1x512x2048 .f32)) (LS0 : List (View.Piece (Elt F) S1x2048 .f32)), { LS1 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc2__fused_attn_kernel i arg2 harg2 arg3 harg3 arg4 harg4 arg5 harg5 arg6 harg6 arg7 harg7 arg8 harg8 arg9 harg9) K } := by
  refine ⟨?_, ?_, ?_, ?_, fun E K => ?run⟩
  case run =>
    simp only [cc2__fused_attn_kernel_eq_skeleton]; unfold cc2__fused_attn_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.Kernel.Fr

end
-- ==== Proof.KB.AttnRunB.lean ====
/-
  The fused attention body run whole in one of its three control cases: a MIDDLE row tile (the carried rows and the accumulator are updated from what the tile before left).
  The stores each buffer ends with are found by running the body; the run faults nowhere.
-/
import proofs.«104582_j57698590654943_2_alg».proof.Proof.KB.AttnShared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body on whole staging buffers — the four inputs at known contents, the first result's buffer at anything, the accumulator and the two carried rows at what the tile before left — runs to the end,
    the inputs as they were, every written buffer with its stores (last first) as pieces. -/
noncomputable def kernelRun2_B (c : Dev nD) (i : grid2.Coords)
    (arg2 : Memref sig .tc .vmem S1x256x512 .bf16) (harg2 : arg2.IsWhole) (arg3 : Memref sig .tc .vmem S1x2048x512 .bf16) (harg3 : arg3.IsWhole)
    (arg4 : Memref sig .tc .vmem S1x256x512 .f32) (harg4 : arg4.IsWhole) (arg5 : Memref sig .tc .vmem S1x2048x512 .f32) (harg5 : arg5.IsWhole)
    (arg6 : Memref sig .tc .vmem S1x256x512 .f32) (harg6 : arg6.IsWhole) (arg7 : Memref sig .tc .vmem S1x512x2048 .f32) (harg7 : arg7.IsWhole)
    (arg8 : Memref sig .tc .vmem S1x2048 .f32) (harg8 : arg8.IsWhole) (arg9 : Memref sig .tc .vmem S1x2048 .f32) (harg9 : arg9.IsWhole)
    (hc0 : ¬cond2_0 i) (hc1 : ¬cond2_1 i)
    (x0 : Vec F S1x256x512 .bf16) (x1 : Vec F S1x2048x512 .bf16) (x2 : Vec F S1x256x512 .f32) (x3 : Vec F S1x2048x512 .f32) (xo5 : Vec F S1x512x2048 .f32) (xs0 : Vec F S1x2048 .f32) (xs1 : Vec F S1x2048 .f32) :
    Σ' (L4 : List (View.Piece (Elt F) S1x256x512 .f32)) (L5 : List (View.Piece (Elt F) S1x512x2048 .f32)) (LS0 : List (View.Piece (Elt F) S1x2048 .f32)), { LS1 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xo5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc2__fused_attn_kernel i arg2 harg2 arg3 harg3 arg4 harg4 arg5 harg5 arg6 harg6 arg7 harg7 arg8 harg8 arg9 harg9) K } := by
  refine ⟨?_, ?_, ?_, ?_, fun E K => ?run⟩
  case run =>
    simp only [cc2__fused_attn_kernel_eq_skeleton]; unfold cc2__fused_attn_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.Kernel.Fr

end
-- ==== Proof.KB.AttnRunC.lean ====
/-
  The fused attention body run whole in one of its three control cases: the LAST row tile (updated, then the accumulator divided by the running sum).
  The stores each buffer ends with are found by running the body; the run faults nowhere.
-/
import proofs.«104582_j57698590654943_2_alg».proof.Proof.KB.AttnShared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body on whole staging buffers — the four inputs at known contents, the first result's buffer at anything, the accumulator and the two carried rows at what the tile before left — runs to the end,
    the inputs as they were, every written buffer with its stores (last first) as pieces. -/
noncomputable def kernelRun2_C (c : Dev nD) (i : grid2.Coords)
    (arg2 : Memref sig .tc .vmem S1x256x512 .bf16) (harg2 : arg2.IsWhole) (arg3 : Memref sig .tc .vmem S1x2048x512 .bf16) (harg3 : arg3.IsWhole)
    (arg4 : Memref sig .tc .vmem S1x256x512 .f32) (harg4 : arg4.IsWhole) (arg5 : Memref sig .tc .vmem S1x2048x512 .f32) (harg5 : arg5.IsWhole)
    (arg6 : Memref sig .tc .vmem S1x256x512 .f32) (harg6 : arg6.IsWhole) (arg7 : Memref sig .tc .vmem S1x512x2048 .f32) (harg7 : arg7.IsWhole)
    (arg8 : Memref sig .tc .vmem S1x2048 .f32) (harg8 : arg8.IsWhole) (arg9 : Memref sig .tc .vmem S1x2048 .f32) (harg9 : arg9.IsWhole)
    (hc0 : ¬cond2_0 i) (hc1 : cond2_1 i)
    (x0 : Vec F S1x256x512 .bf16) (x1 : Vec F S1x2048x512 .bf16) (x2 : Vec F S1x256x512 .f32) (x3 : Vec F S1x2048x512 .f32) (xo5 : Vec F S1x512x2048 .f32) (xs0 : Vec F S1x2048 .f32) (xs1 : Vec F S1x2048 .f32) :
    Σ' (L4 : List (View.Piece (Elt F) S1x256x512 .f32)) (L5 : List (View.Piece (Elt F) S1x512x2048 .f32)) (LS0 : List (View.Piece (Elt F) S1x2048 .f32)), { LS1 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xo5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc2__fused_attn_kernel i arg2 harg2 arg3 harg3 arg4 harg4 arg5 harg5 arg6 harg6 arg7 harg7 arg8 harg8 arg9 harg9) K } := by
  refine ⟨?_, ?_, ?_, ?_, fun E K => ?run⟩
  case run =>
    simp only [cc2__fused_attn_kernel_eq_skeleton]; unfold cc2__fused_attn_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.Kernel.Fr

end
-- ==== Proof.KB.AttnFrame.lean ====
/-
  Region 2, the fused attention kernel: its proof data and body obligation.
  After the body at a grid point the first result's buffer holds that row tile's block; the accumulator's buffer and the
  two carried rows hold the running values — reset at a batch's first row tile, updated from what the tile before left at
  the others, the accumulator divided by the running sum at the last.  `outsAt2` is that recursion over the 64 points.
  The region's invariant hands the body the two carried rows at what the point before left (at anything before the
  first point) and takes them back at this point's values.
-/
import proofs.«104582_j57698590654943_2_alg».proof.Proof.KB.AttnRunA
import proofs.«104582_j57698590654943_2_alg».proof.Proof.KB.AttnRunB
import proofs.«104582_j57698590654943_2_alg».proof.Proof.KB.AttnRunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the buffers the body writes hold after a point: the first result's block, the accumulator, the running column
    maximum, the running column sum. -/
abbrev St2 (F : FTy → Type) [FloatOps F] : Type := Vec F S1x256x512 .f32 × Vec F S1x512x2048 .f32 × Vec F S1x2048 .f32 × Vec F S1x2048 .f32

theorem nc1_of_c0 (t : Fin cfg2.N) (h0 : t.val % 8 = 0) : ¬cond2_1 (grid2.coords t) := fun h => by
  have := (hcond2_1 t).mp h; omega

/-- The body's run at point `t` in each case, on the point's staging buffers and input blocks. -/
abbrev runA (c : Dev nD) (t : Fin cfg2.N) (h0 : t.val % 8 = 0) :=
  kernelRun2_A (F := F) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (nc1_of_c0 t h0) (iblk2 V c 0 t) (iblk2 V c 1 t) (iblk2 V c 2 t) (iblk2 V c 3 t)
abbrev runB (c : Dev nD) (t : Fin cfg2.N) (h0 : ¬t.val % 8 = 0) (h1 : ¬t.val % 8 = 7) (p : St2 F) :=
  kernelRun2_B (F := F) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) p.2.1 p.2.2.1 p.2.2.2
abbrev runC (c : Dev nD) (t : Fin cfg2.N) (h0 : ¬t.val % 8 = 0) (h1 : t.val % 8 = 7) (p : St2 F) :=
  kernelRun2_C (F := F) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) p.2.1 p.2.2.1 p.2.2.2

/-- In case A the stores into buffer 4 tile it, so they cover it. -/
theorem coverA_4 (c : Dev nD) (t : Fin cfg2.N) (h0 : t.val % 8 = 0) (y : S1x256x512.Idx) :
    ∃ pc ∈ (runA V c t h0).1, y ∈ pc.1.set :=
  View.cover_of_tiledL (runA V c t h0).1 S1x256x512.size (by sl_kernel_rfl) y
/-- In case A the stores into buffer 5 tile it, so they cover it. -/
theorem coverA_5 (c : Dev nD) (t : Fin cfg2.N) (h0 : t.val % 8 = 0) (y : S1x512x2048.Idx) :
    ∃ pc ∈ (runA V c t h0).2.1, y ∈ pc.1.set :=
  View.cover_of_tiledL (runA V c t h0).2.1 S1x512x2048.size (by sl_kernel_rfl) y
/-- In case A the stores into buffer S0 tile it, so they cover it. -/
theorem coverA_S0 (c : Dev nD) (t : Fin cfg2.N) (h0 : t.val % 8 = 0) (y : S1x2048.Idx) :
    ∃ pc ∈ (runA V c t h0).2.2.1, y ∈ pc.1.set :=
  View.cover_of_tiledL (runA V c t h0).2.2.1 S1x2048.size (by sl_kernel_rfl) y
/-- In case A the stores into buffer S1 tile it, so they cover it. -/
theorem coverA_S1 (c : Dev nD) (t : Fin cfg2.N) (h0 : t.val % 8 = 0) (y : S1x2048.Idx) :
    ∃ pc ∈ (runA V c t h0).2.2.2.1, y ∈ pc.1.set :=
  View.cover_of_tiledL (runA V c t h0).2.2.2.1 S1x2048.size (by sl_kernel_rfl) y
/-- What case A leaves in the four written buffers: its stores read back. -/
def stepA (c : Dev nD) (t : Fin cfg2.N) (h0 : t.val % 8 = 0) : St2 F :=
  (VO2_4.read (Elt F) (VO2_4.writes (Elt F) VO2_4.junk (runA V c t h0).1),
   VO2_5.read (Elt F) (VO2_5.writes (Elt F) VO2_5.junk (runA V c t h0).2.1),
   VS2_0.read (Elt F) (VS2_0.writes (Elt F) VS2_0.junk (runA V c t h0).2.2.1),
   VS2_1.read (Elt F) (VS2_1.writes (Elt F) VS2_1.junk (runA V c t h0).2.2.2.1))

/-- In case B the stores into buffer 4 tile it, so they cover it. -/
theorem coverB_4 (c : Dev nD) (t : Fin cfg2.N) (h0 : ¬t.val % 8 = 0) (h1 : ¬t.val % 8 = 7) (p : St2 F) (y : S1x256x512.Idx) :
    ∃ pc ∈ (runB V c t h0 h1 p).1, y ∈ pc.1.set :=
  View.cover_of_tiledL (runB V c t h0 h1 p).1 S1x256x512.size (by sl_kernel_rfl) y
/-- In case B the stores into buffer 5 tile it, so they cover it. -/
theorem coverB_5 (c : Dev nD) (t : Fin cfg2.N) (h0 : ¬t.val % 8 = 0) (h1 : ¬t.val % 8 = 7) (p : St2 F) (y : S1x512x2048.Idx) :
    ∃ pc ∈ (runB V c t h0 h1 p).2.1, y ∈ pc.1.set :=
  View.cover_of_tiledL (runB V c t h0 h1 p).2.1 S1x512x2048.size (by sl_kernel_rfl) y
/-- In case B the stores into buffer S0 tile it, so they cover it. -/
theorem coverB_S0 (c : Dev nD) (t : Fin cfg2.N) (h0 : ¬t.val % 8 = 0) (h1 : ¬t.val % 8 = 7) (p : St2 F) (y : S1x2048.Idx) :
    ∃ pc ∈ (runB V c t h0 h1 p).2.2.1, y ∈ pc.1.set :=
  View.cover_of_tiledL (runB V c t h0 h1 p).2.2.1 S1x2048.size (by sl_kernel_rfl) y
/-- In case B the stores into buffer S1 tile it, so they cover it. -/
theorem coverB_S1 (c : Dev nD) (t : Fin cfg2.N) (h0 : ¬t.val % 8 = 0) (h1 : ¬t.val % 8 = 7) (p : St2 F) (y : S1x2048.Idx) :
    ∃ pc ∈ (runB V c t h0 h1 p).2.2.2.1, y ∈ pc.1.set :=
  View.cover_of_tiledL (runB V c t h0 h1 p).2.2.2.1 S1x2048.size (by sl_kernel_rfl) y
/-- What case B leaves in the four written buffers: its stores read back. -/
def stepB (c : Dev nD) (t : Fin cfg2.N) (h0 : ¬t.val % 8 = 0) (h1 : ¬t.val % 8 = 7) (p : St2 F) : St2 F :=
  (VO2_4.read (Elt F) (VO2_4.writes (Elt F) VO2_4.junk (runB V c t h0 h1 p).1),
   VO2_5.read (Elt F) (VO2_5.writes (Elt F) VO2_5.junk (runB V c t h0 h1 p).2.1),
   VS2_0.read (Elt F) (VS2_0.writes (Elt F) VS2_0.junk (runB V c t h0 h1 p).2.2.1),
   VS2_1.read (Elt F) (VS2_1.writes (Elt F) VS2_1.junk (runB V c t h0 h1 p).2.2.2.1))

/-- In case C the stores into buffer 4 tile it, so they cover it. -/
theorem coverC_4 (c : Dev nD) (t : Fin cfg2.N) (h0 : ¬t.val % 8 = 0) (h1 : t.val % 8 = 7) (p : St2 F) (y : S1x256x512.Idx) :
    ∃ pc ∈ (runC V c t h0 h1 p).1, y ∈ pc.1.set :=
  View.cover_of_tiledL (runC V c t h0 h1 p).1 S1x256x512.size (by sl_kernel_rfl) y
/-- In case C the stores into buffer 5 tile it, so they cover it. -/
theorem coverC_5 (c : Dev nD) (t : Fin cfg2.N) (h0 : ¬t.val % 8 = 0) (h1 : t.val % 8 = 7) (p : St2 F) (y : S1x512x2048.Idx) :
    ∃ pc ∈ (runC V c t h0 h1 p).2.1, y ∈ pc.1.set :=
  View.cover_of_tiledL (runC V c t h0 h1 p).2.1 S1x512x2048.size (by sl_kernel_rfl) y
/-- In case C the stores into buffer S0 tile it, so they cover it. -/
theorem coverC_S0 (c : Dev nD) (t : Fin cfg2.N) (h0 : ¬t.val % 8 = 0) (h1 : t.val % 8 = 7) (p : St2 F) (y : S1x2048.Idx) :
    ∃ pc ∈ (runC V c t h0 h1 p).2.2.1, y ∈ pc.1.set :=
  View.cover_of_tiledL (runC V c t h0 h1 p).2.2.1 S1x2048.size (by sl_kernel_rfl) y
/-- In case C the stores into buffer S1 tile it, so they cover it. -/
theorem coverC_S1 (c : Dev nD) (t : Fin cfg2.N) (h0 : ¬t.val % 8 = 0) (h1 : t.val % 8 = 7) (p : St2 F) (y : S1x2048.Idx) :
    ∃ pc ∈ (runC V c t h0 h1 p).2.2.2.1, y ∈ pc.1.set :=
  View.cover_of_tiledL (runC V c t h0 h1 p).2.2.2.1 S1x2048.size (by sl_kernel_rfl) y
/-- What case C leaves in the four written buffers: its stores read back. -/
def stepC (c : Dev nD) (t : Fin cfg2.N) (h0 : ¬t.val % 8 = 0) (h1 : t.val % 8 = 7) (p : St2 F) : St2 F :=
  (VO2_4.read (Elt F) (VO2_4.writes (Elt F) VO2_4.junk (runC V c t h0 h1 p).1),
   VO2_5.read (Elt F) (VO2_5.writes (Elt F) VO2_5.junk (runC V c t h0 h1 p).2.1),
   VS2_0.read (Elt F) (VS2_0.writes (Elt F) VS2_0.junk (runC V c t h0 h1 p).2.2.1),
   VS2_1.read (Elt F) (VS2_1.writes (Elt F) VS2_1.junk (runC V c t h0 h1 p).2.2.2.1))

/-- One point's step: the case the row-tile coordinate selects, over what the point before left. -/
def step2 (c : Dev nD) (t : Fin cfg2.N) (p : St2 F) : St2 F :=
  if h0 : t.val % 8 = 0 then stepA V c t h0
  else if h1 : t.val % 8 = 7 then stepC V c t h0 h1 p
  else stepB V c t h0 h1 p

/-- Arbitrary contents, standing for "before the first point" (the first point's case never reads them). -/
def junkSt : St2 F := (VO2_4.read (Elt F) VO2_4.junk, VO2_5.read (Elt F) VO2_5.junk, VS2_0.read (Elt F) VS2_0.junk, VS2_1.read (Elt F) VS2_1.junk)

/-- THE ACCUMULATION: what the written buffers hold after the body at position `n`. -/
def outsAt2 (c : Dev nD) : (n : ℕ) → n < cfg2.N → St2 F
  | 0, hn => step2 V c ⟨0, hn⟩ junkSt
  | n + 1, hn => step2 V c ⟨n + 1, hn⟩ (outsAt2 c n (Nat.lt_of_succ_lt hn))

/-- What the point before `t` left (arbitrary before the first). -/
def prevAt2 (c : Dev nD) (t : Fin cfg2.N) : St2 F :=
  if h : t.val = 0 then junkSt else outsAt2 V c (t.val - 1) (Nat.lt_of_le_of_lt (Nat.sub_le _ _) t.isLt)

theorem prevAt2_pos (c : Dev nD) (t : Fin cfg2.N) (hz : t.val ≠ 0) :
    prevAt2 V c t = outsAt2 V c (t.val - 1) (Nat.lt_of_le_of_lt (Nat.sub_le _ _) t.isLt) := dif_neg hz

theorem outsAt2_eq (c : Dev nD) (t : Fin cfg2.N) : outsAt2 V c t.val t.isLt = step2 V c t (prevAt2 V c t) := by
  obtain ⟨n, hn⟩ := t
  cases n with
  | zero => rfl
  | succ n => rfl

theorem outsAt2_A (c : Dev nD) (t : Fin cfg2.N) (h0 : t.val % 8 = 0) : outsAt2 V c t.val t.isLt = stepA V c t h0 := by
  rw [outsAt2_eq]; unfold step2; rw [dif_pos h0]
theorem outsAt2_B (c : Dev nD) (t : Fin cfg2.N) (h0 : ¬t.val % 8 = 0) (h1 : ¬t.val % 8 = 7) :
    outsAt2 V c t.val t.isLt = stepB V c t h0 h1 (outsAt2 V c (t.val - 1) (Nat.lt_of_le_of_lt (Nat.sub_le _ _) t.isLt)) := by
  rw [outsAt2_eq]; unfold step2; rw [dif_neg h0, dif_neg h1, prevAt2_pos V c t (fun h => h0 (by rw [h]))]
theorem outsAt2_C (c : Dev nD) (t : Fin cfg2.N) (h0 : ¬t.val % 8 = 0) (h1 : t.val % 8 = 7) :
    outsAt2 V c t.val t.isLt = stepC V c t h0 h1 (outsAt2 V c (t.val - 1) (Nat.lt_of_le_of_lt (Nat.sub_le _ _) t.isLt)) := by
  rw [outsAt2_eq]; unfold step2; rw [dif_neg h0, dif_pos h1, prevAt2_pos V c t (fun h => h0 (by rw [h]))]

/-- The core's scoped buffers that belong to the other two regions' staging, each whole at some contents. -/
abbrev R10 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant splits into those ten buffers, the two scratch rows at some contents, and the generator register. -/
theorem PhiA2_split (c : Dev nD) : (Pipeline.ΦA spec2 c : sProp 𝕄)
    ⊢ iprop(R10 c ∗ (∃ d, owns (c : Thread nD τ) scM2_0 fullShare d) ∗ (∃ d, owns (c : Thread nD τ) scM2_1 fullShare d) ∗ (∃ r, prngReg c r)) := by
  unfold Pipeline.ΦA; rw [scopedRest2_eq]; simp only [scM2_0, scM2_1, owns_whole]
  iintro ⟨⟨H1, H2, H3, H4, H5, H6, H7, H8, H9, H10, H11, H12⟩, Hg⟩
  isplitl [H1 H2 H3 H4 H5 H6 H7 H8 H9 H10]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11]; · iexact H11
  isplitl [H12]; · iexact H12
  iexact Hg

/-- and is put back together from them. -/
theorem PhiA2_join (c : Dev nD) : iprop(R10 c ∗ (∃ d, owns (c : Thread nD τ) scM2_0 fullShare d) ∗ (∃ d, owns (c : Thread nD τ) scM2_1 fullShare d) ∗ (∃ r, prngReg c r))
    ⊢ (Pipeline.ΦA spec2 c : sProp 𝕄) := by
  unfold Pipeline.ΦA; rw [scopedRest2_eq]; simp only [scM2_0, scM2_1, owns_whole]
  iintro ⟨⟨H1, H2, H3, H4, H5, H6, H7, H8, H9, H10⟩, H11, H12, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iexact Hg

/-- The region invariant before position `n`: before the first point the class's (every scratch at anything); afterwards
    the two carried rows at what the point before left in them. -/
def PhiS2 (c : Dev nD) : (n : ℕ) → n ≤ cfg2.N → sProp 𝕄
  | 0, _ => Pipeline.ΦA spec2 c
  | n + 1, hn => iprop(R10 c ∗ owns (c : Thread nD τ) scM2_0 fullShare (outsAt2 V c n hn).2.2.1 ∗ owns (c : Thread nD τ) scM2_1 fullShare (outsAt2 V c n hn).2.2.2 ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(R10 c ∗ owns (c : Thread nD τ) scM2_0 fullShare (outsAt2 V c n hn).2.2.1 ∗ owns (c : Thread nD τ) scM2_1 fullShare (outsAt2 V c n hn).2.2.2 ∗ (∃ r, prngReg c r)) := rfl
theorem PhiS2_pos (c : Dev nD) (n : ℕ) (h : n ≤ cfg2.N) (hz : n ≠ 0) :
    PhiS2 V c n h = iprop(R10 c ∗ owns (c : Thread nD τ) scM2_0 fullShare (outsAt2 V c (n - 1) (by omega)).2.2.1 ∗ owns (c : Thread nD τ) scM2_1 fullShare (outsAt2 V c (n - 1) (by omega)).2.2.2 ∗ (∃ r, prngReg c r)) := by
  cases n with
  | zero => exact absurd rfl hz
  | succ n => rfl

/-- At any position the invariant gives the ten buffers, the two rows at SOME contents and the generator register. -/
theorem PhiS2_weak (c : Dev nD) (n : ℕ) (h : n ≤ cfg2.N) : PhiS2 V c n h
    ⊢ iprop(R10 c ∗ (∃ d, owns (c : Thread nD τ) scM2_0 fullShare d) ∗ (∃ d, owns (c : Thread nD τ) scM2_1 fullShare d) ∗ (∃ r, prngReg c r)) := by
  cases n with
  | zero => exact PhiA2_split c
  | succ n =>
    rw [PhiS2_succ]
    iintro ⟨HR, HS0, HS1, Hg⟩
    isplitl [HR]; · iexact HR
    isplitl [HS0]; · iexists _; iexact HS0
    isplitl [HS1]; · iexists _; iexact HS1
    iexact Hg

/-- The proof data of region 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem after2_5 (c : Dev nD) (t : Fin cfg2.N) : (dat2 V c).after 5 t = (outsAt2 V c t.val t.isLt).2.1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
/-- At a point that is not a batch's first row tile the accumulator's staging buffer holds what the body left at the point
    before: it was not written back between. -/
theorem before2_5_kept (c : Dev nD) (t : Fin cfg2.N) (h0 : ¬t.val % 8 = 0) (d) :
    (dat2 V c).before 5 t d = (outsAt2 V c (t.val - 1) (Nat.lt_of_le_of_lt (Nat.sub_le _ _) t.isLt)).2.1 := by
  have hN : t.val < 64 := lt_of_lt_of_eq t.isLt (show cfg2.N = 64 from N_2)
  rw [Dat.before_out_kept _ 5 rfl t (fun h => h0 (by rw [h])) (Bool.eq_false_iff.mpr fun h => by have := (flush2_5 _).mp h; dsimp only at this; omega)
    (fun _ => rfl) (fun _ _ => rfl)]
  dsimp only [dat2]

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t))

set_option maxHeartbeats 4800000 in
/-- The body at any point: the case is decided by the point's position in its batch; the input buffers hold their blocks;
    the accumulator's buffer and the carried rows hold what the point before left (or anything, at a batch's first tile). -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4, after2_5, PhiS2_castSucc V c t]
  have hN : t.val < 64 := lt_of_lt_of_eq t.isLt (show cfg2.N = 64 from N_2)
  by_cases h0 : t.val % 8 = 0
  · rw [outsAt2_A V c t h0]
    unfold stepA; dsimp only
    iintro ⟨HΦ, Ho, ⟨%d0, H0⟩, ⟨%d1, H1⟩, ⟨%d2, H2⟩, ⟨%d3, H3⟩, ⟨%d4, H4⟩, ⟨%d5, H5⟩⟩
    ihave HΦ' := (PhiS2_weak V c t.val (Nat.le_of_lt t.isLt)) $$ HΦ
    icases HΦ' with ⟨HR, HS0, HS1, Hg⟩
    iapply ((runA V c t h0).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, ⟨%e4, H4⟩, ⟨%e5, H5⟩, ⟨%es0, HS0⟩, ⟨%es1, HS1⟩⟩
    isplitl [HR HS0 HS1 Hg]
    · isplitl [HR]; · iexact HR
      isplitl [HS0]
      · unfold owns; iexists _; isplitr
        swap; · iexact HS0
        ipureintro; exact View.read_writes_of_cover _ _ _ _ _ (coverA_S0 V c t h0)
      isplitl [HS1]
      · unfold owns; iexists _; isplitr
        swap; · iexact HS1
        ipureintro; exact View.read_writes_of_cover _ _ _ _ _ (coverA_S1 V c t h0)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA_4 V c t h0)
    unfold owns; iexists _; isplitr
    swap; · iexact H5
    ipureintro; exact View.read_writes_of_cover _ _ _ _ _ (coverA_5 V c t h0)
  · by_cases h1 : t.val % 8 = 7
    · rw [outsAt2_C V c t h0 h1]
      simp only [before2_5_kept V c t h0]
      rw [PhiS2_pos V c t.val (Nat.le_of_lt t.isLt) (fun h => h0 (by rw [h]))]
      unfold stepC; dsimp only
      iintro ⟨⟨HR, HS0, HS1, Hg⟩, Ho, ⟨%d0, H0⟩, ⟨%d1, H1⟩, ⟨%d2, H2⟩, ⟨%d3, H3⟩, ⟨%d4, H4⟩, ⟨%d5, H5⟩⟩
      iapply ((runC V c t h0 h1 (outsAt2 V c (t.val - 1) (Nat.lt_of_le_of_lt (Nat.sub_le _ _) t.isLt))).2.2.2.2 Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HR HS0 HS1 Hg]
      · isplitl [HR]; · iexact HR
        isplitl [HS0]
        · unfold owns; iexists _; isplitr
          swap; · iexact HS0
          ipureintro; exact View.read_writes_of_cover _ _ _ _ _ (coverC_S0 V c t h0 h1 _)
        isplitl [HS1]
        · unfold owns; iexists _; isplitr
          swap; · iexact HS1
          ipureintro; exact View.read_writes_of_cover _ _ _ _ _ (coverC_S1 V c t h0 h1 _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC_4 V c t h0 h1 _)
      unfold owns; iexists _; isplitr
      swap; · iexact H5
      ipureintro; exact View.read_writes_of_cover _ _ _ _ _ (coverC_5 V c t h0 h1 _)
    · rw [outsAt2_B V c t h0 h1]
      simp only [before2_5_kept V c t h0]
      rw [PhiS2_pos V c t.val (Nat.le_of_lt t.isLt) (fun h => h0 (by rw [h]))]
      unfold stepB; dsimp only
      iintro ⟨⟨HR, HS0, HS1, Hg⟩, Ho, ⟨%d0, H0⟩, ⟨%d1, H1⟩, ⟨%d2, H2⟩, ⟨%d3, H3⟩, ⟨%d4, H4⟩, ⟨%d5, H5⟩⟩
      iapply ((runB V c t h0 h1 (outsAt2 V c (t.val - 1) (Nat.lt_of_le_of_lt (Nat.sub_le _ _) t.isLt))).2.2.2.2 Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HR HS0 HS1 Hg]
      · isplitl [HR]; · iexact HR
        isplitl [HS0]
        · unfold owns; iexists _; isplitr
          swap; · iexact HS0
          ipureintro; exact View.read_writes_of_cover _ _ _ _ _ (coverB_S0 V c t h0 h1 _)
        isplitl [HS1]
        · unfold owns; iexists _; isplitr
          swap; · iexact HS1
          ipureintro; exact View.read_writes_of_cover _ _ _ _ _ (coverB_S1 V c t h0 h1 _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverB_4 V c t h0 h1 _)
      unfold owns; iexists _; isplitr
      swap; · iexact H5
      ipureintro; exact View.read_writes_of_cover _ _ _ _ _ (coverB_5 V c t h0 h1 _)

/-- The body obligation of region 2, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the carried rows' values are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl]
  exact (PhiS2_weak V c _ _).trans (PhiA2_join c)

end Cert.Kernel.Fr

end
-- ==== Proof.KB.RunAll.lean ====
/-
  The whole program as four segments — the two projection regions, the attention region, the host transpose — with the
  contents of every unscoped buffer named at each boundary: `Wa` at launch, `Wb` / `Wc` / `Wd` after regions 0 / 1 / 2
  (a region's arrays at what its write-backs leave, every other buffer as entered), `We` after the transpose.
  Every weakly fair execution terminates without a fault with every unscoped buffer at `We`; the argument arrays are
  read back through the boundaries to their launch contents.
-/
import proofs.«104582_j57698590654943_2_alg».proof.Proof.KB.Proj0
import proofs.«104582_j57698590654943_2_alg».proof.Proof.KB.Proj1
import proofs.«104582_j57698590654943_2_alg».proof.Proof.KB.AttnFrame

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev Wa : Dev nD → Valuation τ sig (Elt F) := fun c b => m (c, b)
abbrev Va : (c : Dev nD) → (b : Ref sig .tc) → Buf (Elt F) ((c : Thread nD τ).loc b) := fun c b => Wa m c b

/-- At region 0's exit: its arrays at what its write-backs leave, every other buffer as entered. -/
def Wb (c : Dev nD) : Valuation τ sig (Elt F) :=
  Pipeline.withArrays spec0 c (Wa m c) fun w => (dat0 (Va m) c).arrAt w cfg0.N
theorem Wb_arr (c : Dev nD) (w : Fin cfg0.W) :
    Wb m c (Proc.devRef .tc (Pipeline.arrRef spec0 w)) = (dat0 (Va m) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m c (Proc.devRef .tc b) = Wa m c (Proc.devRef .tc b) := by
  unfold Wb; exact Pipeline.withArrays_of_ne spec0 c _ _ b hb
/-- The same read at the TensorCore's references. -/
abbrev Vb : (c : Dev nD) → (b : Ref sig .tc) → Buf (Elt F) ((c : Thread nD τ).loc b) := fun c b => Wb m c b
theorem hF0 (c : Dev nD) (w : Fin cfg0.W) : (dat0 (Va m) c).arrAt w cfg0.N = Vb m c (Pipeline.arrRef spec0 w) :=
  (Wb_arr m c w).symm
theorem hrest0 (c : Dev nD) : ∀ b, b ∉ Finset.univ.image (Pipeline.arrRef spec0) → Vb m c b = Va m c b :=
  fun b hb => Wb_of_ne m c b fun w e => hb (Finset.mem_image.mpr ⟨w, Finset.mem_univ _, e⟩)

/-- At region 1's exit: its arrays at what its write-backs leave, every other buffer as entered. -/
def Wc (c : Dev nD) : Valuation τ sig (Elt F) :=
  Pipeline.withArrays spec1 c (Wb m c) fun w => (dat1 (Vb m) c).arrAt w cfg1.N
theorem Wc_arr (c : Dev nD) (w : Fin cfg1.W) :
    Wc m c (Proc.devRef .tc (Pipeline.arrRef spec1 w)) = (dat1 (Vb m) c).arrAt w cfg1.N := by
  unfold Wc; exact Pipeline.withArrays_arr spec1 launch1.win.arr_inj c _ _ w
theorem Wc_of_ne (c : Dev nD) (b : Ref sig .tc) (hb : ∀ w, Pipeline.arrRef spec1 w ≠ b) :
    Wc m c (Proc.devRef .tc b) = Wb m c (Proc.devRef .tc b) := by
  unfold Wc; exact Pipeline.withArrays_of_ne spec1 c _ _ b hb
/-- The same read at the TensorCore's references. -/
abbrev Vc : (c : Dev nD) → (b : Ref sig .tc) → Buf (Elt F) ((c : Thread nD τ).loc b) := fun c b => Wc m c b
theorem hF1 (c : Dev nD) (w : Fin cfg1.W) : (dat1 (Vb m) c).arrAt w cfg1.N = Vc m c (Pipeline.arrRef spec1 w) :=
  (Wc_arr m c w).symm
theorem hrest1 (c : Dev nD) : ∀ b, b ∉ Finset.univ.image (Pipeline.arrRef spec1) → Vc m c b = Vb m c b :=
  fun b hb => Wc_of_ne m c b fun w e => hb (Finset.mem_image.mpr ⟨w, Finset.mem_univ _, e⟩)

/-- At region 2's exit: its arrays at what its write-backs leave, every other buffer as entered. -/
def Wd (c : Dev nD) : Valuation τ sig (Elt F) :=
  Pipeline.withArrays spec2 c (Wc m c) fun w => (dat2 (Vc m) c).arrAt w cfg2.N
theorem Wd_arr (c : Dev nD) (w : Fin cfg2.W) :
    Wd m c (Proc.devRef .tc (Pipeline.arrRef spec2 w)) = (dat2 (Vc m) c).arrAt w cfg2.N := by
  unfold Wd; exact Pipeline.withArrays_arr spec2 launch2.win.arr_inj c _ _ w
theorem Wd_of_ne (c : Dev nD) (b : Ref sig .tc) (hb : ∀ w, Pipeline.arrRef spec2 w ≠ b) :
    Wd m c (Proc.devRef .tc b) = Wc m c (Proc.devRef .tc b) := by
  unfold Wd; exact Pipeline.withArrays_of_ne spec2 c _ _ b hb
/-- The same read at the TensorCore's references. -/
abbrev Vd : (c : Dev nD) → (b : Ref sig .tc) → Buf (Elt F) ((c : Thread nD τ).loc b) := fun c b => Wd m c b
theorem hF2 (c : Dev nD) (w : Fin cfg2.W) : (dat2 (Vc m) c).arrAt w cfg2.N = Vd m c (Pipeline.arrRef spec2 w) :=
  (Wd_arr m c w).symm
theorem hrest2 (c : Dev nD) : ∀ b, b ∉ Finset.univ.image (Pipeline.arrRef spec2) → Vd m c b = Vc m c b :=
  fun b hb => Wd_of_ne m c b fun w e => hb (Finset.mem_image.mpr ⟨w, Finset.mem_univ _, e⟩)

/-- After the host transpose. -/
abbrev We : Dev nD → Valuation τ sig (Elt F) := fun c => StableHlo.after hostOps3 (Wd m c)

theorem hostOps3_fresh' : (hostOps3 : List (HloOp τ sig (Elt F))).Forall fun op => op.fresh = ∅ := by
  simp only [List.Forall]; repeat' constructor

/-- The transpose writes only its own result buffer. -/
theorem We_of (c : Dev nD) (b : Ref sig .tc) (hb : b ≠ main_v3) : We m c (Proc.devRef .tc b) = Wd m c (Proc.devRef .tc b) :=
  StableHlo.after_of_forall_not_mem (b := Proc.devRef .tc b) _ _ (List.forall_iff_forall_mem.mp (by
    simp only [hostOps3, List.Forall, StableHlo.unary_writes, Finset.mem_singleton]
    exact StableHlo.devRef_ne_of_ne hb))

/-! ## The arguments end as launched -/

theorem We_main_arg0 (c : Dev nD) : We m c (Proc.devRef .tc main_arg0) = m ((c : Thread nD τ).loc main_arg0) :=
  calc We m c (Proc.devRef .tc main_arg0)
    _ = Wd m c (Proc.devRef .tc main_arg0) := We_of m c main_arg0 (by decide)
    _ = Wc m c (Proc.devRef .tc main_arg0) := (Wd_arr m c 2).trans (((dat2 (Vc m) c).arrAt_in 2 rfl _).trans (A_eq2 (Vc m) c 2))
    _ = Wb m c (Proc.devRef .tc main_arg0) := Wc_of_ne m c main_arg0 (by decide)
    _ = Wa m c (Proc.devRef .tc main_arg0) := (Wb_arr m c 0).trans (((dat0 (Va m) c).arrAt_in 0 rfl _).trans (A_eq0 (Va m) c 0))
    _ = m ((c : Thread nD τ).loc main_arg0) := rfl
theorem We_main_arg1 (c : Dev nD) : We m c (Proc.devRef .tc main_arg1) = m ((c : Thread nD τ).loc main_arg1) :=
  calc We m c (Proc.devRef .tc main_arg1)
    _ = Wd m c (Proc.devRef .tc main_arg1) := We_of m c main_arg1 (by decide)
    _ = Wc m c (Proc.devRef .tc main_arg1) := (Wd_arr m c 3).trans (((dat2 (Vc m) c).arrAt_in 3 rfl _).trans (A_eq2 (Vc m) c 3))
    _ = Wb m c (Proc.devRef .tc main_arg1) := (Wc_arr m c 0).trans (((dat1 (Vb m) c).arrAt_in 0 rfl _).trans (A_eq1 (Vb m) c 0))
    _ = Wa m c (Proc.devRef .tc main_arg1) := Wb_of_ne m c main_arg1 (by decide)
    _ = m ((c : Thread nD τ).loc main_arg1) := rfl
theorem We_main_arg2 (c : Dev nD) : We m c (Proc.devRef .tc main_arg2) = m ((c : Thread nD τ).loc main_arg2) :=
  calc We m c (Proc.devRef .tc main_arg2)
    _ = Wd m c (Proc.devRef .tc main_arg2) := We_of m c main_arg2 (by decide)
    _ = Wc m c (Proc.devRef .tc main_arg2) := Wd_of_ne m c main_arg2 (by decide)
    _ = Wb m c (Proc.devRef .tc main_arg2) := Wc_of_ne m c main_arg2 (by decide)
    _ = Wa m c (Proc.devRef .tc main_arg2) := (Wb_arr m c 1).trans (((dat0 (Va m) c).arrAt_in 1 rfl _).trans (A_eq0 (Va m) c 1))
    _ = m ((c : Thread nD τ).loc main_arg2) := rfl
theorem We_main_arg3 (c : Dev nD) : We m c (Proc.devRef .tc main_arg3) = m ((c : Thread nD τ).loc main_arg3) :=
  calc We m c (Proc.devRef .tc main_arg3)
    _ = Wd m c (Proc.devRef .tc main_arg3) := We_of m c main_arg3 (by decide)
    _ = Wc m c (Proc.devRef .tc main_arg3) := Wd_of_ne m c main_arg3 (by decide)
    _ = Wb m c (Proc.devRef .tc main_arg3) := (Wc_arr m c 1).trans (((dat1 (Vb m) c).arrAt_in 1 rfl _).trans (A_eq1 (Vb m) c 1))
    _ = Wa m c (Proc.devRef .tc main_arg3) := Wb_of_ne m c main_arg3 (by decide)
    _ = m ((c : Thread nD τ).loc main_arg3) := rfl

/-! ## The proof data family and the thread state -/

abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Va m) c
  | ⟨1, _⟩ => fun c => dat1 (Vb m) c
  | ⟨2, _⟩ => fun c => dat2 (Vc m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (We m c) ∗ ∃ r, prngReg c r)

set_option backward.isDefEq.respectTransparency.types false in
/-- Region 0 as a segment: entered with every unscoped buffer at `Wa`, left with them at `Wb`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ L lv 0 fun _ _ => rfl
  pre c := iprop(StableHlo.held (c : Thread nD τ) (Pipeline.ucRefs τ sig) (Wa m c) ∗ R c)
  post c := iprop(StableHlo.held (c : Thread nD τ) (Pipeline.ucRefs τ sig) (Wb m c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (Vb m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `Wb`, left with them at `Wc`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m) c).loose
  hwaits := Pipeline.hwaits_of_owed_zero _ _ _ _ L lv 1 fun _ _ => rfl
  pre c := iprop(StableHlo.held (c : Thread nD τ) (Pipeline.ucRefs τ sig) (Wb m c) ∗ R c)
  post c := iprop(StableHlo.held (c : Thread nD τ) (Pipeline.ucRefs τ sig) (Wc m c) ∗ R c)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vb m c) (Vc m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `Wc`, left with them at `Wd`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vc m) c).loose
  hwaits := Pipeline.hwaits_of_owed_zero _ _ _ _ L lv 2 fun _ _ => rfl
  pre c := iprop(StableHlo.held (c : Thread nD τ) (Pipeline.ucRefs τ sig) (Wc m c) ∗ R c)
  post c := iprop(StableHlo.held (c : Thread nD τ) (Pipeline.ucRefs τ sig) (Wd m c) ∗ R c)
  X c := iprop(∃ r, prngReg c r)
  Y c := iprop(∃ r, prngReg c r)
  Z c := Pipeline.unscopedRest (Ix := Unit) (Name := ℕ) (U := UR sig nD τ) (Lvl := ℕ) spec2 c (Vc m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vc m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]
    unfold Pipeline.ΦA
    iintro ⟨Hp, -, Hr⟩
    isplitl [Hr]; · iexact Hr
    iexact Hp
  hout c := by
    rw [Pipeline.ownSems0_none]; refine (hout2 (Vc m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vc m c) (Vd m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's four segments in order. -/
abbrev segs : List (Pipeline.Seg (pcfgs (F := F)) adm (pdats m) () defs₀ 𝒱₀ L lv) :=
  [ .region (reg0 m), .region (reg1 m), .region (reg2 m),
    .host (hseg hostOps3 hostOps3_sub hostOps3_fresh' (Wd m)) ]
theorem main_run (c : Dev nD) : main (F := F) c = Pipeline.Seg.run (segs m) := (main_chain c).trans (by chain_rfl)

set_option backward.isDefEq.respectTransparency.types false in
/-- THE RUN: from any memory with zero counters every weakly fair execution terminates, nothing faulting, and every
    unscoped buffer ends at `We`. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = We m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m c) ∗ R c)) (Tₙ := Tₙ m)
    (hch := ⟨fun _ => .rfl, fun _ => .rfl, fun _ => .rfl, fun _ => .rfl, fun c => by
      show iprop(StableHlo.held (c : Thread nD τ) (Pipeline.ucRefs τ sig) (We m c) ∗ R c) ⊢ iprop(Tₙ m c ∗ ∃ W, owes (c : Thread nD τ) (0 : CellTallies nD τ sig Unit) W)
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (Wa m c)
        from Pipeline.unscopedBufs_held c (Wa m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = We m c b)
    (hfin := fun c s' => by
      iintro ⟨⟨Hh, -⟩, HSI⟩
      unfold StableHlo.held
      imodintro
      iapply (pointsTo_read_all (Pipeline.ucRefs τ sig) (fun b => (((c : Thread nD τ)).1, b)) (We m c) s')
      isplitl [Hh] <;> iassumption)
    (hQ := fun s h c => h c)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (We_main_arg0 m c),
     (h c _ (mem_uc main_arg1 (by decide))).trans (We_main_arg1 m c),
     (h c _ (mem_uc main_arg2 (by decide))).trans (We_main_arg2 m c),
     (h c _ (mem_uc main_arg3 (by decide))).trans (We_main_arg3 m c)⟩) (run_all m ρ)

end Cert.Kernel.Fr

end
-- ==== Proof.KI.Proj0.lean ====
/-
  Region 0 of the program: the projection kernel `y = x · wᵀ` on one batch slab per grid point.
  Its three windows are the slab of the input (block `t` of the array), the whole weight matrix (one block, never
  moving) and the slab of the result.  The body loads the two inputs whole and stores one value — the matrix product,
  rounded — over the whole result block; so after the body each input buffer holds its block and the output buffer holds
  that one stored value.  Stated at any float instance.
-/
import proofs.«104582_j57698590654943_2_alg».proof.Proof.Gen.KernelIdeal.Launch
import proofs.«104582_j57698590654943_2_alg».proof.Proof.Gen.KernelIdeal.Skeleton
import proofs.«104582_j57698590654943_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input slab's staging buffer holds block `t` of its array at point `t`. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole matrix at every point (its block never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rx0 : Rect S1x2048x512 := Rect.unit (s := S1x2048x512) ![0, 0, 0] S1x2048x512.size inb_S1x2048x512_S1x2048x512_0_0_0
abbrev rw0 : Rect S512x512 := Rect.unit (s := S512x512) ![0, 0] S512x512.size inb_S512x512_S512x512_0_0

/-- What the body leaves in the result's staging buffer: its one store, of the rounded product of the two loads. -/
def out0_2 (x0 : Vec F S1x2048x512 .f32) (x1 : Vec F S512x512 .f32) : Vec F S1x2048x512 .bf16 :=
  View.canon [⟨rx0, k0_pay1 (View.ld x0 rx0) (View.ld x1 rw0)⟩]

/-- The one store covers the whole block. -/
theorem cover0_2 (p0 : Vec F S1x2048x512 .bf16) (y : S1x2048x512.Idx) :
    ∃ pc ∈ ([⟨rx0, p0⟩] : List (View.Piece (Elt F) S1x2048x512 .bf16)), y ∈ pc.1.set :=
  View.cover_of_tiled [⟨rx0, p0⟩] S1x2048x512.size (by rfl) y

set_option maxHeartbeats 1000000 in
/-- The body on whole staging buffers, the inputs at known contents and the output at anything, runs without a fault
    and leaves the inputs as they were and the output at `out0_2` of them. -/
theorem sound_kernel0 (c : Dev nD) (E : Set ℕ) (i : grid0.Coords) (arg1 : Memref sig .tc .vmem S1x2048x512 .f32) (harg1 : arg1.IsWhole)
    (arg2 : Memref sig .tc .vmem S512x512 .f32) (harg2 : arg2.IsWhole) (arg3 : Memref sig .tc .vmem S1x2048x512 .bf16) (harg3 : arg3.IsWhole)
    (x0 : Vec F S1x2048x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this region on core `c`: the arrays as found; after the body at point `t` each input buffer at
    its block and the result buffer at `out0_2` of the two input blocks; nothing else carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Proj1.lean ====
/-
  Region 1 of the program: the projection kernel `y = x · wᵀ` on one batch slab per grid point.
  Its three windows are the slab of the input (block `t` of the array), the whole weight matrix (one block, never
  moving) and the slab of the result.  The body loads the two inputs whole and stores one value — the matrix product,
  rounded — over the whole result block; so after the body each input buffer holds its block and the output buffer holds
  that one stored value.  Stated at any float instance.
-/
import proofs.«104582_j57698590654943_2_alg».proof.Proof.Gen.KernelIdeal.Launch
import proofs.«104582_j57698590654943_2_alg».proof.Proof.Gen.KernelIdeal.Skeleton
import proofs.«104582_j57698590654943_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input slab's staging buffer holds block `t` of its array at point `t`. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight's staging buffer holds the whole matrix at every point (its block never moves). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rx1 : Rect S1x2048x512 := Rect.unit (s := S1x2048x512) ![0, 0, 0] S1x2048x512.size inb_S1x2048x512_S1x2048x512_0_0_0
abbrev rw1 : Rect S512x512 := Rect.unit (s := S512x512) ![0, 0] S512x512.size inb_S512x512_S512x512_0_0

/-- What the body leaves in the result's staging buffer: its one store, of the rounded product of the two loads. -/
def out1_2 (x0 : Vec F S1x2048x512 .f32) (x1 : Vec F S512x512 .f32) : Vec F S1x2048x512 .bf16 :=
  View.canon [⟨rx1, k1_pay1 (View.ld x0 rx1) (View.ld x1 rw1)⟩]

/-- The one store covers the whole block. -/
theorem cover1_2 (p0 : Vec F S1x2048x512 .bf16) (y : S1x2048x512.Idx) :
    ∃ pc ∈ ([⟨rx1, p0⟩] : List (View.Piece (Elt F) S1x2048x512 .bf16)), y ∈ pc.1.set :=
  View.cover_of_tiled [⟨rx1, p0⟩] S1x2048x512.size (by rfl) y

set_option maxHeartbeats 1000000 in
/-- The body on whole staging buffers, the inputs at known contents and the output at anything, runs without a fault
    and leaves the inputs as they were and the output at `out1_2` of them. -/
theorem sound_kernel1 (c : Dev nD) (E : Set ℕ) (i : grid1.Coords) (arg1 : Memref sig .tc .vmem S1x2048x512 .f32) (harg1 : arg1.IsWhole)
    (arg2 : Memref sig .tc .vmem S512x512 .f32) (harg2 : arg2.IsWhole) (arg3 : Memref sig .tc .vmem S1x2048x512 .bf16) (harg3 : arg3.IsWhole)
    (x0 : Vec F S1x2048x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__proj_kernel i arg1 harg1 arg2 harg2 arg3 harg3) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of this region on core `c`: the arrays as found; after the body at point `t` each input buffer at
    its block and the result buffer at `out1_2` of the two input blocks; nothing else carried, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.AttnShared.lean ====
/-
  Region 2 of the program, the fused attention kernel on the grid (batch, row tile): what its body is stated over.
  Four input windows (the projected row tile q, the projected k of the batch, the row tile of the first input, the
  second input of the batch), two output windows (the row tile of the first result; the whole transposed second result
  of the batch, kept in its staging buffer across the eight row tiles and written back after the last), and two
  scratch rows the kernel carries between row tiles (the running column maximum and the running column sum).
  The body has two conditions on the row-tile coordinate: "first tile" (reset the carried rows and the accumulator) and
  "last tile" (divide the accumulator by the running sum).
-/
import proofs.«104582_j57698590654943_2_alg».proof.Proof.Gen.KernelIdeal.Launch
import proofs.«104582_j57698590654943_2_alg».proof.Proof.Gen.KernelIdeal.Skeleton
import proofs.«104582_j57698590654943_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or kept from the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or kept from the point before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or kept from the point before. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or kept from the point before. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- "This is the first row tile", as the body computes it from the grid coordinates. -/
abbrev cond2_0 (i : grid2.Coords) : Prop := (Scalar.cmpi .ne (Scalar.extui (Scalar.cmpi .eq (BitVec.ofNat 32 (i 1).val) 0#32)) 0#32) = 1#1
/-- It holds exactly at the points ≡ 0 (mod 8). -/
theorem hcond2_0 : ∀ t : Fin cfg2.N, cond2_0 (grid2.coords t) ↔ t.val % 8 = 0 :=
  (by decide +kernel : ∀ t : Fin grid2.N, cond2_0 (grid2.coords t) ↔ t.val % 8 = 0)
/-- "This is the last row tile". -/
abbrev cond2_1 (i : grid2.Coords) : Prop := (Scalar.cmpi .ne (Scalar.extui (Scalar.cmpi .eq (BitVec.ofNat 32 (i 1).val) 7#32)) 0#32) = 1#1
/-- It holds exactly at the points ≡ 7 (mod 8). -/
theorem hcond2_1 : ∀ t : Fin cfg2.N, cond2_1 (grid2.coords t) ↔ t.val % 8 = 7 :=
  (by decide +kernel : ∀ t : Fin grid2.N, cond2_1 (grid2.coords t) ↔ t.val % 8 = 7)

/-- One staging buffer of each output window, through which its contents are stated. -/
abbrev VO2_4 : View sig .tc .vmem S1x256x512 .f32 := (Memref.whole cc2_stg4_0 : Memref sig .tc .vmem S1x256x512 .f32).view
abbrev VO2_5 : View sig .tc .vmem S1x512x2048 .f32 := (Memref.whole cc2_stg5_0 : Memref sig .tc .vmem S1x512x2048 .f32).view
/-- Each window's current staging memref at point `t`, and its wholeness. -/
abbrev ms2_0 (t : Fin cfg2.N) : Memref sig .tc .vmem S1x256x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x2048x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x2048x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x512x2048 .f32 := win2_5.stage (cfg2.slots t 5)
abbrev hs2_5 (t : Fin cfg2.N) : (ms2_5 t).IsWhole := hstage2_5 ((cfg2.slots t 5).cast nbuf2_5)
/-- The two carried scratch rows: whole scoped buffers of the kernel's own. -/
abbrev scM2_0 : Memref sig .tc .vmem S1x2048 .f32 := Memref.whole cc2_scratch0
abbrev scM2_1 : Memref sig .tc .vmem S1x2048 .f32 := Memref.whole cc2_scratch1
abbrev VS2_0 : View sig .tc .vmem S1x2048 .f32 := scM2_0.view
abbrev VS2_1 : View sig .tc .vmem S1x2048 .f32 := scM2_1.view

end Cert.KernelIdeal.Fr

end
-- ==== Proof.KI.AttnRunA.lean ====
/-
  The fused attention body run whole in one of its three control cases: the FIRST row tile (the carried rows and the accumulator are reset, then updated).
  The stores each buffer ends with are found by running the body; the run faults nowhere.
-/
import proofs.«104582_j57698590654943_2_alg».proof.Proof.KI.AttnShared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body on whole staging buffers — the four inputs at known contents, the first result's buffer at anything, the accumulator and the two carried rows at anything — runs to the end,
    the inputs as they were, every written buffer with its stores (last first) as pieces. -/
noncomputable def kernelRun2_A (c : Dev nD) (i : grid2.Coords)
    (arg2 : Memref sig .tc .vmem S1x256x512 .bf16) (harg2 : arg2.IsWhole) (arg3 : Memref sig .tc .vmem S1x2048x512 .bf16) (harg3 : arg3.IsWhole)
    (arg4 : Memref sig .tc .vmem S1x256x512 .f32) (harg4 : arg4.IsWhole) (arg5 : Memref sig .tc .vmem S1x2048x512 .f32) (harg5 : arg5.IsWhole)
    (arg6 : Memref sig .tc .vmem S1x256x512 .f32) (harg6 : arg6.IsWhole) (arg7 : Memref sig .tc .vmem S1x512x2048 .f32) (harg7 : arg7.IsWhole)
    (arg8 : Memref sig .tc .vmem S1x2048 .f32) (harg8 : arg8.IsWhole) (arg9 : Memref sig .tc .vmem S1x2048 .f32) (harg9 : arg9.IsWhole)
    (hc0 : cond2_0 i) (hc1 : ¬cond2_1 i)
    (x0 : Vec F S1x256x512 .bf16) (x1 : Vec F S1x2048x512 .bf16) (x2 : Vec F S1x256x512 .f32) (x3 : Vec F S1x2048x512 .f32)  :
    Σ' (L4 : List (View.Piece (Elt F) S1x256x512 .f32)) (L5 : List (View.Piece (Elt F) S1x512x2048 .f32)) (LS0 : List (View.Piece (Elt F) S1x2048 .f32)), { LS1 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc2__fused_attn_kernel i arg2 harg2 arg3 harg3 arg4 harg4 arg5 harg5 arg6 harg6 arg7 harg7 arg8 harg8 arg9 harg9) K } := by
  refine ⟨?_, ?_, ?_, ?_, fun E K => ?run⟩
  case run =>
    simp only [cc2__fused_attn_kernel_eq_skeleton]; unfold cc2__fused_attn_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.KernelIdeal.Fr

end
-- ==== Proof.KI.AttnRunB.lean ====
/-
  The fused attention body run whole in one of its three control cases: a MIDDLE row tile (the carried rows and the accumulator are updated from what the tile before left).
  The stores each buffer ends with are found by running the body; the run faults nowhere.
-/
import proofs.«104582_j57698590654943_2_alg».proof.Proof.KI.AttnShared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body on whole staging buffers — the four inputs at known contents, the first result's buffer at anything, the accumulator and the two carried rows at what the tile before left — runs to the end,
    the inputs as they were, every written buffer with its stores (last first) as pieces. -/
noncomputable def kernelRun2_B (c : Dev nD) (i : grid2.Coords)
    (arg2 : Memref sig .tc .vmem S1x256x512 .bf16) (harg2 : arg2.IsWhole) (arg3 : Memref sig .tc .vmem S1x2048x512 .bf16) (harg3 : arg3.IsWhole)
    (arg4 : Memref sig .tc .vmem S1x256x512 .f32) (harg4 : arg4.IsWhole) (arg5 : Memref sig .tc .vmem S1x2048x512 .f32) (harg5 : arg5.IsWhole)
    (arg6 : Memref sig .tc .vmem S1x256x512 .f32) (harg6 : arg6.IsWhole) (arg7 : Memref sig .tc .vmem S1x512x2048 .f32) (harg7 : arg7.IsWhole)
    (arg8 : Memref sig .tc .vmem S1x2048 .f32) (harg8 : arg8.IsWhole) (arg9 : Memref sig .tc .vmem S1x2048 .f32) (harg9 : arg9.IsWhole)
    (hc0 : ¬cond2_0 i) (hc1 : ¬cond2_1 i)
    (x0 : Vec F S1x256x512 .bf16) (x1 : Vec F S1x2048x512 .bf16) (x2 : Vec F S1x256x512 .f32) (x3 : Vec F S1x2048x512 .f32) (xo5 : Vec F S1x512x2048 .f32) (xs0 : Vec F S1x2048 .f32) (xs1 : Vec F S1x2048 .f32) :
    Σ' (L4 : List (View.Piece (Elt F) S1x256x512 .f32)) (L5 : List (View.Piece (Elt F) S1x512x2048 .f32)) (LS0 : List (View.Piece (Elt F) S1x2048 .f32)), { LS1 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xo5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc2__fused_attn_kernel i arg2 harg2 arg3 harg3 arg4 harg4 arg5 harg5 arg6 harg6 arg7 harg7 arg8 harg8 arg9 harg9) K } := by
  refine ⟨?_, ?_, ?_, ?_, fun E K => ?run⟩
  case run =>
    simp only [cc2__fused_attn_kernel_eq_skeleton]; unfold cc2__fused_attn_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.KernelIdeal.Fr

end
-- ==== Proof.KI.AttnRunC.lean ====
/-
  The fused attention body run whole in one of its three control cases: the LAST row tile (updated, then the accumulator divided by the running sum).
  The stores each buffer ends with are found by running the body; the run faults nowhere.
-/
import proofs.«104582_j57698590654943_2_alg».proof.Proof.KI.AttnShared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body on whole staging buffers — the four inputs at known contents, the first result's buffer at anything, the accumulator and the two carried rows at what the tile before left — runs to the end,
    the inputs as they were, every written buffer with its stores (last first) as pieces. -/
noncomputable def kernelRun2_C (c : Dev nD) (i : grid2.Coords)
    (arg2 : Memref sig .tc .vmem S1x256x512 .bf16) (harg2 : arg2.IsWhole) (arg3 : Memref sig .tc .vmem S1x2048x512 .bf16) (harg3 : arg3.IsWhole)
    (arg4 : Memref sig .tc .vmem S1x256x512 .f32) (harg4 : arg4.IsWhole) (arg5 : Memref sig .tc .vmem S1x2048x512 .f32) (harg5 : arg5.IsWhole)
    (arg6 : Memref sig .tc .vmem S1x256x512 .f32) (harg6 : arg6.IsWhole) (arg7 : Memref sig .tc .vmem S1x512x2048 .f32) (harg7 : arg7.IsWhole)
    (arg8 : Memref sig .tc .vmem S1x2048 .f32) (harg8 : arg8.IsWhole) (arg9 : Memref sig .tc .vmem S1x2048 .f32) (harg9 : arg9.IsWhole)
    (hc0 : ¬cond2_0 i) (hc1 : cond2_1 i)
    (x0 : Vec F S1x256x512 .bf16) (x1 : Vec F S1x2048x512 .bf16) (x2 : Vec F S1x256x512 .f32) (x3 : Vec F S1x2048x512 .f32) (xo5 : Vec F S1x512x2048 .f32) (xs0 : Vec F S1x2048 .f32) (xs1 : Vec F S1x2048 .f32) :
    Σ' (L4 : List (View.Piece (Elt F) S1x256x512 .f32)) (L5 : List (View.Piece (Elt F) S1x512x2048 .f32)) (LS0 : List (View.Piece (Elt F) S1x2048 .f32)), { LS1 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xo5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc2__fused_attn_kernel i arg2 harg2 arg3 harg3 arg4 harg4 arg5 harg5 arg6 harg6 arg7 harg7 arg8 harg8 arg9 harg9) K } := by
  refine ⟨?_, ?_, ?_, ?_, fun E K => ?run⟩
  case run =>
    simp only [cc2__fused_attn_kernel_eq_skeleton]; unfold cc2__fused_attn_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.KernelIdeal.Fr

end
-- ==== Proof.KI.AttnFrame.lean ====
/-
  Region 2, the fused attention kernel: its proof data and body obligation.
  After the body at a grid point the first result's buffer holds that row tile's block; the accumulator's buffer and the
  two carried rows hold the running values — reset at a batch's first row tile, updated from what the tile before left at
  the others, the accumulator divided by the running sum at the last.  `outsAt2` is that recursion over the 64 points.
  The region's invariant hands the body the two carried rows at what the point before left (at anything before the
  first point) and takes them back at this point's values.
-/
import proofs.«104582_j57698590654943_2_alg».proof.Proof.KI.AttnRunA
import proofs.«104582_j57698590654943_2_alg».proof.Proof.KI.AttnRunB
import proofs.«104582_j57698590654943_2_alg».proof.Proof.KI.AttnRunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the buffers the body writes hold after a point: the first result's block, the accumulator, the running column
    maximum, the running column sum. -/
abbrev St2 (F : FTy → Type) [FloatOps F] : Type := Vec F S1x256x512 .f32 × Vec F S1x512x2048 .f32 × Vec F S1x2048 .f32 × Vec F S1x2048 .f32

theorem nc1_of_c0 (t : Fin cfg2.N) (h0 : t.val % 8 = 0) : ¬cond2_1 (grid2.coords t) := fun h => by
  have := (hcond2_1 t).mp h; omega

/-- The body's run at point `t` in each case, on the point's staging buffers and input blocks. -/
abbrev runA (c : Dev nD) (t : Fin cfg2.N) (h0 : t.val % 8 = 0) :=
  kernelRun2_A (F := F) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (nc1_of_c0 t h0) (iblk2 V c 0 t) (iblk2 V c 1 t) (iblk2 V c 2 t) (iblk2 V c 3 t)
abbrev runB (c : Dev nD) (t : Fin cfg2.N) (h0 : ¬t.val % 8 = 0) (h1 : ¬t.val % 8 = 7) (p : St2 F) :=
  kernelRun2_B (F := F) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) p.2.1 p.2.2.1 p.2.2.2
abbrev runC (c : Dev nD) (t : Fin cfg2.N) (h0 : ¬t.val % 8 = 0) (h1 : t.val % 8 = 7) (p : St2 F) :=
  kernelRun2_C (F := F) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) p.2.1 p.2.2.1 p.2.2.2

/-- In case A the stores into buffer 4 tile it, so they cover it. -/
theorem coverA_4 (c : Dev nD) (t : Fin cfg2.N) (h0 : t.val % 8 = 0) (y : S1x256x512.Idx) :
    ∃ pc ∈ (runA V c t h0).1, y ∈ pc.1.set :=
  View.cover_of_tiledL (runA V c t h0).1 S1x256x512.size (by sl_kernel_rfl) y
/-- In case A the stores into buffer 5 tile it, so they cover it. -/
theorem coverA_5 (c : Dev nD) (t : Fin cfg2.N) (h0 : t.val % 8 = 0) (y : S1x512x2048.Idx) :
    ∃ pc ∈ (runA V c t h0).2.1, y ∈ pc.1.set :=
  View.cover_of_tiledL (runA V c t h0).2.1 S1x512x2048.size (by sl_kernel_rfl) y
/-- In case A the stores into buffer S0 tile it, so they cover it. -/
theorem coverA_S0 (c : Dev nD) (t : Fin cfg2.N) (h0 : t.val % 8 = 0) (y : S1x2048.Idx) :
    ∃ pc ∈ (runA V c t h0).2.2.1, y ∈ pc.1.set :=
  View.cover_of_tiledL (runA V c t h0).2.2.1 S1x2048.size (by sl_kernel_rfl) y
/-- In case A the stores into buffer S1 tile it, so they cover it. -/
theorem coverA_S1 (c : Dev nD) (t : Fin cfg2.N) (h0 : t.val % 8 = 0) (y : S1x2048.Idx) :
    ∃ pc ∈ (runA V c t h0).2.2.2.1, y ∈ pc.1.set :=
  View.cover_of_tiledL (runA V c t h0).2.2.2.1 S1x2048.size (by sl_kernel_rfl) y
/-- What case A leaves in the four written buffers: its stores read back. -/
def stepA (c : Dev nD) (t : Fin cfg2.N) (h0 : t.val % 8 = 0) : St2 F :=
  (VO2_4.read (Elt F) (VO2_4.writes (Elt F) VO2_4.junk (runA V c t h0).1),
   VO2_5.read (Elt F) (VO2_5.writes (Elt F) VO2_5.junk (runA V c t h0).2.1),
   VS2_0.read (Elt F) (VS2_0.writes (Elt F) VS2_0.junk (runA V c t h0).2.2.1),
   VS2_1.read (Elt F) (VS2_1.writes (Elt F) VS2_1.junk (runA V c t h0).2.2.2.1))

/-- In case B the stores into buffer 4 tile it, so they cover it. -/
theorem coverB_4 (c : Dev nD) (t : Fin cfg2.N) (h0 : ¬t.val % 8 = 0) (h1 : ¬t.val % 8 = 7) (p : St2 F) (y : S1x256x512.Idx) :
    ∃ pc ∈ (runB V c t h0 h1 p).1, y ∈ pc.1.set :=
  View.cover_of_tiledL (runB V c t h0 h1 p).1 S1x256x512.size (by sl_kernel_rfl) y
/-- In case B the stores into buffer 5 tile it, so they cover it. -/
theorem coverB_5 (c : Dev nD) (t : Fin cfg2.N) (h0 : ¬t.val % 8 = 0) (h1 : ¬t.val % 8 = 7) (p : St2 F) (y : S1x512x2048.Idx) :
    ∃ pc ∈ (runB V c t h0 h1 p).2.1, y ∈ pc.1.set :=
  View.cover_of_tiledL (runB V c t h0 h1 p).2.1 S1x512x2048.size (by sl_kernel_rfl) y
/-- In case B the stores into buffer S0 tile it, so they cover it. -/
theorem coverB_S0 (c : Dev nD) (t : Fin cfg2.N) (h0 : ¬t.val % 8 = 0) (h1 : ¬t.val % 8 = 7) (p : St2 F) (y : S1x2048.Idx) :
    ∃ pc ∈ (runB V c t h0 h1 p).2.2.1, y ∈ pc.1.set :=
  View.cover_of_tiledL (runB V c t h0 h1 p).2.2.1 S1x2048.size (by sl_kernel_rfl) y
/-- In case B the stores into buffer S1 tile it, so they cover it. -/
theorem coverB_S1 (c : Dev nD) (t : Fin cfg2.N) (h0 : ¬t.val % 8 = 0) (h1 : ¬t.val % 8 = 7) (p : St2 F) (y : S1x2048.Idx) :
    ∃ pc ∈ (runB V c t h0 h1 p).2.2.2.1, y ∈ pc.1.set :=
  View.cover_of_tiledL (runB V c t h0 h1 p).2.2.2.1 S1x2048.size (by sl_kernel_rfl) y
/-- What case B leaves in the four written buffers: its stores read back. -/
def stepB (c : Dev nD) (t : Fin cfg2.N) (h0 : ¬t.val % 8 = 0) (h1 : ¬t.val % 8 = 7) (p : St2 F) : St2 F :=
  (VO2_4.read (Elt F) (VO2_4.writes (Elt F) VO2_4.junk (runB V c t h0 h1 p).1),
   VO2_5.read (Elt F) (VO2_5.writes (Elt F) VO2_5.junk (runB V c t h0 h1 p).2.1),
   VS2_0.read (Elt F) (VS2_0.writes (Elt F) VS2_0.junk (runB V c t h0 h1 p).2.2.1),
   VS2_1.read (Elt F) (VS2_1.writes (Elt F) VS2_1.junk (runB V c t h0 h1 p).2.2.2.1))

/-- In case C the stores into buffer 4 tile it, so they cover it. -/
theorem coverC_4 (c : Dev nD) (t : Fin cfg2.N) (h0 : ¬t.val % 8 = 0) (h1 : t.val % 8 = 7) (p : St2 F) (y : S1x256x512.Idx) :
    ∃ pc ∈ (runC V c t h0 h1 p).1, y ∈ pc.1.set :=
  View.cover_of_tiledL (runC V c t h0 h1 p).1 S1x256x512.size (by sl_kernel_rfl) y
/-- In case C the stores into buffer 5 tile it, so they cover it. -/
theorem coverC_5 (c : Dev nD) (t : Fin cfg2.N) (h0 : ¬t.val % 8 = 0) (h1 : t.val % 8 = 7) (p : St2 F) (y : S1x512x2048.Idx) :
    ∃ pc ∈ (runC V c t h0 h1 p).2.1, y ∈ pc.1.set :=
  View.cover_of_tiledL (runC V c t h0 h1 p).2.1 S1x512x2048.size (by sl_kernel_rfl) y
/-- In case C the stores into buffer S0 tile it, so they cover it. -/
theorem coverC_S0 (c : Dev nD) (t : Fin cfg2.N) (h0 : ¬t.val % 8 = 0) (h1 : t.val % 8 = 7) (p : St2 F) (y : S1x2048.Idx) :
    ∃ pc ∈ (runC V c t h0 h1 p).2.2.1, y ∈ pc.1.set :=
  View.cover_of_tiledL (runC V c t h0 h1 p).2.2.1 S1x2048.size (by sl_kernel_rfl) y
/-- In case C the stores into buffer S1 tile it, so they cover it. -/
theorem coverC_S1 (c : Dev nD) (t : Fin cfg2.N) (h0 : ¬t.val % 8 = 0) (h1 : t.val % 8 = 7) (p : St2 F) (y : S1x2048.Idx) :
    ∃ pc ∈ (runC V c t h0 h1 p).2.2.2.1, y ∈ pc.1.set :=
  View.cover_of_tiledL (runC V c t h0 h1 p).2.2.2.1 S1x2048.size (by sl_kernel_rfl) y
/-- What case C leaves in the four written buffers: its stores read back. -/
def stepC (c : Dev nD) (t : Fin cfg2.N) (h0 : ¬t.val % 8 = 0) (h1 : t.val % 8 = 7) (p : St2 F) : St2 F :=
  (VO2_4.read (Elt F) (VO2_4.writes (Elt F) VO2_4.junk (runC V c t h0 h1 p).1),
   VO2_5.read (Elt F) (VO2_5.writes (Elt F) VO2_5.junk (runC V c t h0 h1 p).2.1),
   VS2_0.read (Elt F) (VS2_0.writes (Elt F) VS2_0.junk (runC V c t h0 h1 p).2.2.1),
   VS2_1.read (Elt F) (VS2_1.writes (Elt F) VS2_1.junk (runC V c t h0 h1 p).2.2.2.1))

/-- One point's step: the case the row-tile coordinate selects, over what the point before left. -/
def step2 (c : Dev nD) (t : Fin cfg2.N) (p : St2 F) : St2 F :=
  if h0 : t.val % 8 = 0 then stepA V c t h0
  else if h1 : t.val % 8 = 7 then stepC V c t h0 h1 p
  else stepB V c t h0 h1 p

/-- Arbitrary contents, standing for "before the first point" (the first point's case never reads them). -/
def junkSt : St2 F := (VO2_4.read (Elt F) VO2_4.junk, VO2_5.read (Elt F) VO2_5.junk, VS2_0.read (Elt F) VS2_0.junk, VS2_1.read (Elt F) VS2_1.junk)

/-- THE ACCUMULATION: what the written buffers hold after the body at position `n`. -/
def outsAt2 (c : Dev nD) : (n : ℕ) → n < cfg2.N → St2 F
  | 0, hn => step2 V c ⟨0, hn⟩ junkSt
  | n + 1, hn => step2 V c ⟨n + 1, hn⟩ (outsAt2 c n (Nat.lt_of_succ_lt hn))

/-- What the point before `t` left (arbitrary before the first). -/
def prevAt2 (c : Dev nD) (t : Fin cfg2.N) : St2 F :=
  if h : t.val = 0 then junkSt else outsAt2 V c (t.val - 1) (Nat.lt_of_le_of_lt (Nat.sub_le _ _) t.isLt)

theorem prevAt2_pos (c : Dev nD) (t : Fin cfg2.N) (hz : t.val ≠ 0) :
    prevAt2 V c t = outsAt2 V c (t.val - 1) (Nat.lt_of_le_of_lt (Nat.sub_le _ _) t.isLt) := dif_neg hz

theorem outsAt2_eq (c : Dev nD) (t : Fin cfg2.N) : outsAt2 V c t.val t.isLt = step2 V c t (prevAt2 V c t) := by
  obtain ⟨n, hn⟩ := t
  cases n with
  | zero => rfl
  | succ n => rfl

theorem outsAt2_A (c : Dev nD) (t : Fin cfg2.N) (h0 : t.val % 8 = 0) : outsAt2 V c t.val t.isLt = stepA V c t h0 := by
  rw [outsAt2_eq]; unfold step2; rw [dif_pos h0]
theorem outsAt2_B (c : Dev nD) (t : Fin cfg2.N) (h0 : ¬t.val % 8 = 0) (h1 : ¬t.val % 8 = 7) :
    outsAt2 V c t.val t.isLt = stepB V c t h0 h1 (outsAt2 V c (t.val - 1) (Nat.lt_of_le_of_lt (Nat.sub_le _ _) t.isLt)) := by
  rw [outsAt2_eq]; unfold step2; rw [dif_neg h0, dif_neg h1, prevAt2_pos V c t (fun h => h0 (by rw [h]))]
theorem outsAt2_C (c : Dev nD) (t : Fin cfg2.N) (h0 : ¬t.val % 8 = 0) (h1 : t.val % 8 = 7) :
    outsAt2 V c t.val t.isLt = stepC V c t h0 h1 (outsAt2 V c (t.val - 1) (Nat.lt_of_le_of_lt (Nat.sub_le _ _) t.isLt)) := by
  rw [outsAt2_eq]; unfold step2; rw [dif_neg h0, dif_pos h1, prevAt2_pos V c t (fun h => h0 (by rw [h]))]

/-- The core's scoped buffers that belong to the other two regions' staging, each whole at some contents. -/
abbrev R10 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant splits into those ten buffers, the two scratch rows at some contents, and the generator register. -/
theorem PhiA2_split (c : Dev nD) : (Pipeline.ΦA spec2 c : sProp 𝕄)
    ⊢ iprop(R10 c ∗ (∃ d, owns (c : Thread nD τ) scM2_0 fullShare d) ∗ (∃ d, owns (c : Thread nD τ) scM2_1 fullShare d) ∗ (∃ r, prngReg c r)) := by
  unfold Pipeline.ΦA; rw [scopedRest2_eq]; simp only [scM2_0, scM2_1, owns_whole]
  iintro ⟨⟨H1, H2, H3, H4, H5, H6, H7, H8, H9, H10, H11, H12⟩, Hg⟩
  isplitl [H1 H2 H3 H4 H5 H6 H7 H8 H9 H10]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11]; · iexact H11
  isplitl [H12]; · iexact H12
  iexact Hg

/-- and is put back together from them. -/
theorem PhiA2_join (c : Dev nD) : iprop(R10 c ∗ (∃ d, owns (c : Thread nD τ) scM2_0 fullShare d) ∗ (∃ d, owns (c : Thread nD τ) scM2_1 fullShare d) ∗ (∃ r, prngReg c r))
    ⊢ (Pipeline.ΦA spec2 c : sProp 𝕄) := by
  unfold Pipeline.ΦA; rw [scopedRest2_eq]; simp only [scM2_0, scM2_1, owns_whole]
  iintro ⟨⟨H1, H2, H3, H4, H5, H6, H7, H8, H9, H10⟩, H11, H12, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iexact Hg

/-- The region invariant before position `n`: before the first point the class's (every scratch at anything); afterwards
    the two carried rows at what the point before left in them. -/
def PhiS2 (c : Dev nD) : (n : ℕ) → n ≤ cfg2.N → sProp 𝕄
  | 0, _ => Pipeline.ΦA spec2 c
  | n + 1, hn => iprop(R10 c ∗ owns (c : Thread nD τ) scM2_0 fullShare (outsAt2 V c n hn).2.2.1 ∗ owns (c : Thread nD τ) scM2_1 fullShare (outsAt2 V c n hn).2.2.2 ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(R10 c ∗ owns (c : Thread nD τ) scM2_0 fullShare (outsAt2 V c n hn).2.2.1 ∗ owns (c : Thread nD τ) scM2_1 fullShare (outsAt2 V c n hn).2.2.2 ∗ (∃ r, prngReg c r)) := rfl
theorem PhiS2_pos (c : Dev nD) (n : ℕ) (h : n ≤ cfg2.N) (hz : n ≠ 0) :
    PhiS2 V c n h = iprop(R10 c ∗ owns (c : Thread nD τ) scM2_0 fullShare (outsAt2 V c (n - 1) (by omega)).2.2.1 ∗ owns (c : Thread nD τ) scM2_1 fullShare (outsAt2 V c (n - 1) (by omega)).2.2.2 ∗ (∃ r, prngReg c r)) := by
  cases n with
  | zero => exact absurd rfl hz
  | succ n => rfl

/-- At any position the invariant gives the ten buffers, the two rows at SOME contents and the generator register. -/
theorem PhiS2_weak (c : Dev nD) (n : ℕ) (h : n ≤ cfg2.N) : PhiS2 V c n h
    ⊢ iprop(R10 c ∗ (∃ d, owns (c : Thread nD τ) scM2_0 fullShare d) ∗ (∃ d, owns (c : Thread nD τ) scM2_1 fullShare d) ∗ (∃ r, prngReg c r)) := by
  cases n with
  | zero => exact PhiA2_split c
  | succ n =>
    rw [PhiS2_succ]
    iintro ⟨HR, HS0, HS1, Hg⟩
    isplitl [HR]; · iexact HR
    isplitl [HS0]; · iexists _; iexact HS0
    isplitl [HS1]; · iexists _; iexact HS1
    iexact Hg

/-- The proof data of region 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem after2_5 (c : Dev nD) (t : Fin cfg2.N) : (dat2 V c).after 5 t = (outsAt2 V c t.val t.isLt).2.1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
/-- At a point that is not a batch's first row tile the accumulator's staging buffer holds what the body left at the point
    before: it was not written back between. -/
theorem before2_5_kept (c : Dev nD) (t : Fin cfg2.N) (h0 : ¬t.val % 8 = 0) (d) :
    (dat2 V c).before 5 t d = (outsAt2 V c (t.val - 1) (Nat.lt_of_le_of_lt (Nat.sub_le _ _) t.isLt)).2.1 := by
  have hN : t.val < 64 := lt_of_lt_of_eq t.isLt (show cfg2.N = 64 from N_2)
  rw [Dat.before_out_kept _ 5 rfl t (fun h => h0 (by rw [h])) (Bool.eq_false_iff.mpr fun h => by have := (flush2_5 _).mp h; dsimp only at this; omega)
    (fun _ => rfl) (fun _ _ => rfl)]
  dsimp only [dat2]

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t))

set_option maxHeartbeats 4800000 in
/-- The body at any point: the case is decided by the point's position in its batch; the input buffers hold their blocks;
    the accumulator's buffer and the carried rows hold what the point before left (or anything, at a batch's first tile). -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4, after2_5, PhiS2_castSucc V c t]
  have hN : t.val < 64 := lt_of_lt_of_eq t.isLt (show cfg2.N = 64 from N_2)
  by_cases h0 : t.val % 8 = 0
  · rw [outsAt2_A V c t h0]
    unfold stepA; dsimp only
    iintro ⟨HΦ, Ho, ⟨%d0, H0⟩, ⟨%d1, H1⟩, ⟨%d2, H2⟩, ⟨%d3, H3⟩, ⟨%d4, H4⟩, ⟨%d5, H5⟩⟩
    ihave HΦ' := (PhiS2_weak V c t.val (Nat.le_of_lt t.isLt)) $$ HΦ
    icases HΦ' with ⟨HR, HS0, HS1, Hg⟩
    iapply ((runA V c t h0).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, ⟨%e4, H4⟩, ⟨%e5, H5⟩, ⟨%es0, HS0⟩, ⟨%es1, HS1⟩⟩
    isplitl [HR HS0 HS1 Hg]
    · isplitl [HR]; · iexact HR
      isplitl [HS0]
      · unfold owns; iexists _; isplitr
        swap; · iexact HS0
        ipureintro; exact View.read_writes_of_cover _ _ _ _ _ (coverA_S0 V c t h0)
      isplitl [HS1]
      · unfold owns; iexists _; isplitr
        swap; · iexact HS1
        ipureintro; exact View.read_writes_of_cover _ _ _ _ _ (coverA_S1 V c t h0)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA_4 V c t h0)
    unfold owns; iexists _; isplitr
    swap; · iexact H5
    ipureintro; exact View.read_writes_of_cover _ _ _ _ _ (coverA_5 V c t h0)
  · by_cases h1 : t.val % 8 = 7
    · rw [outsAt2_C V c t h0 h1]
      simp only [before2_5_kept V c t h0]
      rw [PhiS2_pos V c t.val (Nat.le_of_lt t.isLt) (fun h => h0 (by rw [h]))]
      unfold stepC; dsimp only
      iintro ⟨⟨HR, HS0, HS1, Hg⟩, Ho, ⟨%d0, H0⟩, ⟨%d1, H1⟩, ⟨%d2, H2⟩, ⟨%d3, H3⟩, ⟨%d4, H4⟩, ⟨%d5, H5⟩⟩
      iapply ((runC V c t h0 h1 (outsAt2 V c (t.val - 1) (Nat.lt_of_le_of_lt (Nat.sub_le _ _) t.isLt))).2.2.2.2 Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HR HS0 HS1 Hg]
      · isplitl [HR]; · iexact HR
        isplitl [HS0]
        · unfold owns; iexists _; isplitr
          swap; · iexact HS0
          ipureintro; exact View.read_writes_of_cover _ _ _ _ _ (coverC_S0 V c t h0 h1 _)
        isplitl [HS1]
        · unfold owns; iexists _; isplitr
          swap; · iexact HS1
          ipureintro; exact View.read_writes_of_cover _ _ _ _ _ (coverC_S1 V c t h0 h1 _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC_4 V c t h0 h1 _)
      unfold owns; iexists _; isplitr
      swap; · iexact H5
      ipureintro; exact View.read_writes_of_cover _ _ _ _ _ (coverC_5 V c t h0 h1 _)
    · rw [outsAt2_B V c t h0 h1]
      simp only [before2_5_kept V c t h0]
      rw [PhiS2_pos V c t.val (Nat.le_of_lt t.isLt) (fun h => h0 (by rw [h]))]
      unfold stepB; dsimp only
      iintro ⟨⟨HR, HS0, HS1, Hg⟩, Ho, ⟨%d0, H0⟩, ⟨%d1, H1⟩, ⟨%d2, H2⟩, ⟨%d3, H3⟩, ⟨%d4, H4⟩, ⟨%d5, H5⟩⟩
      iapply ((runB V c t h0 h1 (outsAt2 V c (t.val - 1) (Nat.lt_of_le_of_lt (Nat.sub_le _ _) t.isLt))).2.2.2.2 Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HR HS0 HS1 Hg]
      · isplitl [HR]; · iexact HR
        isplitl [HS0]
        · unfold owns; iexists _; isplitr
          swap; · iexact HS0
          ipureintro; exact View.read_writes_of_cover _ _ _ _ _ (coverB_S0 V c t h0 h1 _)
        isplitl [HS1]
        · unfold owns; iexists _; isplitr
          swap; · iexact HS1
          ipureintro; exact View.read_writes_of_cover _ _ _ _ _ (coverB_S1 V c t h0 h1 _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverB_4 V c t h0 h1 _)
      unfold owns; iexists _; isplitr
      swap; · iexact H5
      ipureintro; exact View.read_writes_of_cover _ _ _ _ _ (coverB_5 V c t h0 h1 _)

/-- The body obligation of region 2, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the carried rows' values are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl]
  exact (PhiS2_weak V c _ _).trans (PhiA2_join c)

end Cert.KernelIdeal.Fr

end
-- ==== Proof.KI.RunAll.lean ====
/-
  The whole program as four segments — the two projection regions, the attention region, the host transpose — with the
  contents of every unscoped buffer named at each boundary: `Wa` at launch, `Wb` / `Wc` / `Wd` after regions 0 / 1 / 2
  (a region's arrays at what its write-backs leave, every other buffer as entered), `We` after the transpose.
  Every weakly fair execution terminates without a fault with every unscoped buffer at `We`; the argument arrays are
  read back through the boundaries to their launch contents.
-/
import proofs.«104582_j57698590654943_2_alg».proof.Proof.KI.Proj0
import proofs.«104582_j57698590654943_2_alg».proof.Proof.KI.Proj1
import proofs.«104582_j57698590654943_2_alg».proof.Proof.KI.AttnFrame

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev Wa : Dev nD → Valuation τ sig (Elt F) := fun c b => m (c, b)
abbrev Va : (c : Dev nD) → (b : Ref sig .tc) → Buf (Elt F) ((c : Thread nD τ).loc b) := fun c b => Wa m c b

/-- At region 0's exit: its arrays at what its write-backs leave, every other buffer as entered. -/
def Wb (c : Dev nD) : Valuation τ sig (Elt F) :=
  Pipeline.withArrays spec0 c (Wa m c) fun w => (dat0 (Va m) c).arrAt w cfg0.N
theorem Wb_arr (c : Dev nD) (w : Fin cfg0.W) :
    Wb m c (Proc.devRef .tc (Pipeline.arrRef spec0 w)) = (dat0 (Va m) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m c (Proc.devRef .tc b) = Wa m c (Proc.devRef .tc b) := by
  unfold Wb; exact Pipeline.withArrays_of_ne spec0 c _ _ b hb
/-- The same read at the TensorCore's references. -/
abbrev Vb : (c : Dev nD) → (b : Ref sig .tc) → Buf (Elt F) ((c : Thread nD τ).loc b) := fun c b => Wb m c b
theorem hF0 (c : Dev nD) (w : Fin cfg0.W) : (dat0 (Va m) c).arrAt w cfg0.N = Vb m c (Pipeline.arrRef spec0 w) :=
  (Wb_arr m c w).symm
theorem hrest0 (c : Dev nD) : ∀ b, b ∉ Finset.univ.image (Pipeline.arrRef spec0) → Vb m c b = Va m c b :=
  fun b hb => Wb_of_ne m c b fun w e => hb (Finset.mem_image.mpr ⟨w, Finset.mem_univ _, e⟩)

/-- At region 1's exit: its arrays at what its write-backs leave, every other buffer as entered. -/
def Wc (c : Dev nD) : Valuation τ sig (Elt F) :=
  Pipeline.withArrays spec1 c (Wb m c) fun w => (dat1 (Vb m) c).arrAt w cfg1.N
theorem Wc_arr (c : Dev nD) (w : Fin cfg1.W) :
    Wc m c (Proc.devRef .tc (Pipeline.arrRef spec1 w)) = (dat1 (Vb m) c).arrAt w cfg1.N := by
  unfold Wc; exact Pipeline.withArrays_arr spec1 launch1.win.arr_inj c _ _ w
theorem Wc_of_ne (c : Dev nD) (b : Ref sig .tc) (hb : ∀ w, Pipeline.arrRef spec1 w ≠ b) :
    Wc m c (Proc.devRef .tc b) = Wb m c (Proc.devRef .tc b) := by
  unfold Wc; exact Pipeline.withArrays_of_ne spec1 c _ _ b hb
/-- The same read at the TensorCore's references. -/
abbrev Vc : (c : Dev nD) → (b : Ref sig .tc) → Buf (Elt F) ((c : Thread nD τ).loc b) := fun c b => Wc m c b
theorem hF1 (c : Dev nD) (w : Fin cfg1.W) : (dat1 (Vb m) c).arrAt w cfg1.N = Vc m c (Pipeline.arrRef spec1 w) :=
  (Wc_arr m c w).symm
theorem hrest1 (c : Dev nD) : ∀ b, b ∉ Finset.univ.image (Pipeline.arrRef spec1) → Vc m c b = Vb m c b :=
  fun b hb => Wc_of_ne m c b fun w e => hb (Finset.mem_image.mpr ⟨w, Finset.mem_univ _, e⟩)

/-- At region 2's exit: its arrays at what its write-backs leave, every other buffer as entered. -/
def Wd (c : Dev nD) : Valuation τ sig (Elt F) :=
  Pipeline.withArrays spec2 c (Wc m c) fun w => (dat2 (Vc m) c).arrAt w cfg2.N
theorem Wd_arr (c : Dev nD) (w : Fin cfg2.W) :
    Wd m c (Proc.devRef .tc (Pipeline.arrRef spec2 w)) = (dat2 (Vc m) c).arrAt w cfg2.N := by
  unfold Wd; exact Pipeline.withArrays_arr spec2 launch2.win.arr_inj c _ _ w
theorem Wd_of_ne (c : Dev nD) (b : Ref sig .tc) (hb : ∀ w, Pipeline.arrRef spec2 w ≠ b) :
    Wd m c (Proc.devRef .tc b) = Wc m c (Proc.devRef .tc b) := by
  unfold Wd; exact Pipeline.withArrays_of_ne spec2 c _ _ b hb
/-- The same read at the TensorCore's references. -/
abbrev Vd : (c : Dev nD) → (b : Ref sig .tc) → Buf (Elt F) ((c : Thread nD τ).loc b) := fun c b => Wd m c b
theorem hF2 (c : Dev nD) (w : Fin cfg2.W) : (dat2 (Vc m) c).arrAt w cfg2.N = Vd m c (Pipeline.arrRef spec2 w) :=
  (Wd_arr m c w).symm
theorem hrest2 (c : Dev nD) : ∀ b, b ∉ Finset.univ.image (Pipeline.arrRef spec2) → Vd m c b = Vc m c b :=
  fun b hb => Wd_of_ne m c b fun w e => hb (Finset.mem_image.mpr ⟨w, Finset.mem_univ _, e⟩)

/-- After the host transpose. -/
abbrev We : Dev nD → Valuation τ sig (Elt F) := fun c => StableHlo.after hostOps3 (Wd m c)

theorem hostOps3_fresh' : (hostOps3 : List (HloOp τ sig (Elt F))).Forall fun op => op.fresh = ∅ := by
  simp only [List.Forall]; repeat' constructor

/-- The transpose writes only its own result buffer. -/
theorem We_of (c : Dev nD) (b : Ref sig .tc) (hb : b ≠ main_v3) : We m c (Proc.devRef .tc b) = Wd m c (Proc.devRef .tc b) :=
  StableHlo.after_of_forall_not_mem (b := Proc.devRef .tc b) _ _ (List.forall_iff_forall_mem.mp (by
    simp only [hostOps3, List.Forall, StableHlo.unary_writes, Finset.mem_singleton]
    exact StableHlo.devRef_ne_of_ne hb))

/-! ## The arguments end as launched -/

theorem We_main_arg0 (c : Dev nD) : We m c (Proc.devRef .tc main_arg0) = m ((c : Thread nD τ).loc main_arg0) :=
  calc We m c (Proc.devRef .tc main_arg0)
    _ = Wd m c (Proc.devRef .tc main_arg0) := We_of m c main_arg0 (by decide)
    _ = Wc m c (Proc.devRef .tc main_arg0) := (Wd_arr m c 2).trans (((dat2 (Vc m) c).arrAt_in 2 rfl _).trans (A_eq2 (Vc m) c 2))
    _ = Wb m c (Proc.devRef .tc main_arg0) := Wc_of_ne m c main_arg0 (by decide)
    _ = Wa m c (Proc.devRef .tc main_arg0) := (Wb_arr m c 0).trans (((dat0 (Va m) c).arrAt_in 0 rfl _).trans (A_eq0 (Va m) c 0))
    _ = m ((c : Thread nD τ).loc main_arg0) := rfl
theorem We_main_arg1 (c : Dev nD) : We m c (Proc.devRef .tc main_arg1) = m ((c : Thread nD τ).loc main_arg1) :=
  calc We m c (Proc.devRef .tc main_arg1)
    _ = Wd m c (Proc.devRef .tc main_arg1) := We_of m c main_arg1 (by decide)
    _ = Wc m c (Proc.devRef .tc main_arg1) := (Wd_arr m c 3).trans (((dat2 (Vc m) c).arrAt_in 3 rfl _).trans (A_eq2 (Vc m) c 3))
    _ = Wb m c (Proc.devRef .tc main_arg1) := (Wc_arr m c 0).trans (((dat1 (Vb m) c).arrAt_in 0 rfl _).trans (A_eq1 (Vb m) c 0))
    _ = Wa m c (Proc.devRef .tc main_arg1) := Wb_of_ne m c main_arg1 (by decide)
    _ = m ((c : Thread nD τ).loc main_arg1) := rfl
theorem We_main_arg2 (c : Dev nD) : We m c (Proc.devRef .tc main_arg2) = m ((c : Thread nD τ).loc main_arg2) :=
  calc We m c (Proc.devRef .tc main_arg2)
    _ = Wd m c (Proc.devRef .tc main_arg2) := We_of m c main_arg2 (by decide)
    _ = Wc m c (Proc.devRef .tc main_arg2) := Wd_of_ne m c main_arg2 (by decide)
    _ = Wb m c (Proc.devRef .tc main_arg2) := Wc_of_ne m c main_arg2 (by decide)
    _ = Wa m c (Proc.devRef .tc main_arg2) := (Wb_arr m c 1).trans (((dat0 (Va m) c).arrAt_in 1 rfl _).trans (A_eq0 (Va m) c 1))
    _ = m ((c : Thread nD τ).loc main_arg2) := rfl
theorem We_main_arg3 (c : Dev nD) : We m c (Proc.devRef .tc main_arg3) = m ((c : Thread nD τ).loc main_arg3) :=
  calc We m c (Proc.devRef .tc main_arg3)
    _ = Wd m c (Proc.devRef .tc main_arg3) := We_of m c main_arg3 (by decide)
    _ = Wc m c (Proc.devRef .tc main_arg3) := Wd_of_ne m c main_arg3 (by decide)
    _ = Wb m c (Proc.devRef .tc main_arg3) := (Wc_arr m c 1).trans (((dat1 (Vb m) c).arrAt_in 1 rfl _).trans (A_eq1 (Vb m) c 1))
    _ = Wa m c (Proc.devRef .tc main_arg3) := Wb_of_ne m c main_arg3 (by decide)
    _ = m ((c : Thread nD τ).loc main_arg3) := rfl

/-! ## The proof data family and the thread state -/

abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Va m) c
  | ⟨1, _⟩ => fun c => dat1 (Vb m) c
  | ⟨2, _⟩ => fun c => dat2 (Vc m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (We m c) ∗ ∃ r, prngReg c r)

set_option backward.isDefEq.respectTransparency.types false in
/-- Region 0 as a segment: entered with every unscoped buffer at `Wa`, left with them at `Wb`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ L lv 0 fun _ _ => rfl
  pre c := iprop(StableHlo.held (c : Thread nD τ) (Pipeline.ucRefs τ sig) (Wa m c) ∗ R c)
  post c := iprop(StableHlo.held (c : Thread nD τ) (Pipeline.ucRefs τ sig) (Wb m c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (Vb m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `Wb`, left with them at `Wc`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m) c).loose
  hwaits := Pipeline.hwaits_of_owed_zero _ _ _ _ L lv 1 fun _ _ => rfl
  pre c := iprop(StableHlo.held (c : Thread nD τ) (Pipeline.ucRefs τ sig) (Wb m c) ∗ R c)
  post c := iprop(StableHlo.held (c : Thread nD τ) (Pipeline.ucRefs τ sig) (Wc m c) ∗ R c)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vb m c) (Vc m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `Wc`, left with them at `Wd`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vc m) c).loose
  hwaits := Pipeline.hwaits_of_owed_zero _ _ _ _ L lv 2 fun _ _ => rfl
  pre c := iprop(StableHlo.held (c : Thread nD τ) (Pipeline.ucRefs τ sig) (Wc m c) ∗ R c)
  post c := iprop(StableHlo.held (c : Thread nD τ) (Pipeline.ucRefs τ sig) (Wd m c) ∗ R c)
  X c := iprop(∃ r, prngReg c r)
  Y c := iprop(∃ r, prngReg c r)
  Z c := Pipeline.unscopedRest (Ix := Unit) (Name := ℕ) (U := UR sig nD τ) (Lvl := ℕ) spec2 c (Vc m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vc m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]
    unfold Pipeline.ΦA
    iintro ⟨Hp, -, Hr⟩
    isplitl [Hr]; · iexact Hr
    iexact Hp
  hout c := by
    rw [Pipeline.ownSems0_none]; refine (hout2 (Vc m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vc m c) (Vd m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's four segments in order. -/
abbrev segs : List (Pipeline.Seg (pcfgs (F := F)) adm (pdats m) () defs₀ 𝒱₀ L lv) :=
  [ .region (reg0 m), .region (reg1 m), .region (reg2 m),
    .host (hseg hostOps3 hostOps3_sub hostOps3_fresh' (Wd m)) ]
theorem main_run (c : Dev nD) : main (F := F) c = Pipeline.Seg.run (segs m) := (main_chain c).trans (by chain_rfl)

set_option backward.isDefEq.respectTransparency.types false in
/-- THE RUN: from any memory with zero counters every weakly fair execution terminates, nothing faulting, and every
    unscoped buffer ends at `We`. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = We m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m c) ∗ R c)) (Tₙ := Tₙ m)
    (hch := ⟨fun _ => .rfl, fun _ => .rfl, fun _ => .rfl, fun _ => .rfl, fun c => by
      show iprop(StableHlo.held (c : Thread nD τ) (Pipeline.ucRefs τ sig) (We m c) ∗ R c) ⊢ iprop(Tₙ m c ∗ ∃ W, owes (c : Thread nD τ) (0 : CellTallies nD τ sig Unit) W)
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (Wa m c)
        from Pipeline.unscopedBufs_held c (Wa m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = We m c b)
    (hfin := fun c s' => by
      iintro ⟨⟨Hh, -⟩, HSI⟩
      unfold StableHlo.held
      imodintro
      iapply (pointsTo_read_all (Pipeline.ucRefs τ sig) (fun b => (((c : Thread nD τ)).1, b)) (We m c) s')
      isplitl [Hh] <;> iassumption)
    (hQ := fun s h c => h c)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (We_main_arg0 m c),
     (h c _ (mem_uc main_arg1 (by decide))).trans (We_main_arg1 m c),
     (h c _ (mem_uc main_arg2 (by decide))).trans (We_main_arg2 m c),
     (h c _ (mem_uc main_arg3 (by decide))).trans (We_main_arg3 m c)⟩) (run_all m ρ)

end Cert.KernelIdeal.Fr

end
-- ==== Proof.KI.AttnPieces.lean ====
/-
  What each control case of the attention body leaves in the four written buffers, as the body's payloads of the point's
  input blocks and of what the point before left: every store covers its whole buffer, so each buffer ends at its last
  store's value, and a load after a store reads that store's value.
    first tile : the running maximum, running sum and accumulator start from −∞, 0, 0;
    middle tile: they start from what the tile before left;
    last tile  : as a middle tile, then the accumulator is divided by the new running sum.
-/
import proofs.«104582_j57698590654943_2_alg».proof.Proof.KI.AttnFrame
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The score tile of the point: the projected row tile against the projected second input. -/
abbrev sc2 (c : Dev nD) (t : Fin cfg2.N) : FVec F S256x2048 .f32 := k2_pay12 (iblk2 V c 0 t) (iblk2 V c 1 t)

set_option maxHeartbeats 4000000 in
theorem stepA_eq (c : Dev nD) (t : Fin cfg2.N) (h0 : t.val % 8 = 0) :
    stepA V c t h0 = (k2_pay13 (iblk2 V c 0 t) (iblk2 V c 1 t) (iblk2 V c 3 t),
      k2_pay5 (k2_pay11 (iblk2 V c 2 t)) (sc2 V c t) k2_pay8 k2_pay10,
      k2_pay6 (sc2 V c t) k2_pay8,
      k2_pay4 (sc2 V c t) k2_pay8 k2_pay9) := by
  unfold stepA
  rw [View.read_writes_eq_canon _ _ _ (coverA_4 V c t h0), View.read_writes_eq_canon _ _ _ (coverA_5 V c t h0),
    View.read_writes_eq_canon _ _ _ (coverA_S0 V c t h0), View.read_writes_eq_canon _ _ _ (coverA_S1 V c t h0)]
  unfold runA kernelRun2_A
  dsimp only
  sl_unfold_words
  dsimp only
  simp only [View.canon_unit_zero (S := S1x256x512) hz3, View.canon_unit_zero (S := S1x512x2048) hz3, View.canon_unit_zero (S := S1x2048) hz2,
    View.canon_cons_unit_zero (S := S1x512x2048) hz3, View.canon_cons_unit_zero (S := S1x2048) hz2,
    View.readCov_unit_zero (S := S1x512x2048) _ hz3, View.readCov_unit_zero (S := S1x2048) _ hz2,
    View.readAt_eq_ld, Memref.IsWhole.read_unread, View.ld_unit_zero (S := S1x256x512) hz3, View.ld_unit_zero (S := S1x2048x512) hz3,
    View.ld_unit_zero (S := S1x512x2048) hz3, View.ld_unit_zero (S := S1x2048) hz2]

set_option maxHeartbeats 4000000 in
theorem stepB_eq (c : Dev nD) (t : Fin cfg2.N) (h0 : ¬t.val % 8 = 0) (h1 : ¬t.val % 8 = 7) (p : St2 F) :
    stepB V c t h0 h1 p = (k2_pay13 (iblk2 V c 0 t) (iblk2 V c 1 t) (iblk2 V c 3 t),
      k2_pay5 (k2_pay11 (iblk2 V c 2 t)) (sc2 V c t) p.2.2.1 p.2.1,
      k2_pay6 (sc2 V c t) p.2.2.1,
      k2_pay4 (sc2 V c t) p.2.2.1 p.2.2.2) := by
  unfold stepB
  rw [View.read_writes_eq_canon _ _ _ (coverB_4 V c t h0 h1 p), View.read_writes_eq_canon _ _ _ (coverB_5 V c t h0 h1 p),
    View.read_writes_eq_canon _ _ _ (coverB_S0 V c t h0 h1 p), View.read_writes_eq_canon _ _ _ (coverB_S1 V c t h0 h1 p)]
  unfold runB kernelRun2_B
  dsimp only
  simp only [View.canon_unit_zero (S := S1x256x512) hz3, View.canon_unit_zero (S := S1x512x2048) hz3, View.canon_unit_zero (S := S1x2048) hz2,
    View.canon_cons_unit_zero (S := S1x512x2048) hz3, View.canon_cons_unit_zero (S := S1x2048) hz2,
    View.readCov_unit_zero (S := S1x512x2048) _ hz3, View.readCov_unit_zero (S := S1x2048) _ hz2,
    View.readAt_eq_ld, Memref.IsWhole.read_unread, View.ld_unit_zero (S := S1x256x512) hz3, View.ld_unit_zero (S := S1x2048x512) hz3,
    View.ld_unit_zero (S := S1x512x2048) hz3, View.ld_unit_zero (S := S1x2048) hz2]
  rw [show View.read (Elt F) (View.whole cc2_scratch0) ((Memref.isWhole_whole _).unread p.2.2.1) = p.2.2.1 from (Memref.isWhole_whole (cc2_scratch0 : Ref sig .tc)).read_unread _,
    show View.read (Elt F) (View.whole cc2_scratch1) ((Memref.isWhole_whole _).unread p.2.2.2) = p.2.2.2 from (Memref.isWhole_whole (cc2_scratch1 : Ref sig .tc)).read_unread _]

set_option maxHeartbeats 4000000 in
theorem stepC_eq (c : Dev nD) (t : Fin cfg2.N) (h0 : ¬t.val % 8 = 0) (h1 : t.val % 8 = 7) (p : St2 F) :
    stepC V c t h0 h1 p = (k2_pay13 (iblk2 V c 0 t) (iblk2 V c 1 t) (iblk2 V c 3 t),
      k2_pay7 (k2_pay5 (k2_pay11 (iblk2 V c 2 t)) (sc2 V c t) p.2.2.1 p.2.1) (k2_pay4 (sc2 V c t) p.2.2.1 p.2.2.2),
      k2_pay6 (sc2 V c t) p.2.2.1,
      k2_pay4 (sc2 V c t) p.2.2.1 p.2.2.2) := by
  unfold stepC
  rw [View.read_writes_eq_canon _ _ _ (coverC_4 V c t h0 h1 p), View.read_writes_eq_canon _ _ _ (coverC_5 V c t h0 h1 p),
    View.read_writes_eq_canon _ _ _ (coverC_S0 V c t h0 h1 p), View.read_writes_eq_canon _ _ _ (coverC_S1 V c t h0 h1 p)]
  unfold runC kernelRun2_C
  dsimp only
  sl_unfold_words
  dsimp only
  simp only [View.canon_unit_zero (S := S1x256x512) hz3, View.canon_unit_zero (S := S1x512x2048) hz3, View.canon_unit_zero (S := S1x2048) hz2,
    View.canon_cons_unit_zero (S := S1x512x2048) hz3, View.canon_cons_unit_zero (S := S1x2048) hz2,
    View.readCov_unit_zero (S := S1x512x2048) _ hz3, View.readCov_unit_zero (S := S1x2048) _ hz2,
    View.readAt_eq_ld, Memref.IsWhole.read_unread, View.ld_unit_zero (S := S1x256x512) hz3, View.ld_unit_zero (S := S1x2048x512) hz3,
    View.ld_unit_zero (S := S1x512x2048) hz3, View.ld_unit_zero (S := S1x2048) hz2]
  rw [show View.read (Elt F) (View.whole cc2_scratch0) ((Memref.isWhole_whole _).unread p.2.2.1) = p.2.2.1 from (Memref.isWhole_whole (cc2_scratch0 : Ref sig .tc)).read_unread _,
    show View.read (Elt F) (View.whole cc2_scratch1) ((Memref.isWhole_whole _).unread p.2.2.2) = p.2.2.2 from (Memref.isWhole_whole (cc2_scratch1 : Ref sig .tc)).read_unread _]

end Cert.KernelIdeal.Fr

end
-- ==== Proof.KI.AttnBlocks.lean ====
/-
  Region 2's windows on the grid (batch b = t / 8, row tile j = t % 8): where each block sits in its array, and each input
  block read at an index.  The row-tile windows take rows j·256 … j·256 + 255 of batch b; the per-batch windows take the
  whole batch b.
-/
import proofs.«104582_j57698590654943_2_alg».proof.Proof.KI.AttnPieces
import Idealize.ShloMosaic.Lib.ValueIdx
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
variable (V : (c : Dev nD) → (b : Ref sig .tc) → Buf (Elt F) ((c : Thread nD τ).loc b))

/-- The printed index maps, decided over the 64 grid points. -/
theorem idx_facts2 : ∀ t : Fin cfg2.N,
    (win2_0.index t (0 : Fin 3) = t.val / 8 ∧ win2_0.index t (1 : Fin 3) = t.val % 8 ∧ win2_0.index t (2 : Fin 3) = 0)
    ∧ (win2_1.index t (0 : Fin 3) = t.val / 8 ∧ win2_1.index t (1 : Fin 3) = 0 ∧ win2_1.index t (2 : Fin 3) = 0)
    ∧ (win2_2.index t (0 : Fin 3) = t.val / 8 ∧ win2_2.index t (1 : Fin 3) = t.val % 8 ∧ win2_2.index t (2 : Fin 3) = 0)
    ∧ (win2_3.index t (0 : Fin 3) = t.val / 8 ∧ win2_3.index t (1 : Fin 3) = 0 ∧ win2_3.index t (2 : Fin 3) = 0)
    ∧ (win2_4.index t (0 : Fin 3) = t.val / 8 ∧ win2_4.index t (1 : Fin 3) = t.val % 8 ∧ win2_4.index t (2 : Fin 3) = 0)
    ∧ (win2_5.index t (0 : Fin 3) = t.val / 8 ∧ win2_5.index t (1 : Fin 3) = 0 ∧ win2_5.index t (2 : Fin 3) = 0) :=
  (by decide +kernel : ∀ t : Fin grid2.N, _)

/-- The batch of a grid point. -/
def bOf (t : Fin cfg2.N) : Fin 8 := ⟨t.val / 8, by have := t.isLt; have hN : cfg2.N = 64 := N_2; omega⟩
/-- Row `r` of the point's row tile, as a row of the batch. -/
def nOf (t : Fin cfg2.N) (r : Fin 256) : Fin 2048 := ⟨t.val % 8 * 256 + r.val, by have := r.isLt; omega⟩

/-- The projected row tile read at an index. -/
theorem iblk2_0_at (c : Dev nD) (t : Fin cfg2.N) (r : Fin 256) (kk : Fin 512) :
    iblk2 V c 0 t (ix3 (0 : Fin 1) r kk) = V c main_v0 (ix3 (bOf t) (nOf t r) kk) := by
  obtain ⟨⟨e0, e1, e2⟩, -⟩ := idx_facts2 t
  show V c main_v0 (((cfg2.win 0).blk t).view.emb (ix3 (0 : Fin 1) r kk)) = _
  refine congrArg _ ?_
  funext a; apply Fin.ext
  match a with
  | ⟨0, _⟩ => show win2_0.index t (0 : Fin 3) * 1 + 1 * 0 = t.val / 8; omega
  | ⟨1, _⟩ => show win2_0.index t (1 : Fin 3) * 256 + 1 * r.val = t.val % 8 * 256 + r.val; omega
  | ⟨2, _⟩ => show win2_0.index t (2 : Fin 3) * 512 + 1 * kk.val = kk.val; omega

/-- The projected second input of the batch read at an index. -/
theorem iblk2_1_at (c : Dev nD) (t : Fin cfg2.N) (m : Fin 2048) (kk : Fin 512) :
    iblk2 V c 1 t (ix3 (0 : Fin 1) m kk) = V c main_v1 (ix3 (bOf t) m kk) := by
  obtain ⟨-, ⟨e0, e1, e2⟩, -⟩ := idx_facts2 t
  show V c main_v1 (((cfg2.win 1).blk t).view.emb (ix3 (0 : Fin 1) m kk)) = _
  refine congrArg _ ?_
  funext a; apply Fin.ext
  match a with
  | ⟨0, _⟩ => show win2_1.index t (0 : Fin 3) * 1 + 1 * 0 = t.val / 8; omega
  | ⟨1, _⟩ => show win2_1.index t (1 : Fin 3) * 2048 + 1 * m.val = m.val; omega
  | ⟨2, _⟩ => show win2_1.index t (2 : Fin 3) * 512 + 1 * kk.val = kk.val; omega

/-- The row tile of the first input read at an index. -/
theorem iblk2_2_at (c : Dev nD) (t : Fin cfg2.N) (r : Fin 256) (h : Fin 512) :
    iblk2 V c 2 t (ix3 (0 : Fin 1) r h) = V c main_arg0 (ix3 (bOf t) (nOf t r) h) := by
  obtain ⟨-, -, ⟨e0, e1, e2⟩, -⟩ := idx_facts2 t
  show V c main_arg0 (((cfg2.win 2).blk t).view.emb (ix3 (0 : Fin 1) r h)) = _
  refine congrArg _ ?_
  funext a; apply Fin.ext
  match a with
  | ⟨0, _⟩ => show win2_2.index t (0 : Fin 3) * 1 + 1 * 0 = t.val / 8; omega
  | ⟨1, _⟩ => show win2_2.index t (1 : Fin 3) * 256 + 1 * r.val = t.val % 8 * 256 + r.val; omega
  | ⟨2, _⟩ => show win2_2.index t (2 : Fin 3) * 512 + 1 * h.val = h.val; omega

/-- The second input of the batch read at an index. -/
theorem iblk2_3_at (c : Dev nD) (t : Fin cfg2.N) (m : Fin 2048) (h : Fin 512) :
    iblk2 V c 3 t (ix3 (0 : Fin 1) m h) = V c main_arg1 (ix3 (bOf t) m h) := by
  obtain ⟨-, -, -, ⟨e0, e1, e2⟩, -⟩ := idx_facts2 t
  show V c main_arg1 (((cfg2.win 3).blk t).view.emb (ix3 (0 : Fin 1) m h)) = _
  refine congrArg _ ?_
  funext a; apply Fin.ext
  match a with
  | ⟨0, _⟩ => show win2_3.index t (0 : Fin 3) * 1 + 1 * 0 = t.val / 8; omega
  | ⟨1, _⟩ => show win2_3.index t (1 : Fin 3) * 2048 + 1 * m.val = m.val; omega
  | ⟨2, _⟩ => show win2_3.index t (2 : Fin 3) * 512 + 1 * h.val = h.val; omega

end Cert.KernelIdeal.Fr

end
-- ==== Proof.LibMaxFold.lean ====
import Idealize.ShloMosaic.PureOps.Ideal.Laws

/-!
# A maximum taken as a fold from `-∞`

Over the extended reals a reduction by `max` that starts from `-∞` is the supremum of what it
reduces: `-∞` is the bottom element, and the fold of `max` from the bottom is the lattice supremum.
-/

namespace Cert.Lib.MaxFold

open Idealize.ShloMosaic

/-- The f32 pattern of `-∞` denotes the bottom element of the extended reals. -/
theorem ofBits_neg_inf_f32 : Ideal.ofBits .f32 0xFF800000#32 = ⊥ := by simp [Ideal.ofBits, Ideal.ieee]

/-- A fold of `max` from `⊥` over any finite set is the supremum over it. -/
theorem fold_max_bot_eq_sup {ι : Type} (s : Finset ι) (g : ι → EReal) :
    s.fold (FloatOps.maximumf (F := Ideal) (φ := .f32)) ⊥ g = s.sup g := rfl

/-- A fold of `max` from `⊥` over a finite nonempty index type is the supremum over it. -/
theorem fold_max_bot_eq_sup' {ι : Type} [Fintype ι] [Nonempty ι] (g : ι → EReal) :
    (Finset.univ : Finset ι).fold (FloatOps.maximumf (F := Ideal) (φ := .f32)) ⊥ g
      = Finset.univ.sup' Finset.univ_nonempty g := by
  rw [Finset.sup'_eq_sup]
  rfl

end Cert.Lib.MaxFold
-- ==== Proof.KV.AttnPay.lean ====
import proofs.«104582_j57698590654943_2_alg».proof.Proof.Gen.KernelIdeal.Skeleton
import proofs.«104582_j57698590654943_2_alg».proof.Proof.LibMaxFold
import Idealize.ShloMosaic.Lib.ValueIdx
import Idealize.ShloMosaic.Lib.Pipeline.Value
import Idealize.ShloMosaic.Lib.ValueLayout
import Idealize.ShloMosaic.PureOps.Ideal.Laws

/-!
# The attention body's payloads read at an index

Each pure value the attention body computes, read at one index given by coordinates, over the
extended reals: the score block as a finite sum of products, the row softmax of the block applied
to the values (one quotient of two sums), and the pieces of the running column softmax — the new
running maximum, the two rescaling exponentials, the updated normaliser and the updated
accumulator — together with the initial values of the running quantities and the final quotient.
-/

noncomputable section

namespace Cert.KernelIdeal.KV

open Cert.KernelIdeal Cert.KernelIdeal.Gen Idealize.ShloMosaic Idealize.ShloMosaic.ValueIdx Cert.Lib.MaxFold

/-! ## The three matrix products at an index -/

section RowsRows
/-! Rows times rows: the contraction runs over the second axis of both operands. -/

theorem rr_lhs_0 (i : S256x2048.Idx) (q : dot_S256x512_S2048x512_S256x2048_1_1_0_0_n_n.contr.Idx) :
    (dot_S256x512_S2048x512_S256x2048_1_1_0_0_n_n.lhsIdx i q 0).val = (i 0).val := by
  unfold DotDims.lhsIdx
  rw [dif_neg (show ¬(0 : Fin S256x512.rank) ∈ dot_S256x512_S2048x512_S256x2048_1_1_0_0_n_n.lhsBatch by decide),
    dif_pos (show (0 : Fin S256x512.rank) ∈ dot_S256x512_S2048x512_S256x2048_1_1_0_0_n_n.lhsNonContracting by decide)]
  rfl
theorem rr_lhs_1 (i : S256x2048.Idx) (q : dot_S256x512_S2048x512_S256x2048_1_1_0_0_n_n.contr.Idx) :
    (dot_S256x512_S2048x512_S256x2048_1_1_0_0_n_n.lhsIdx i q 1).val = (q ⟨0, by decide⟩).val :=
  dot_S256x512_S2048x512_S256x2048_1_1_0_0_n_n.lhsIdx_val_of_single rfl i q
theorem rr_rhs_0 (i : S256x2048.Idx) (q : dot_S256x512_S2048x512_S256x2048_1_1_0_0_n_n.contr.Idx) :
    (dot_S256x512_S2048x512_S256x2048_1_1_0_0_n_n.rhsIdx i q 0).val = (i 1).val := by
  unfold DotDims.rhsIdx
  rw [dif_neg (show ¬(0 : Fin S2048x512.rank) ∈ dot_S256x512_S2048x512_S256x2048_1_1_0_0_n_n.rhsBatch by decide),
    dif_pos (show (0 : Fin S2048x512.rank) ∈ dot_S256x512_S2048x512_S256x2048_1_1_0_0_n_n.rhsNonContracting by decide)]
  rfl
theorem rr_rhs_1 (i : S256x2048.Idx) (q : dot_S256x512_S2048x512_S256x2048_1_1_0_0_n_n.contr.Idx) :
    (dot_S256x512_S2048x512_S256x2048_1_1_0_0_n_n.rhsIdx i q 1).val = (q ⟨0, by decide⟩).val :=
  dot_S256x512_S2048x512_S256x2048_1_1_0_0_n_n.rhsIdx_val_of_single rfl i q

/-- Rows times rows: `out[r, m] = ∑ kk, lhs[r, kk] * rhs[m, kk]`. -/
theorem matmul_rows_rows_at (lhs : FVec Ideal S256x512 .bf16) (rhs : FVec Ideal S2048x512 .bf16) (r : Fin 256) (m : Fin 2048) :
    matmul dot_S256x512_S2048x512_S256x2048_1_1_0_0_n_n none lhs rhs (constant (F := Ideal) S256x2048 .f32 0x00000000#32) (ix2 r m)
      = ∑ kk : Fin 512, lhs (ix2 r kk) * rhs (ix2 m kk) := by
  simp only [matmul]
  rw [Ideal.matmul_constant_zero_apply,
    ← Equiv.sum_comp (contrEquiv1 dot_S256x512_S2048x512_S256x2048_1_1_0_0_n_n 512 rfl rfl).symm]
  refine Finset.sum_congr rfl fun k _ => ?_
  have hk := contrEquiv1_symm_val dot_S256x512_S2048x512_S256x2048_1_1_0_0_n_n 512 rfl rfl k
  have el : dot_S256x512_S2048x512_S256x2048_1_1_0_0_n_n.lhsIdx (ix2 r m)
      ((contrEquiv1 dot_S256x512_S2048x512_S256x2048_1_1_0_0_n_n 512 rfl rfl).symm k) = ix2 r k :=
    funext fun a => Fin.ext (by
      match a with
      | ⟨0, _⟩ => exact rr_lhs_0 _ _
      | ⟨1, _⟩ => exact (rr_lhs_1 _ _).trans hk)
  have er : dot_S256x512_S2048x512_S256x2048_1_1_0_0_n_n.rhsIdx (ix2 r m)
      ((contrEquiv1 dot_S256x512_S2048x512_S256x2048_1_1_0_0_n_n 512 rfl rfl).symm k) = ix2 m k :=
    funext fun a => Fin.ext (by
      match a with
      | ⟨0, _⟩ => exact rr_rhs_0 _ _
      | ⟨1, _⟩ => exact (rr_rhs_1 _ _).trans hk)
  rw [el, er]

end RowsRows

section RowsCols
/-! Rows times columns: the contraction runs over the second axis of the left operand and the first
axis of the right one. -/

theorem rc_lhs_0 (i : S256x512.Idx) (q : dot_S256x2048_S2048x512_S256x512_1_0_0_1_n_n.contr.Idx) :
    (dot_S256x2048_S2048x512_S256x512_1_0_0_1_n_n.lhsIdx i q 0).val = (i 0).val := by
  unfold DotDims.lhsIdx
  rw [dif_neg (show ¬(0 : Fin S256x2048.rank) ∈ dot_S256x2048_S2048x512_S256x512_1_0_0_1_n_n.lhsBatch by decide),
    dif_pos (show (0 : Fin S256x2048.rank) ∈ dot_S256x2048_S2048x512_S256x512_1_0_0_1_n_n.lhsNonContracting by decide)]
  rfl
theorem rc_lhs_1 (i : S256x512.Idx) (q : dot_S256x2048_S2048x512_S256x512_1_0_0_1_n_n.contr.Idx) :
    (dot_S256x2048_S2048x512_S256x512_1_0_0_1_n_n.lhsIdx i q 1).val = (q ⟨0, by decide⟩).val :=
  dot_S256x2048_S2048x512_S256x512_1_0_0_1_n_n.lhsIdx_val_of_single rfl i q
theorem rc_rhs_0 (i : S256x512.Idx) (q : dot_S256x2048_S2048x512_S256x512_1_0_0_1_n_n.contr.Idx) :
    (dot_S256x2048_S2048x512_S256x512_1_0_0_1_n_n.rhsIdx i q 0).val = (q ⟨0, by decide⟩).val :=
  dot_S256x2048_S2048x512_S256x512_1_0_0_1_n_n.rhsIdx_val_of_single rfl i q
theorem rc_rhs_1 (i : S256x512.Idx) (q : dot_S256x2048_S2048x512_S256x512_1_0_0_1_n_n.contr.Idx) :
    (dot_S256x2048_S2048x512_S256x512_1_0_0_1_n_n.rhsIdx i q 1).val = (i 1).val := by
  unfold DotDims.rhsIdx
  rw [dif_neg (show ¬(1 : Fin S2048x512.rank) ∈ dot_S256x2048_S2048x512_S256x512_1_0_0_1_n_n.rhsBatch by decide),
    dif_pos (show (1 : Fin S2048x512.rank) ∈ dot_S256x2048_S2048x512_S256x512_1_0_0_1_n_n.rhsNonContracting by decide)]
  rfl

/-- Rows times columns: `out[r, h] = ∑ m, lhs[r, m] * rhs[m, h]`. -/
theorem matmul_rows_cols_at (lhs : FVec Ideal S256x2048 .bf16) (rhs : FVec Ideal S2048x512 .bf16) (r : Fin 256) (h : Fin 512) :
    matmul dot_S256x2048_S2048x512_S256x512_1_0_0_1_n_n none lhs rhs (constant (F := Ideal) S256x512 .f32 0x00000000#32) (ix2 r h)
      = ∑ m : Fin 2048, lhs (ix2 r m) * rhs (ix2 m h) := by
  simp only [matmul]
  rw [Ideal.matmul_constant_zero_apply,
    ← Equiv.sum_comp (contrEquiv1 dot_S256x2048_S2048x512_S256x512_1_0_0_1_n_n 2048 rfl rfl).symm]
  refine Finset.sum_congr rfl fun k _ => ?_
  have hk := contrEquiv1_symm_val dot_S256x2048_S2048x512_S256x512_1_0_0_1_n_n 2048 rfl rfl k
  have el : dot_S256x2048_S2048x512_S256x512_1_0_0_1_n_n.lhsIdx (ix2 r h)
      ((contrEquiv1 dot_S256x2048_S2048x512_S256x512_1_0_0_1_n_n 2048 rfl rfl).symm k) = ix2 r k :=
    funext fun a => Fin.ext (by
      match a with
      | ⟨0, _⟩ => exact rc_lhs_0 _ _
      | ⟨1, _⟩ => exact (rc_lhs_1 _ _).trans hk)
  have er : dot_S256x2048_S2048x512_S256x512_1_0_0_1_n_n.rhsIdx (ix2 r h)
      ((contrEquiv1 dot_S256x2048_S2048x512_S256x512_1_0_0_1_n_n 2048 rfl rfl).symm k) = ix2 k h :=
    funext fun a => Fin.ext (by
      match a with
      | ⟨0, _⟩ => exact (rc_rhs_0 _ _).trans hk
      | ⟨1, _⟩ => exact rc_rhs_1 _ _)
  rw [el, er]

end RowsCols

section ColsCols
/-! Columns times columns: the contraction runs over the first axis of both operands. -/

theorem cc_lhs_0 (i : S512x2048.Idx) (q : dot_S256x512_S256x2048_S512x2048_0_0_1_1_n_n.contr.Idx) :
    (dot_S256x512_S256x2048_S512x2048_0_0_1_1_n_n.lhsIdx i q 0).val = (q ⟨0, by decide⟩).val :=
  dot_S256x512_S256x2048_S512x2048_0_0_1_1_n_n.lhsIdx_val_of_single rfl i q
theorem cc_lhs_1 (i : S512x2048.Idx) (q : dot_S256x512_S256x2048_S512x2048_0_0_1_1_n_n.contr.Idx) :
    (dot_S256x512_S256x2048_S512x2048_0_0_1_1_n_n.lhsIdx i q 1).val = (i 0).val := by
  unfold DotDims.lhsIdx
  rw [dif_neg (show ¬(1 : Fin S256x512.rank) ∈ dot_S256x512_S256x2048_S512x2048_0_0_1_1_n_n.lhsBatch by decide),
    dif_pos (show (1 : Fin S256x512.rank) ∈ dot_S256x512_S256x2048_S512x2048_0_0_1_1_n_n.lhsNonContracting by decide)]
  rfl
theorem cc_rhs_0 (i : S512x2048.Idx) (q : dot_S256x512_S256x2048_S512x2048_0_0_1_1_n_n.contr.Idx) :
    (dot_S256x512_S256x2048_S512x2048_0_0_1_1_n_n.rhsIdx i q 0).val = (q ⟨0, by decide⟩).val :=
  dot_S256x512_S256x2048_S512x2048_0_0_1_1_n_n.rhsIdx_val_of_single rfl i q
theorem cc_rhs_1 (i : S512x2048.Idx) (q : dot_S256x512_S256x2048_S512x2048_0_0_1_1_n_n.contr.Idx) :
    (dot_S256x512_S256x2048_S512x2048_0_0_1_1_n_n.rhsIdx i q 1).val = (i 1).val := by
  unfold DotDims.rhsIdx
  rw [dif_neg (show ¬(1 : Fin S256x2048.rank) ∈ dot_S256x512_S256x2048_S512x2048_0_0_1_1_n_n.rhsBatch by decide),
    dif_pos (show (1 : Fin S256x2048.rank) ∈ dot_S256x512_S256x2048_S512x2048_0_0_1_1_n_n.rhsNonContracting by decide)]
  rfl

/-- Columns times columns: `out[h, m] = ∑ r, lhs[r, h] * rhs[r, m]`. -/
theorem matmul_cols_cols_at (lhs : FVec Ideal S256x512 .bf16) (rhs : FVec Ideal S256x2048 .bf16) (h : Fin 512) (m : Fin 2048) :
    matmul dot_S256x512_S256x2048_S512x2048_0_0_1_1_n_n none lhs rhs (constant (F := Ideal) S512x2048 .f32 0x00000000#32) (ix2 h m)
      = ∑ r : Fin 256, lhs (ix2 r h) * rhs (ix2 r m) := by
  simp only [matmul]
  rw [Ideal.matmul_constant_zero_apply,
    ← Equiv.sum_comp (contrEquiv1 dot_S256x512_S256x2048_S512x2048_0_0_1_1_n_n 256 rfl rfl).symm]
  refine Finset.sum_congr rfl fun k _ => ?_
  have hk := contrEquiv1_symm_val dot_S256x512_S256x2048_S512x2048_0_0_1_1_n_n 256 rfl rfl k
  have el : dot_S256x512_S256x2048_S512x2048_0_0_1_1_n_n.lhsIdx (ix2 h m)
      ((contrEquiv1 dot_S256x512_S256x2048_S512x2048_0_0_1_1_n_n 256 rfl rfl).symm k) = ix2 k h :=
    funext fun a => Fin.ext (by
      match a with
      | ⟨0, _⟩ => exact (cc_lhs_0 _ _).trans hk
      | ⟨1, _⟩ => exact cc_lhs_1 _ _)
  have er : dot_S256x512_S256x2048_S512x2048_0_0_1_1_n_n.rhsIdx (ix2 h m)
      ((contrEquiv1 dot_S256x512_S256x2048_S512x2048_0_0_1_1_n_n 256 rfl rfl).symm k) = ix2 k m :=
    funext fun a => Fin.ext (by
      match a with
      | ⟨0, _⟩ => exact (cc_rhs_0 _ _).trans hk
      | ⟨1, _⟩ => exact cc_rhs_1 _ _)
  rw [el, er]

end ColsCols

/-! ## The keepdims column forms of a shape cast and a broadcast -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, c)`, the operand's one column at `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-! ## The two reductions of a score block, along either axis -/

/-- The maximum down a column (reduction along the rows, from `-∞`) is the supremum of the column. -/
theorem colmax_at (src : FVec Ideal S256x2048 .f32) (m : Fin 2048) :
    multiReduction (F := Ideal) .maximumf [0] S2048 src 0xFF800000#32 reduces_S256x2048_S2048 (.inl rfl) rfl (ix1 m)
      = Finset.univ.sup' Finset.univ_nonempty (fun r : Fin 256 => src (ix2 r m)) := by
  refine (Ideal.multiReduction_maximumf_single src 0xFF800000#32 reduces_S256x2048_S2048 (.inl rfl) rfl (ix1 m)).trans ?_
  rw [Ideal.ofBits_def, ofBits_neg_inf_f32]
  have hf : (src ∘ reduces_S256x2048_S2048.lift (ix1 m)) = fun r : Fin 256 => src (ix2 r m) :=
    funext fun r => congrArg src (funext fun a => Fin.ext (by match a with | ⟨0, _⟩ => rfl | ⟨1, _⟩ => rfl))
  rw [hf]
  exact fold_max_bot_eq_sup' (ι := Fin 256) _

/-- The sum down a column (reduction along the rows). -/
theorem colsum_at (src : FVec Ideal S256x2048 .f32) (m : Fin 2048) :
    multiReduction (F := Ideal) .add [0] S2048 src 0x00000000#32 reduces_S256x2048_S2048 (.inl rfl) rfl (ix1 m)
      = ∑ r : Fin 256, src (ix2 r m) := by
  refine (Ideal.multiReduction_add_single src 0x00000000#32 reduces_S256x2048_S2048 (.inl rfl) rfl (ix1 m)).trans ?_
  exact Finset.sum_congr rfl fun r _ =>
    congrArg src (funext fun a => Fin.ext (by match a with | ⟨0, _⟩ => rfl | ⟨1, _⟩ => rfl))

/-- The maximum along a row (reduction along the columns, from `-∞`) is the supremum of the row. -/
theorem rowmax_at (src : FVec Ideal S256x2048 .f32) (r : Fin 256) :
    multiReduction (F := Ideal) .maximumf [1] S256 src 0xFF800000#32 reduces_S256x2048_S256 (.inl rfl) rfl (ix1 r)
      = Finset.univ.sup' Finset.univ_nonempty (fun m : Fin 2048 => src (ix2 r m)) := by
  refine (Ideal.multiReduction_maximumf_single src 0xFF800000#32 reduces_S256x2048_S256 (.inl rfl) rfl (ix1 r)).trans ?_
  rw [Ideal.ofBits_def, ofBits_neg_inf_f32]
  have hf : (src ∘ reduces_S256x2048_S256.lift (ix1 r)) = fun m : Fin 2048 => src (ix2 r m) :=
    funext fun m => congrArg src (funext fun a => Fin.ext (by match a with | ⟨0, _⟩ => rfl | ⟨1, _⟩ => rfl))
  rw [hf]
  exact fold_max_bot_eq_sup' (ι := Fin 2048) _

/-- The sum along a row (reduction along the columns). -/
theorem rowsum_at (src : FVec Ideal S256x2048 .f32) (r : Fin 256) :
    multiReduction (F := Ideal) .add [1] S256 src 0x00000000#32 reduces_S256x2048_S256 (.inl rfl) rfl (ix1 r)
      = ∑ m : Fin 2048, src (ix2 r m) := by
  refine (Ideal.multiReduction_add_single src 0x00000000#32 reduces_S256x2048_S256 (.inl rfl) rfl (ix1 r)).trans ?_
  exact Finset.sum_congr rfl fun m _ =>
    congrArg src (funext fun a => Fin.ext (by match a with | ⟨0, _⟩ => rfl | ⟨1, _⟩ => rfl))

/-! ## The score block, the projected-row copy and the new running maximum -/

/-- The score block at `(r, m)`: the inner product of row `r` of the first block and row `m` of the second. -/
theorem pay12_at (v3 : Vec Ideal S1x256x512 .bf16) (v5 : Vec Ideal S1x2048x512 .bf16) (r : Fin 256) (m : Fin 2048) :
    k2_pay12 (F := Ideal) v3 v5 (ix2 r m)
      = ∑ kk : Fin 512, v3 (ix3 (0 : Fin 1) r kk) * v5 (ix3 (0 : Fin 1) m kk) := by
  unfold k2_pay12
  refine (matmul_rows_rows_at _ _ r m).trans ?_
  refine Finset.sum_congr rfl fun kk _ => ?_
  rw [shapeCast_1ab_ab_apply, shapeCast_1ab_ab_apply]

/-- The block with its unit axis dropped (the narrowing of the format is the identity on extended reals). -/
theorem pay11_at (v7 : Vec Ideal S1x256x512 .f32) (r : Fin 256) (h : Fin 512) :
    k2_pay11 (F := Ideal) v7 (ix2 r h) = v7 (ix3 (0 : Fin 1) r h) := by
  unfold k2_pay11
  exact shapeCast_1ab_ab_apply v7 _ r h

/-- The new running maximum of column `m`: the larger of the old one and the block's column maximum. -/
theorem pay1_at (v13 : FVec Ideal S256x2048 .f32) (v28 : Vec Ideal S1x2048 .f32) (m : Fin 2048) :
    k2_pay1 (F := Ideal) v13 v28 (ix2 (0 : Fin 1) m)
      = max (v28 (ix2 (0 : Fin 1) m)) (Finset.univ.sup' Finset.univ_nonempty (fun r : Fin 256 => v13 (ix2 r m))) := by
  unfold k2_pay1
  refine (maximumf_apply _ _ _).trans ?_
  rw [shapeCast_a_1a_apply, colmax_at]

/-! ## The row softmax of the block applied to the values -/

/-- The exponential of a vector at an index is the exponential of the element. -/
theorem exp_apply {s : Shape} {φ : FTy} (a : FVec Ideal s φ) (i : s.Idx) : exp a i = Ideal.exp (a i) := rfl

/-- The block shifted by its row maxima, exponentiated, at `(r, m)`. -/
theorem rowshift_exp_at (s : FVec Ideal S256x2048 .f32) (r : Fin 256) (m : Fin 2048) :
    exp (subf s (broadcastTo S256x2048
        (shapeCast S256x1
          (multiReduction (F := Ideal) .maximumf [1] S256 s 0xFF800000#32 reduces_S256x2048_S256 (.inl rfl) rfl)
          shapeCasts_S256_S256x1)
        broadcasts_S256x1_S256x2048)) (ix2 r m)
      = Ideal.exp (s (ix2 r m) - Finset.univ.sup' Finset.univ_nonempty (fun m : Fin 2048 => s (ix2 r m))) := by
  rw [exp_apply, subf_apply, broadcastTo_a1_ab_apply, shapeCast_a_a1_apply, rowmax_at]

/-- The first result's block at `(r, h)`: with `S` the score block and `M r` the maximum of its row `r`,
`(∑ m, exp (S r m - M r) * v[m, h]) / ∑ m, exp (S r m - M r)`. -/
theorem pay13_at (v3 : Vec Ideal S1x256x512 .bf16) (v5 : Vec Ideal S1x2048x512 .bf16) (v10 : Vec Ideal S1x2048x512 .f32)
    (r : Fin 256) (h : Fin 512) :
    k2_pay13 (F := Ideal) v3 v5 v10 (ix3 (0 : Fin 1) r h)
      = Ideal.div
          (∑ m : Fin 2048,
            Ideal.exp (k2_pay12 (F := Ideal) v3 v5 (ix2 r m)
                - Finset.univ.sup' Finset.univ_nonempty (fun m : Fin 2048 => k2_pay12 (F := Ideal) v3 v5 (ix2 r m)))
              * v10 (ix3 (0 : Fin 1) m h))
          (∑ m : Fin 2048,
            Ideal.exp (k2_pay12 (F := Ideal) v3 v5 (ix2 r m)
                - Finset.univ.sup' Finset.univ_nonempty (fun m : Fin 2048 => k2_pay12 (F := Ideal) v3 v5 (ix2 r m)))) := by
  unfold k2_pay13
  generalize k2_pay12 (F := Ideal) v3 v5 = s
  refine (shapeCast_ab_1ab_apply _ _ (0 : Fin 1) r h).trans ?_
  rw [divf_apply, matmul_rows_cols_at, broadcastTo_a1_ab_apply, shapeCast_a_a1_apply, rowsum_at]
  refine congrArg₂ Ideal.div ?_ ?_
  · refine Finset.sum_congr rfl fun m _ => ?_
    rw [truncf_apply, truncf_apply, rowshift_exp_at, shapeCast_1ab_ab_apply]
  · exact Finset.sum_congr rfl fun m _ => rowshift_exp_at s r m

/-! ## The running column softmax: the rescaling factors, the normaliser and the accumulator -/

/-- The factor that rescales the old running quantities of column `m`: `exp (old maximum - new maximum)`. -/
theorem pay2_at (v13 : FVec Ideal S256x2048 .f32) (v28 : Vec Ideal S1x2048 .f32) (m : Fin 2048) :
    k2_pay2 (F := Ideal) v13 v28 (ix2 (0 : Fin 1) m)
      = Ideal.exp (v28 (ix2 (0 : Fin 1) m) - k2_pay1 (F := Ideal) v13 v28 (ix2 (0 : Fin 1) m)) := by
  unfold k2_pay2
  rw [exp_apply, subf_apply]

/-- The block's shifted exponential at `(r, m)`: `exp (score - new maximum of column m)`. -/
theorem pay3_at (v13 : FVec Ideal S256x2048 .f32) (v28 : Vec Ideal S1x2048 .f32) (r : Fin 256) (m : Fin 2048) :
    k2_pay3 (F := Ideal) v13 v28 (ix2 r m)
      = Ideal.exp (v13 (ix2 r m) - k2_pay1 (F := Ideal) v13 v28 (ix2 (0 : Fin 1) m)) := by
  unfold k2_pay3
  rw [exp_apply, subf_apply, broadcastTo_1b_ab_apply]

/-- The updated normaliser of column `m`: the old one rescaled plus the block's column sum. -/
theorem pay4_at (v13 : FVec Ideal S256x2048 .f32) (v28 v29 : Vec Ideal S1x2048 .f32) (m : Fin 2048) :
    k2_pay4 (F := Ideal) v13 v28 v29 (ix2 (0 : Fin 1) m)
      = k2_pay2 (F := Ideal) v13 v28 (ix2 (0 : Fin 1) m) * v29 (ix2 (0 : Fin 1) m)
        + ∑ r : Fin 256, k2_pay3 (F := Ideal) v13 v28 (ix2 r m) := by
  unfold k2_pay4
  rw [shapeCast_self, addf_apply, mulf_apply, shapeCast_a_1a_apply, colsum_at]

/-- The updated accumulator at `(h, m)`: the old one rescaled plus the block's weighted column sum. -/
theorem pay5_at (v9 : FVec Ideal S256x512 .bf16) (v13 : FVec Ideal S256x2048 .f32) (v28 : Vec Ideal S1x2048 .f32)
    (v47 : Vec Ideal S1x512x2048 .f32) (h : Fin 512) (m : Fin 2048) :
    k2_pay5 (F := Ideal) v9 v13 v28 v47 (ix3 (0 : Fin 1) h m)
      = k2_pay2 (F := Ideal) v13 v28 (ix2 (0 : Fin 1) m) * v47 (ix3 (0 : Fin 1) h m)
        + ∑ r : Fin 256, v9 (ix2 r h) * k2_pay3 (F := Ideal) v13 v28 (ix2 r m) := by
  unfold k2_pay5
  refine (shapeCast_ab_1ab_apply _ _ (0 : Fin 1) h m).trans ?_
  rw [addf_apply, mulf_apply, broadcastTo_1b_ab_apply, shapeCast_1ab_ab_apply, matmul_cols_cols_at]
  refine congrArg _ (Finset.sum_congr rfl fun r _ => ?_)
  rw [truncf_apply]

/-- The stored running maximum is the new running maximum. -/
theorem pay6_at (v13 : FVec Ideal S256x2048 .f32) (v28 : Vec Ideal S1x2048 .f32) (m : Fin 2048) :
    k2_pay6 (F := Ideal) v13 v28 (ix2 (0 : Fin 1) m) = k2_pay1 (F := Ideal) v13 v28 (ix2 (0 : Fin 1) m) := by
  unfold k2_pay6
  rw [shapeCast_self]

/-- The final quotient at `(h, m)`: the accumulator over the normaliser of column `m`. -/
theorem pay7_at (v61 : Vec Ideal S1x512x2048 .f32) (v63 : Vec Ideal S1x2048 .f32) (h : Fin 512) (m : Fin 2048) :
    k2_pay7 (F := Ideal) v61 v63 (ix3 (0 : Fin 1) h m)
      = Ideal.div (v61 (ix3 (0 : Fin 1) h m)) (v63 (ix2 (0 : Fin 1) m)) := by
  unfold k2_pay7
  refine (shapeCast_ab_1ab_apply _ _ (0 : Fin 1) h m).trans ?_
  rw [divf_apply, shapeCast_1ab_ab_apply, broadcastTo_1b_ab_apply]

/-! ## The initial values of the running quantities -/

/-- The running maximum starts at `-∞`. -/
theorem pay8_at (m : Fin 2048) : k2_pay8 (F := Ideal) (ix2 (0 : Fin 1) m) = ⊥ := by
  unfold k2_pay8
  rw [shapeCast_self, broadcast_apply, Ideal.ofBits_def, ofBits_neg_inf_f32]

/-- The normaliser starts at `0`. -/
theorem pay9_at (m : Fin 2048) : k2_pay9 (F := Ideal) (ix2 (0 : Fin 1) m) = 0 := by
  unfold k2_pay9
  rw [shapeCast_self, broadcast_apply, Ideal.ofBits_def, Ideal.ofBits_zero_f32]

/-- The accumulator starts at `0`. -/
theorem pay10_at (h : Fin 512) (m : Fin 2048) : k2_pay10 (F := Ideal) (ix3 (0 : Fin 1) h m) = 0 := by
  unfold k2_pay10
  refine (shapeCast_ab_1ab_apply _ _ (0 : Fin 1) h m).trans ?_
  rw [broadcast_apply, Ideal.ofBits_def, Ideal.ofBits_zero_f32]

end Cert.KernelIdeal.KV

end
-- ==== Proof.RealSpec.lean ====
import Mathlib.Analysis.SpecialFunctions.Exp
import Mathlib.Algebra.BigOperators.Fin
import Mathlib.Order.Fin.Basic

/-!
# The specification over the reals

The same two softmax-weighted sums as the specification over the extended reals, for inputs all of whose entries are real
numbers: projections, the score matrix, the shifted softmax weight of a row, and the two results.
-/

noncomputable section

namespace Cert.RealSpec

/-- `proj x W b n k = ∑ h, x[b, n, h] * W[k, h]`. -/
def proj (x : Fin 8 → Fin 2048 → Fin 512 → ℝ) (W : Fin 512 → Fin 512 → ℝ) (b : Fin 8) (n : Fin 2048) (k : Fin 512) : ℝ :=
  ∑ h : Fin 512, x b n h * W k h

/-- `s[b, n, m] = ∑ k, proj x1 W1 b n k * proj x2 W2 b m k`. -/
def score (x1 x2 : Fin 8 → Fin 2048 → Fin 512 → ℝ) (W1 W2 : Fin 512 → Fin 512 → ℝ) (b : Fin 8) (n m : Fin 2048) : ℝ :=
  ∑ k : Fin 512, proj x1 W1 b n k * proj x2 W2 b m k

/-- The maximum of a row of 2048 scores. -/
def rowMax (s : Fin 2048 → ℝ) : ℝ := Finset.univ.sup' Finset.univ_nonempty s

/-- The softmax weight of entry `j` of a row, in its shifted form. -/
def softmaxW (s : Fin 2048 → ℝ) (j : Fin 2048) : ℝ :=
  Real.exp (s j - rowMax s) / ∑ i : Fin 2048, Real.exp (s i - rowMax s)

/-- `out1[b, n, h] = ∑ m, softmax_m (s[b, n, ·]) * x2[b, m, h]`. -/
def out1 (x1 x2 : Fin 8 → Fin 2048 → Fin 512 → ℝ) (W1 W2 : Fin 512 → Fin 512 → ℝ) (b : Fin 8) (n : Fin 2048) (h : Fin 512) : ℝ :=
  ∑ m : Fin 2048, softmaxW (fun m => score x1 x2 W1 W2 b n m) m * x2 b m h

/-- `out2[b, m, h] = ∑ n, softmax_n (s[b, ·, m]) * x1[b, n, h]`. -/
def out2 (x1 x2 : Fin 8 → Fin 2048 → Fin 512 → ℝ) (W1 W2 : Fin 512 → Fin 512 → ℝ) (b : Fin 8) (m : Fin 2048) (h : Fin 512) : ℝ :=
  ∑ n : Fin 2048, softmaxW (fun n => score x1 x2 W1 W2 b n m) n * x1 b n h

/-- The normaliser of a row's softmax is positive. -/
theorem softmax_den_pos (s : Fin 2048 → ℝ) : 0 < ∑ i : Fin 2048, Real.exp (s i - rowMax s) :=
  Finset.sum_pos (fun i _ => Real.exp_pos _) Finset.univ_nonempty

end Cert.RealSpec

end
-- ==== Proof.Tiles.lean ====
import proofs.«104582_j57698590654943_2_alg».proof.Proof.RealSpec

/-!
# The online column softmax over eight row tiles, on the reals

A column of 2048 scores `S` and a column of 2048 values `X` are visited in eight tiles of 256 rows.  `mSeq` is the running
maximum, `lSeq` the running sum of shifted exponentials, `oSeq` the running weighted sum — each rescaled by
`exp (old maximum − new maximum)` when a tile is added.
-/

noncomputable section

namespace Cert.Tiles

/-- Row `r` of tile `i` (tiles counted modulo 8) as one of the 2048 rows. -/
def row (i : ℕ) (r : Fin 256) : Fin 2048 :=
  ⟨i % 8 * 256 + r.val, by have := r.isLt; have := Nat.mod_lt i (by norm_num : 0 < 8); omega⟩

/-- The maximum of the scores of tile `i`. -/
def tmax (S : Fin 2048 → ℝ) (i : ℕ) : ℝ := Finset.univ.sup' Finset.univ_nonempty (fun r : Fin 256 => S (row i r))

/-- The running maximum after tiles `0 … j`. -/
def mSeq (S : Fin 2048 → ℝ) : ℕ → ℝ
  | 0 => tmax S 0
  | j + 1 => max (mSeq S j) (tmax S (j + 1))

/-- The running sum of exponentials, shifted by the running maximum, after tiles `0 … j`. -/
def lSeq (S : Fin 2048 → ℝ) : ℕ → ℝ
  | 0 => ∑ r : Fin 256, Real.exp (S (row 0 r) - mSeq S 0)
  | j + 1 => Real.exp (mSeq S j - mSeq S (j + 1)) * lSeq S j + ∑ r : Fin 256, Real.exp (S (row (j + 1) r) - mSeq S (j + 1))

/-- The running weighted sum of the values after tiles `0 … j`. -/
def oSeq (S X : Fin 2048 → ℝ) : ℕ → ℝ
  | 0 => ∑ r : Fin 256, X (row 0 r) * Real.exp (S (row 0 r) - mSeq S 0)
  | j + 1 => Real.exp (mSeq S j - mSeq S (j + 1)) * oSeq S X j + ∑ r : Fin 256, X (row (j + 1) r) * Real.exp (S (row (j + 1) r) - mSeq S (j + 1))

end Cert.Tiles

end
-- ==== Proof.LibERealCoe.lean ====
/-
  Coercions between the reals and the extended reals, for a certificate whose inputs are all
  finite: every operation of the ideal instance, applied to (coercions of) real numbers, is the
  coercion of the corresponding real operation. Nothing here mentions a program or a size.
-/
import Idealize.ShloMosaic.PureOps.Ideal
import Idealize.ShloMosaic.PureOps.Ideal.Laws
import Mathlib.Data.EReal.Inv
import Mathlib.Data.Finset.Lattice.Fold
import Mathlib.Algebra.BigOperators.Group.Finset.Basic

namespace Cert.Lib.ERealCoe

open Idealize.ShloMosaic
open scoped BigOperators

universe u
variable {ι : Type u}

/-! ### Sums -/

/-- The coercion of a finite sum of reals is the sum of the coercions. -/
theorem coe_sum (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of products of coerced reals is the coercion of the real sum of products. -/
theorem sum_mul_coe (s : Finset ι) (f g : ι → ℝ) :
    ∑ i ∈ s, ((f i : ℝ) : EReal) * ((g i : ℝ) : EReal) = ((∑ i ∈ s, f i * g i : ℝ) : EReal) := by
  rw [coe_sum]
  exact Finset.sum_congr rfl fun i _ => (EReal.coe_mul _ _).symm

/-! ### The pointwise operations -/

/-- The exponential of a real, at the ideal instance, is the real exponential. -/
theorem exp_coe (x : ℝ) : Ideal.exp ((x : ℝ) : EReal) = ((Real.exp x : ℝ) : EReal) := rfl

/-- The exponential of minus infinity, at the ideal instance, is zero. -/
theorem exp_bot : Ideal.exp (⊥ : EReal) = 0 := rfl

/-- The quotient of two reals with a nonzero divisor, at the ideal instance, is the real quotient. -/
theorem div_coe (a : ℝ) {b : ℝ} (hb : b ≠ 0) :
    Ideal.div ((a : ℝ) : EReal) ((b : ℝ) : EReal) = ((a / b : ℝ) : EReal) := by
  rw [Ideal.div_coe hb, ← EReal.coe_mul, mul_one_div]

/-- The difference of two reals is the same in the reals and in the extended reals. -/
theorem sub_coe (a b : ℝ) : ((a : ℝ) : EReal) - ((b : ℝ) : EReal) = ((a - b : ℝ) : EReal) :=
  (EReal.coe_sub a b).symm

/-- The sum of two reals is the same in the reals and in the extended reals. -/
theorem add_coe (a b : ℝ) : ((a : ℝ) : EReal) + ((b : ℝ) : EReal) = ((a + b : ℝ) : EReal) :=
  (EReal.coe_add a b).symm

/-- The product of two reals is the same in the reals and in the extended reals. -/
theorem mul_coe (a b : ℝ) : ((a : ℝ) : EReal) * ((b : ℝ) : EReal) = ((a * b : ℝ) : EReal) :=
  (EReal.coe_mul a b).symm

/-- The negation of a real is the same in the reals and in the extended reals. -/
theorem neg_coe (a : ℝ) : -((a : ℝ) : EReal) = ((-a : ℝ) : EReal) :=
  (EReal.coe_neg a).symm

/-- The coercion is monotone, so the maximum of two reals is the same in the reals and in the
    extended reals. -/
theorem max_coe (a b : ℝ) : max ((a : ℝ) : EReal) ((b : ℝ) : EReal) = ((max a b : ℝ) : EReal) :=
  (EReal.coe_strictMono.monotone.map_max).symm

/-- The minimum of two reals is the same in the reals and in the extended reals. -/
theorem min_coe (a b : ℝ) : min ((a : ℝ) : EReal) ((b : ℝ) : EReal) = ((min a b : ℝ) : EReal) :=
  (EReal.coe_strictMono.monotone.map_min).symm

/-- Minus infinity is neutral for the maximum, on the left. -/
theorem max_bot_left' (x : EReal) : max ⊥ x = x := max_bot_left x

/-- Minus infinity is neutral for the maximum, on the right. -/
theorem max_bot_right' (x : EReal) : max x ⊥ = x := max_bot_right x

/-! ### Maxima over a finite set -/

/-- The maximum over a nonempty finite set of coerced reals is the coercion of the real maximum:
    the coercion is monotone. -/
theorem sup'_coe (s : Finset ι) (hs : s.Nonempty) (F : ι → ℝ) :
    s.sup' hs (fun i => ((F i : ℝ) : EReal)) = ((s.sup' hs F : ℝ) : EReal) :=
  (Finset.comp_sup'_eq_sup'_comp hs (fun r : ℝ => (r : EReal))
    (fun a b => EReal.coe_strictMono.monotone.map_max)).symm

/-- Folding the maximum from minus infinity over a finite set is the supremum over it. -/
theorem fold_max_bot_eq_sup (s : Finset ι) (f : ι → EReal) :
    s.fold max ⊥ f = s.sup f := rfl

/-- Folding the maximum from minus infinity over a nonempty finite set is the maximum over it. -/
theorem fold_max_bot (s : Finset ι) (hs : s.Nonempty) (f : ι → EReal) :
    s.fold max ⊥ f = s.sup' hs f :=
  (Finset.sup'_eq_sup hs f).symm

/-- The same over all of Fin (n+1). -/
theorem fold_max_bot_univ {n : Nat} (f : Fin (n + 1) → EReal) :
    (Finset.univ : Finset (Fin (n + 1))).fold max ⊥ f = Finset.univ.sup' Finset.univ_nonempty f :=
  fold_max_bot _ _ f

/-- Folding the maximum from minus infinity over a nonempty finite set of coerced reals is the
    coercion of the real maximum. -/
theorem fold_max_bot_coe (s : Finset ι) (hs : s.Nonempty) (F : ι → ℝ) :
    s.fold max ⊥ (fun i => ((F i : ℝ) : EReal)) = ((s.sup' hs F : ℝ) : EReal) := by
  rw [fold_max_bot s hs, sup'_coe]

/-! ### Two f32 patterns -/

/-- The f32 pattern of minus infinity denotes the bottom of the extended reals. -/
theorem ofBits_neg_inf_f32 : Ideal.ofBits .f32 0xFF800000#32 = (⊥ : EReal) := by
  simp [Ideal.ofBits, Ideal.ieee]

/-- The f32 pattern of plus infinity denotes the top of the extended reals. -/
theorem ofBits_pos_inf_f32 : Ideal.ofBits .f32 0x7F800000#32 = (⊤ : EReal) := by
  simp [Ideal.ofBits, Ideal.ieee]

/-- The f32 pattern of zero denotes zero. -/
theorem ofBits_zero_f32 : Ideal.ofBits .f32 0x00000000#32 = (0 : EReal) :=
  Ideal.ofBits_zero_f32

/-! ### Families of finite entries -/

/-- Every entry of the family is (the coercion of) a real number. -/
def IsFin {ι : Type u} (f : ι → EReal) : Prop := ∀ i, ∃ r : ℝ, f i = (r : EReal)

/-- A family of finite entries is the coercion of a family of reals. -/
theorem IsFin.exists_real {f : ι → EReal} (h : IsFin f) :
    ∃ F : ι → ℝ, f = fun i => ((F i : ℝ) : EReal) :=
  ⟨fun i => Classical.choose (h i), funext fun i => Classical.choose_spec (h i)⟩

/-- The coercion of a family of reals has finite entries. -/
theorem isFin_coe (F : ι → ℝ) : IsFin (fun i => ((F i : ℝ) : EReal)) := fun i => ⟨F i, rfl⟩

/-- An extended real that is neither infinity is a real number. -/
theorem exists_real_of_ne {x : EReal} (hb : x ≠ ⊥) (ht : x ≠ ⊤) : ∃ r : ℝ, x = (r : EReal) :=
  ⟨x.toReal, (EReal.coe_toReal ht hb).symm⟩

/-- A finite sum of finite entries is finite. -/
theorem exists_real_sum (s : Finset ι) {f : ι → EReal} (hf : ∀ i ∈ s, ∃ r : ℝ, f i = (r : EReal)) :
    ∃ r : ℝ, ∑ i ∈ s, f i = (r : EReal) := by
  classical
  refine ⟨∑ i ∈ s, if h : i ∈ s then Classical.choose (hf i h) else 0, ?_⟩
  rw [coe_sum]
  refine Finset.sum_congr rfl fun i hi => ?_
  rw [dif_pos hi]
  exact Classical.choose_spec (hf i hi)

/-- A product of two finite entries is finite. -/
theorem exists_real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, mul_coe a b⟩

/-- A finite sum of products of finite entries is finite. -/
theorem exists_real_sum_mul (s : Finset ι) {f g : ι → EReal} (hf : IsFin f) (hg : IsFin g) :
    ∃ r : ℝ, ∑ i ∈ s, f i * g i = (r : EReal) :=
  exists_real_sum s fun i _ => exists_real_mul (hf i) (hg i)

end Cert.Lib.ERealCoe
-- ==== Proof.Spec.lean ====
import Idealize.ShloMosaic.PureOps.Ideal
import Idealize.ShloMosaic.Lib.ValueIdx

/-!
# The specification: two softmax-weighted sums of one score matrix

Inputs: two batches of row vectors `x1 x2 : [8, 2048, 512]` and two square matrices
`W1 W2 : [512, 512]`, all over the extended reals.  Each input is projected by its matrix,
the projected rows are paired into a score matrix `s[b, n, m]`, and the two results are the
softmax of `s` along `m` applied to `x2` and the softmax of `s` along `n` applied to `x1`.
Arrays are curried functions on literal index types; no program is mentioned here.
-/

noncomputable section

namespace Cert.Spec

open Idealize.ShloMosaic

/-- The projection of a row by a square matrix (`y = x Wᵀ`):
`proj x W b n k = ∑ h, x[b, n, h] * W[k, h]`. -/
def proj (x : Fin 8 → Fin 2048 → Fin 512 → EReal) (W : Fin 512 → Fin 512 → EReal)
    (b : Fin 8) (n : Fin 2048) (k : Fin 512) : EReal :=
  ∑ h : Fin 512, x b n h * W k h

/-- The score of row `n` of the first input against row `m` of the second, in batch `b`: the inner
product of the two projected rows, `s[b, n, m] = ∑ k, proj x1 W1 b n k * proj x2 W2 b m k`. -/
def score (x1 x2 : Fin 8 → Fin 2048 → Fin 512 → EReal) (W1 W2 : Fin 512 → Fin 512 → EReal)
    (b : Fin 8) (n m : Fin 2048) : EReal :=
  ∑ k : Fin 512, proj x1 W1 b n k * proj x2 W2 b m k

/-- The maximum of a row of 2048 scores. -/
def rowMax (s : Fin 2048 → EReal) : EReal :=
  Finset.univ.sup' Finset.univ_nonempty s

/-- The softmax weight of entry `j` of a row `s` of 2048 scores, in its shifted form:
`exp (s j - max s) / ∑ i, exp (s i - max s)`, with the exponential and the quotient of the
extended reals. -/
def softmaxW (s : Fin 2048 → EReal) (j : Fin 2048) : EReal :=
  Ideal.div (Ideal.exp (s j - rowMax s)) (∑ i : Fin 2048, Ideal.exp (s i - rowMax s))

/-- First result: the softmax of the scores along `m` (for fixed `b, n`) weighting the rows of the
second input, `out1[b, n, h] = ∑ m, softmax_m (s[b, n, ·]) * x2[b, m, h]`. -/
def out1 (x1 x2 : Fin 8 → Fin 2048 → Fin 512 → EReal) (W1 W2 : Fin 512 → Fin 512 → EReal)
    (b : Fin 8) (n : Fin 2048) (h : Fin 512) : EReal :=
  ∑ m : Fin 2048, softmaxW (fun m => score x1 x2 W1 W2 b n m) m * x2 b m h

/-- Second result: the softmax of the scores along `n` (for fixed `b, m`) weighting the rows of the
first input, `out2[b, m, h] = ∑ n, softmax_n (s[b, ·, m]) * x1[b, n, h]`. -/
def out2 (x1 x2 : Fin 8 → Fin 2048 → Fin 512 → EReal) (W1 W2 : Fin 512 → Fin 512 → EReal)
    (b : Fin 8) (m : Fin 2048) (h : Fin 512) : EReal :=
  ∑ n : Fin 2048, softmaxW (fun n => score x1 x2 W1 W2 b n m) n * x1 b n h

end Cert.Spec

end
-- ==== Proof.SpecReal.lean ====
/-
  The specification over the extended reals, at inputs all of whose entries are real numbers, is the
  coercion of the specification over the reals: every sum, product, maximum, difference, exponential and
  quotient it takes is of (coercions of) real numbers, and the softmax normaliser is a positive real.
-/
import proofs.«104582_j57698590654943_2_alg».proof.Proof.Spec
import proofs.«104582_j57698590654943_2_alg».proof.Proof.RealSpec
import proofs.«104582_j57698590654943_2_alg».proof.Proof.LibERealCoe

noncomputable section

namespace Cert.SpecReal

open Idealize.ShloMosaic Cert.Lib.ERealCoe

/-- A batch of real row vectors read in the extended reals, entry by entry. -/
abbrev c3 (x : Fin 8 → Fin 2048 → Fin 512 → ℝ) : Fin 8 → Fin 2048 → Fin 512 → EReal :=
  fun b n h => ((x b n h : ℝ) : EReal)

/-- A real square matrix read in the extended reals, entry by entry. -/
abbrev c2 (W : Fin 512 → Fin 512 → ℝ) : Fin 512 → Fin 512 → EReal :=
  fun k h => ((W k h : ℝ) : EReal)

variable (x x1 x2 : Fin 8 → Fin 2048 → Fin 512 → ℝ) (W W1 W2 : Fin 512 → Fin 512 → ℝ)

/-- The projection of real rows by a real matrix is the real projection. -/
theorem proj_coe (b : Fin 8) (n : Fin 2048) (k : Fin 512) :
    Cert.Spec.proj (c3 x) (c2 W) b n k = ((Cert.RealSpec.proj x W b n k : ℝ) : EReal) := by
  unfold Cert.Spec.proj Cert.RealSpec.proj
  exact sum_mul_coe Finset.univ (fun h => x b n h) (fun h => W k h)

/-- The score of real inputs is the real score. -/
theorem score_coe (b : Fin 8) (n m : Fin 2048) :
    Cert.Spec.score (c3 x1) (c3 x2) (c2 W1) (c2 W2) b n m
      = ((Cert.RealSpec.score x1 x2 W1 W2 b n m : ℝ) : EReal) := by
  unfold Cert.Spec.score Cert.RealSpec.score
  simp only [proj_coe]
  exact sum_mul_coe Finset.univ (fun k => Cert.RealSpec.proj x1 W1 b n k) (fun k => Cert.RealSpec.proj x2 W2 b m k)

/-- The maximum of a row of real scores is the real maximum. -/
theorem rowMax_coe (s : Fin 2048 → ℝ) :
    Cert.Spec.rowMax (fun j => ((s j : ℝ) : EReal)) = ((Cert.RealSpec.rowMax s : ℝ) : EReal) := by
  unfold Cert.Spec.rowMax Cert.RealSpec.rowMax
  exact sup'_coe Finset.univ Finset.univ_nonempty s

/-- The softmax weight of an entry of a row of real scores is the real softmax weight: the shifted
    exponentials are real, and their sum, the divisor, is a positive real. -/
theorem softmaxW_coe (s : Fin 2048 → ℝ) (j : Fin 2048) :
    Cert.Spec.softmaxW (fun j => ((s j : ℝ) : EReal)) j = ((Cert.RealSpec.softmaxW s j : ℝ) : EReal) := by
  unfold Cert.Spec.softmaxW Cert.RealSpec.softmaxW
  rw [rowMax_coe]
  simp only [sub_coe, exp_coe]
  rw [← coe_sum Finset.univ (fun i => Real.exp (s i - Cert.RealSpec.rowMax s))]
  exact div_coe _ (ne_of_gt (Cert.RealSpec.softmax_den_pos s))

/-- The first result at real inputs is the real first result. -/
theorem out1_coe (b : Fin 8) (n : Fin 2048) (h : Fin 512) :
    Cert.Spec.out1 (c3 x1) (c3 x2) (c2 W1) (c2 W2) b n h
      = ((Cert.RealSpec.out1 x1 x2 W1 W2 b n h : ℝ) : EReal) := by
  unfold Cert.Spec.out1 Cert.RealSpec.out1
  simp only [score_coe, softmaxW_coe]
  exact sum_mul_coe Finset.univ
    (fun m => Cert.RealSpec.softmaxW (fun m => Cert.RealSpec.score x1 x2 W1 W2 b n m) m) (fun m => x2 b m h)

/-- The second result at real inputs is the real second result. -/
theorem out2_coe (b : Fin 8) (m : Fin 2048) (h : Fin 512) :
    Cert.Spec.out2 (c3 x1) (c3 x2) (c2 W1) (c2 W2) b m h
      = ((Cert.RealSpec.out2 x1 x2 W1 W2 b m h : ℝ) : EReal) := by
  unfold Cert.Spec.out2 Cert.RealSpec.out2
  simp only [score_coe, softmaxW_coe]
  exact sum_mul_coe Finset.univ
    (fun n => Cert.RealSpec.softmaxW (fun n => Cert.RealSpec.score x1 x2 W1 W2 b n m) n) (fun n => x1 b n h)

/-- A sum weighted by shifted exponentials, divided by the sum of the shifted exponentials, is the sum
    weighted by the softmax weights. -/
theorem softmax_sum_div (s : Fin 2048 → ℝ) (x : Fin 2048 → ℝ) :
    (∑ m, Real.exp (s m - Cert.RealSpec.rowMax s) * x m) / (∑ i, Real.exp (s i - Cert.RealSpec.rowMax s))
      = ∑ m, Cert.RealSpec.softmaxW s m * x m := by
  rw [Finset.sum_div]
  refine Finset.sum_congr rfl fun m _ => ?_
  unfold Cert.RealSpec.softmaxW
  rw [div_mul_eq_mul_div]

end Cert.SpecReal

end
-- ==== Proof.KV.AttnStep.lean ====
import proofs.«104582_j57698590654943_2_alg».proof.Proof.KV.AttnPay
import proofs.«104582_j57698590654943_2_alg».proof.Proof.Tiles
import proofs.«104582_j57698590654943_2_alg».proof.Proof.LibERealCoe
import proofs.«104582_j57698590654943_2_alg».proof.Proof.SpecReal

/-!
# One step of the running column softmax, and the two quotients, on real data

When the scores and values a tile reads are real numbers, and the running maximum, normaliser and
accumulator it starts from are the real running quantities after the tiles before it, the values
it leaves are the real running quantities after it.  The first tile starts from `-∞`: its rescaling
factor is `exp (-∞) = 0`, which annihilates whatever the old normaliser and accumulator hold.
The final quotient of two reals with a nonzero divisor is the real quotient, and the row softmax
of a real score row applied to real values is the real softmax-weighted sum.
-/

noncomputable section

namespace Cert.KernelIdeal.KV

open Cert.KernelIdeal Cert.KernelIdeal.Gen Idealize.ShloMosaic Idealize.ShloMosaic.ValueIdx Cert.Lib.ERealCoe

variable (sc : FVec Ideal S256x2048 .f32) (xb : Vec Ideal S1x256x512 .f32) (v28 v29 : Vec Ideal S1x2048 .f32)
  (v47 : Vec Ideal S1x512x2048 .f32) (S X : Fin 2048 → ℝ) (m : Fin 2048) (h : Fin 512)

/-! ## The pieces of one step -/

/-- The new running maximum of column `m` when tile `i`'s scores are real: the larger of the old
running maximum and the tile's maximum. -/
theorem newmax_coe (i : ℕ) (hsc : ∀ r : Fin 256, sc (ix2 r m) = ((S (Tiles.row i r) : ℝ) : EReal)) :
    k2_pay1 (F := Ideal) sc v28 (ix2 (0 : Fin 1) m)
      = max (v28 (ix2 (0 : Fin 1) m)) ((Tiles.tmax S i : ℝ) : EReal) := by
  rw [pay1_at]
  simp only [hsc]
  rw [sup'_coe]
  rfl

/-- The tile's shifted exponential at row `r`, when the new running maximum is the real `M`. -/
theorem pay3_coe (i : ℕ) (M : ℝ) (hsc : ∀ r : Fin 256, sc (ix2 r m) = ((S (Tiles.row i r) : ℝ) : EReal))
    (hm : k2_pay1 (F := Ideal) sc v28 (ix2 (0 : Fin 1) m) = ((M : ℝ) : EReal)) (r : Fin 256) :
    k2_pay3 (F := Ideal) sc v28 (ix2 r m) = ((Real.exp (S (Tiles.row i r) - M) : ℝ) : EReal) := by
  rw [pay3_at, hsc, hm, sub_coe, exp_coe]

/-- The tile's column sum of shifted exponentials. -/
theorem sum_pay3_coe (i : ℕ) (M : ℝ) (hsc : ∀ r : Fin 256, sc (ix2 r m) = ((S (Tiles.row i r) : ℝ) : EReal))
    (hm : k2_pay1 (F := Ideal) sc v28 (ix2 (0 : Fin 1) m) = ((M : ℝ) : EReal)) :
    ∑ r : Fin 256, k2_pay3 (F := Ideal) sc v28 (ix2 r m)
      = ((∑ r : Fin 256, Real.exp (S (Tiles.row i r) - M) : ℝ) : EReal) := by
  rw [coe_sum]
  exact Finset.sum_congr rfl fun r _ => pay3_coe sc v28 S m i M hsc hm r

/-- The tile's column sum of values weighted by the shifted exponentials. -/
theorem sum_x_pay3_coe (i : ℕ) (M : ℝ) (hsc : ∀ r : Fin 256, sc (ix2 r m) = ((S (Tiles.row i r) : ℝ) : EReal))
    (hx : ∀ r : Fin 256, xb (ix3 (0 : Fin 1) r h) = ((X (Tiles.row i r) : ℝ) : EReal))
    (hm : k2_pay1 (F := Ideal) sc v28 (ix2 (0 : Fin 1) m) = ((M : ℝ) : EReal)) :
    ∑ r : Fin 256, k2_pay11 (F := Ideal) xb (ix2 r h) * k2_pay3 (F := Ideal) sc v28 (ix2 r m)
      = ((∑ r : Fin 256, X (Tiles.row i r) * Real.exp (S (Tiles.row i r) - M) : ℝ) : EReal) := by
  rw [← sum_mul_coe]
  exact Finset.sum_congr rfl fun r _ => by rw [pay11_at, hx, pay3_coe sc v28 S m i M hsc hm r]

/-! ## The first tile and a later tile -/

/-- THE FIRST TILE: from a running maximum of `-∞` (whatever the old normaliser and accumulator hold),
the stored maximum, normaliser and accumulator are the real running quantities after tile `0`. -/
theorem tile_first (hsc : ∀ r : Fin 256, sc (ix2 r m) = ((S (Tiles.row 0 r) : ℝ) : EReal))
    (hx : ∀ r : Fin 256, xb (ix3 (0 : Fin 1) r h) = ((X (Tiles.row 0 r) : ℝ) : EReal))
    (hv28 : v28 (ix2 (0 : Fin 1) m) = ⊥) :
    k2_pay6 (F := Ideal) sc v28 (ix2 (0 : Fin 1) m) = ((Tiles.mSeq S 0 : ℝ) : EReal)
      ∧ k2_pay4 (F := Ideal) sc v28 v29 (ix2 (0 : Fin 1) m) = ((Tiles.lSeq S 0 : ℝ) : EReal)
      ∧ k2_pay5 (F := Ideal) (k2_pay11 (F := Ideal) xb) sc v28 v47 (ix3 (0 : Fin 1) h m)
          = ((Tiles.oSeq S X 0 : ℝ) : EReal) := by
  have hm : k2_pay1 (F := Ideal) sc v28 (ix2 (0 : Fin 1) m) = ((Tiles.mSeq S 0 : ℝ) : EReal) := by
    rw [newmax_coe sc v28 S m 0 hsc, hv28, max_bot_left]
    rfl
  have h2 : k2_pay2 (F := Ideal) sc v28 (ix2 (0 : Fin 1) m) = 0 := by
    rw [pay2_at, hm, hv28, EReal.bot_sub, exp_bot]
  refine ⟨?_, ?_, ?_⟩
  · rw [pay6_at, hm]
  · rw [pay4_at, h2, zero_mul, zero_add, sum_pay3_coe sc v28 S m 0 (Tiles.mSeq S 0) hsc hm]
    rfl
  · rw [pay5_at, h2, zero_mul, zero_add, sum_x_pay3_coe sc xb v28 S X m h 0 (Tiles.mSeq S 0) hsc hx hm]
    rfl

/-- A LATER TILE: from the real running quantities after tiles `0 … j`, the stored maximum, normaliser
and accumulator are the real running quantities after tile `j + 1`. -/
theorem tile_next (j : ℕ) (hsc : ∀ r : Fin 256, sc (ix2 r m) = ((S (Tiles.row (j + 1) r) : ℝ) : EReal))
    (hx : ∀ r : Fin 256, xb (ix3 (0 : Fin 1) r h) = ((X (Tiles.row (j + 1) r) : ℝ) : EReal))
    (hv28 : v28 (ix2 (0 : Fin 1) m) = ((Tiles.mSeq S j : ℝ) : EReal))
    (hv29 : v29 (ix2 (0 : Fin 1) m) = ((Tiles.lSeq S j : ℝ) : EReal))
    (hv47 : v47 (ix3 (0 : Fin 1) h m) = ((Tiles.oSeq S X j : ℝ) : EReal)) :
    k2_pay6 (F := Ideal) sc v28 (ix2 (0 : Fin 1) m) = ((Tiles.mSeq S (j + 1) : ℝ) : EReal)
      ∧ k2_pay4 (F := Ideal) sc v28 v29 (ix2 (0 : Fin 1) m) = ((Tiles.lSeq S (j + 1) : ℝ) : EReal)
      ∧ k2_pay5 (F := Ideal) (k2_pay11 (F := Ideal) xb) sc v28 v47 (ix3 (0 : Fin 1) h m)
          = ((Tiles.oSeq S X (j + 1) : ℝ) : EReal) := by
  have hm : k2_pay1 (F := Ideal) sc v28 (ix2 (0 : Fin 1) m) = ((Tiles.mSeq S (j + 1) : ℝ) : EReal) := by
    rw [newmax_coe sc v28 S m (j + 1) hsc, hv28, max_coe]
    rfl
  have h2 : k2_pay2 (F := Ideal) sc v28 (ix2 (0 : Fin 1) m)
      = ((Real.exp (Tiles.mSeq S j - Tiles.mSeq S (j + 1)) : ℝ) : EReal) := by
    rw [pay2_at, hm, hv28, sub_coe, exp_coe]
  refine ⟨?_, ?_, ?_⟩
  · rw [pay6_at, hm]
  · rw [pay4_at, h2, hv29, sum_pay3_coe sc v28 S m (j + 1) (Tiles.mSeq S (j + 1)) hsc hm, mul_coe, add_coe]
    rfl
  · rw [pay5_at, h2, hv47, sum_x_pay3_coe sc xb v28 S X m h (j + 1) (Tiles.mSeq S (j + 1)) hsc hx hm, mul_coe,
      add_coe]
    rfl

/-! ## The two quotients -/

/-- THE FINAL QUOTIENT of a real accumulator by a nonzero real normaliser is the real quotient. -/
theorem tile_div (o l : ℝ) (hl : l ≠ 0) (v61 : Vec Ideal S1x512x2048 .f32) (v63 : Vec Ideal S1x2048 .f32)
    (h61 : v61 (ix3 (0 : Fin 1) h m) = ((o : ℝ) : EReal)) (h63 : v63 (ix2 (0 : Fin 1) m) = ((l : ℝ) : EReal)) :
    k2_pay7 (F := Ideal) v61 v63 (ix3 (0 : Fin 1) h m) = ((o / l : ℝ) : EReal) := by
  rw [pay7_at, h61, h63, div_coe o hl]

/-- THE ROW RESULT: when row `r` of the score block and column `h` of the values are real, the first
result's block at `(r, h)` is the real softmax-weighted sum of the values. -/
theorem row_out (v3 : Vec Ideal S1x256x512 .bf16) (v5 : Vec Ideal S1x2048x512 .bf16) (v10 : Vec Ideal S1x2048x512 .f32)
    (Srow X2 : Fin 2048 → ℝ) (r : Fin 256) (h : Fin 512)
    (hs : ∀ m : Fin 2048, k2_pay12 (F := Ideal) v3 v5 (ix2 r m) = ((Srow m : ℝ) : EReal))
    (hx : ∀ m : Fin 2048, v10 (ix3 (0 : Fin 1) m h) = ((X2 m : ℝ) : EReal)) :
    k2_pay13 (F := Ideal) v3 v5 v10 (ix3 (0 : Fin 1) r h)
      = ((∑ m : Fin 2048, Cert.RealSpec.softmaxW Srow m * X2 m : ℝ) : EReal) := by
  rw [pay13_at]
  simp only [hs, hx]
  rw [sup'_coe]
  have e : Finset.univ.sup' Finset.univ_nonempty Srow = Cert.RealSpec.rowMax Srow := rfl
  rw [e]
  simp only [sub_coe, exp_coe]
  rw [sum_mul_coe, ← coe_sum, div_coe _ (ne_of_gt (Cert.RealSpec.softmax_den_pos Srow)),
    Cert.SpecReal.softmax_sum_div]

end Cert.KernelIdeal.KV

end
-- ==== Proof.LibOnlineSoftmax.lean ====
import Mathlib.Analysis.SpecialFunctions.Exp
import Mathlib.Data.Finset.Lattice.Fold
import Mathlib.Data.Finset.Prod
import Mathlib.Algebra.Order.BigOperators.Group.Finset
import Mathlib.Algebra.BigOperators.Field
import Mathlib.Tactic.Ring

/-!
# The online (tile-by-tile) softmax accumulation law

A column of scores is split into tiles `s 0, s 1, …` (each tile indexed by a finite
nonempty type `ι`).  The online algorithm keeps a running maximum `m j`, a running
normaliser `l j` and a running weighted accumulator `o j`, and every time the maximum
moves it rescales the old normaliser and accumulator by `exp (m j - m (j+1))`.

This file proves that after tile `j` the three running quantities are exactly the
maximum, the shifted exponential sum and the shifted exponential weighted sum over
*all* the scores of tiles `0 … j`, so that `o j / l j` is the plain softmax-weighted
sum of the values.  Everything is over the reals; no sizes are fixed.
-/

namespace Cert.Lib.OnlineSoftmax

open Finset

variable {ι : Type*} [Fintype ι]

/-- The rescaling law: moving the reference point of a shifted exponential from `a` to `b`
is multiplication by `exp (a - b)`:  `exp (a - b) * exp (x - a) = exp (x - b)`. -/
theorem exp_rescale (a b x : ℝ) :
    Real.exp (a - b) * Real.exp (x - a) = Real.exp (x - b) := by
  rw [← Real.exp_add]
  congr 1
  ring

/-- The accumulator law, for an arbitrary sequence of reference points `m` (it need not be the
running maximum) and arbitrary weights `w`.  If `a 0 = ∑ r, w 0 r * exp (s 0 r - m 0)` and
`a (j+1) = exp (m j - m (j+1)) * a j + ∑ r, w (j+1) r * exp (s (j+1) r - m (j+1))`, then
`a j = ∑_{i ≤ j} ∑ r, w i r * exp (s i r - m j)`: rescaling the old accumulator moves every old
term to the new reference point. -/
theorem acc_eq (s w : ℕ → ι → ℝ) (m a : ℕ → ℝ)
    (h0 : a 0 = ∑ r, w 0 r * Real.exp (s 0 r - m 0))
    (hs : ∀ j, a (j + 1) = Real.exp (m j - m (j + 1)) * a j
        + ∑ r, w (j + 1) r * Real.exp (s (j + 1) r - m (j + 1))) :
    ∀ j, a j = ∑ i ∈ range (j + 1), ∑ r, w i r * Real.exp (s i r - m j) := by
  intro j
  induction j with
  | zero => simpa using h0
  | succ j ih =>
    rw [hs, ih, Finset.sum_range_succ _ (j + 1), Finset.mul_sum]
    congr 1
    refine Finset.sum_congr rfl (fun i _ => ?_)
    rw [Finset.mul_sum]
    refine Finset.sum_congr rfl (fun r _ => ?_)
    rw [← exp_rescale (m j) (m (j + 1)) (s i r)]
    ring

section RunningMax

variable [Nonempty ι]

/-- (a, upper bound) The running maximum dominates every score seen so far:
`s i r ≤ m j` for all tiles `i ≤ j` and all rows `r`. -/
theorem runmax_ge (s : ℕ → ι → ℝ) (m : ℕ → ℝ)
    (h0m : m 0 = Finset.univ.sup' Finset.univ_nonempty (s 0))
    (hm : ∀ j, m (j + 1) = max (m j) (Finset.univ.sup' Finset.univ_nonempty (s (j + 1)))) :
    ∀ j, ∀ i ≤ j, ∀ r, s i r ≤ m j := by
  intro j
  induction j with
  | zero =>
    intro i hi r
    obtain rfl : i = 0 := Nat.le_zero.mp hi
    rw [h0m]
    exact Finset.le_sup' (s 0) (Finset.mem_univ r)
  | succ j ih =>
    intro i hi r
    rw [hm]
    rcases Nat.le_succ_iff.mp hi with h | rfl
    · exact le_trans (ih i h r) (le_max_left _ _)
    · exact le_trans (Finset.le_sup' (s (j + 1)) (Finset.mem_univ r)) (le_max_right _ _)

/-- (a, attained) The running maximum is one of the scores seen so far:
`m j = s i r` for some tile `i ≤ j` and some row `r`. -/
theorem runmax_attained (s : ℕ → ι → ℝ) (m : ℕ → ℝ)
    (h0m : m 0 = Finset.univ.sup' Finset.univ_nonempty (s 0))
    (hm : ∀ j, m (j + 1) = max (m j) (Finset.univ.sup' Finset.univ_nonempty (s (j + 1)))) :
    ∀ j, ∃ i ≤ j, ∃ r, m j = s i r := by
  intro j
  induction j with
  | zero =>
    obtain ⟨r, -, hr⟩ := Finset.exists_mem_eq_sup' Finset.univ_nonempty (s 0)
    exact ⟨0, le_rfl, r, h0m.trans hr⟩
  | succ j ih =>
    rcases max_choice (m j) (Finset.univ.sup' Finset.univ_nonempty (s (j + 1))) with h | h
    · obtain ⟨i, hi, r, hr⟩ := ih
      exact ⟨i, Nat.le_succ_of_le hi, r, by rw [hm, h, hr]⟩
    · obtain ⟨r, -, hr⟩ := Finset.exists_mem_eq_sup' Finset.univ_nonempty (s (j + 1))
      exact ⟨j + 1, le_rfl, r, by rw [hm, h, hr]⟩

/-- (a) The running maximum after tile `j` is the maximum of all scores of tiles `0 … j`:
it dominates each of them and equals one of them. -/
theorem runmax_isMax (s : ℕ → ι → ℝ) (m : ℕ → ℝ)
    (h0m : m 0 = Finset.univ.sup' Finset.univ_nonempty (s 0))
    (hm : ∀ j, m (j + 1) = max (m j) (Finset.univ.sup' Finset.univ_nonempty (s (j + 1)))) :
    ∀ j, (∀ i ≤ j, ∀ r, s i r ≤ m j) ∧ (∃ i ≤ j, ∃ r, m j = s i r) :=
  fun j => ⟨runmax_ge s m h0m hm j, runmax_attained s m h0m hm j⟩

/-- (a, as an equation) The running maximum after tile `j` is the supremum of the scores over
the index set `{0, …, j} × ι`. -/
theorem runmax_eq_sup' (s : ℕ → ι → ℝ) (m : ℕ → ℝ)
    (h0m : m 0 = Finset.univ.sup' Finset.univ_nonempty (s 0))
    (hm : ∀ j, m (j + 1) = max (m j) (Finset.univ.sup' Finset.univ_nonempty (s (j + 1)))) :
    ∀ j, m j = ((range (j + 1)) ×ˢ (Finset.univ : Finset ι)).sup'
        (Finset.nonempty_range_add_one.product Finset.univ_nonempty) (fun p => s p.1 p.2) := by
  intro j
  apply le_antisymm
  · obtain ⟨i, hi, r, hr⟩ := runmax_attained s m h0m hm j
    rw [hr]
    exact Finset.le_sup' (fun p : ℕ × ι => s p.1 p.2)
      (Finset.mk_mem_product (Finset.mem_range.mpr (Nat.lt_succ_of_le hi)) (Finset.mem_univ r))
  · refine Finset.sup'_le _ _ (fun p hp => ?_)
    have hp1 : p.1 ≤ j := Nat.lt_succ_iff.mp (Finset.mem_range.mp (Finset.mem_product.mp hp).1)
    exact runmax_ge s m h0m hm j p.1 hp1 p.2

end RunningMax

/-- (b) The running normaliser after tile `j` is the sum of the exponentials of all scores of
tiles `0 … j`, shifted by the current reference point `m j`.  (True for any sequence `m`.) -/
theorem runsum_eq (s : ℕ → ι → ℝ) (m l : ℕ → ℝ)
    (h0l : l 0 = ∑ r, Real.exp (s 0 r - m 0))
    (hl : ∀ j, l (j + 1) = Real.exp (m j - m (j + 1)) * l j
        + ∑ r, Real.exp (s (j + 1) r - m (j + 1))) :
    ∀ j, l j = ∑ i ∈ range (j + 1), ∑ r, Real.exp (s i r - m j) := by
  have h := acc_eq s (fun _ _ => (1 : ℝ)) m l (by simpa using h0l) (by simpa using hl)
  simpa using h

/-- (b, positivity) The running normaliser is strictly positive: it is a sum, over a nonempty
index set, of exponentials. -/
theorem runsum_pos [Nonempty ι] (s : ℕ → ι → ℝ) (m l : ℕ → ℝ)
    (h0l : l 0 = ∑ r, Real.exp (s 0 r - m 0))
    (hl : ∀ j, l (j + 1) = Real.exp (m j - m (j + 1)) * l j
        + ∑ r, Real.exp (s (j + 1) r - m (j + 1))) :
    ∀ j, 0 < l j := by
  intro j
  rw [runsum_eq s m l h0l hl j]
  exact Finset.sum_pos
    (fun i _ => Finset.sum_pos (fun r _ => Real.exp_pos _) Finset.univ_nonempty)
    Finset.nonempty_range_add_one

/-- (c) The running accumulator after tile `j` is the sum of `v i r * exp (s i r - m j)` over all
rows of tiles `0 … j`.  (True for any sequence `m`.) -/
theorem runacc_eq (s v : ℕ → ι → ℝ) (m o : ℕ → ℝ)
    (h0o : o 0 = ∑ r, v 0 r * Real.exp (s 0 r - m 0))
    (ho : ∀ j, o (j + 1) = Real.exp (m j - m (j + 1)) * o j
        + ∑ r, v (j + 1) r * Real.exp (s (j + 1) r - m (j + 1))) :
    ∀ j, o j = ∑ i ∈ range (j + 1), ∑ r, v i r * Real.exp (s i r - m j) :=
  acc_eq s v m o h0o ho

/-- The row-direction law: dividing a finite weighted sum by `L` is the same as dividing each
weight by `L`:  `(∑ k, p k * x k) / L = ∑ k, (p k / L) * x k`.  No hypothesis on `L` is needed:
for `L = 0` both sides are `0` because division by zero is zero. -/
theorem sum_mul_div {κ : Type*} [Fintype κ] (p x : κ → ℝ) (L : ℝ) :
    (∑ k, p k * x k) / L = ∑ k, (p k / L) * x k := by
  rw [Finset.sum_div]
  refine Finset.sum_congr rfl (fun k _ => ?_)
  ring

/-- (d) The online quotient is the softmax-weighted sum: after tile `j`,
`o j / l j = ∑_{i ≤ j} ∑ r, (exp (s i r - m j) / l j) * v i r`, where by (b) the weights
`exp (s i r - m j) / l j` are positive and sum to one. -/
theorem online_quotient (s v : ℕ → ι → ℝ) (m l o : ℕ → ℝ)
    (h0o : o 0 = ∑ r, v 0 r * Real.exp (s 0 r - m 0))
    (ho : ∀ j, o (j + 1) = Real.exp (m j - m (j + 1)) * o j
        + ∑ r, v (j + 1) r * Real.exp (s (j + 1) r - m (j + 1))) :
    ∀ j, o j / l j
      = ∑ i ∈ range (j + 1), ∑ r, (Real.exp (s i r - m j) / l j) * v i r := by
  intro j
  rw [runacc_eq s v m o h0o ho j, Finset.sum_div]
  refine Finset.sum_congr rfl (fun i _ => ?_)
  rw [Finset.sum_div]
  refine Finset.sum_congr rfl (fun r _ => ?_)
  ring

/-- The softmax weights sum to one: `∑_{i ≤ j} ∑ r, exp (s i r - m j) / l j = 1`. -/
theorem weights_sum_one [Nonempty ι] (s : ℕ → ι → ℝ) (m l : ℕ → ℝ)
    (h0l : l 0 = ∑ r, Real.exp (s 0 r - m 0))
    (hl : ∀ j, l (j + 1) = Real.exp (m j - m (j + 1)) * l j
        + ∑ r, Real.exp (s (j + 1) r - m (j + 1))) :
    ∀ j, ∑ i ∈ range (j + 1), ∑ r, Real.exp (s i r - m j) / l j = 1 := by
  intro j
  have hpos := runsum_pos s m l h0l hl j
  simp only [← Finset.sum_div]
  rw [← runsum_eq s m l h0l hl j]
  exact div_self hpos.ne'

/-- Shift invariance of the softmax weight: subtracting the same constant `c` from every score
does not change `exp x / ∑ k, exp (y k)`.  (No hypothesis: for an empty sum both sides are `0`.) -/
theorem softmax_shift {κ : Type*} (T : Finset κ) (y : κ → ℝ) (x c : ℝ) :
    Real.exp (x - c) / ∑ k ∈ T, Real.exp (y k - c) = Real.exp x / ∑ k ∈ T, Real.exp (y k) := by
  simp only [Real.exp_sub]
  rw [← Finset.sum_div]
  exact div_div_div_cancel_right₀ (Real.exp_pos c).ne' _ _

/-- All of (a)–(d) at once, from the six defining equations of the online recurrence. -/
theorem online_softmax [Nonempty ι] (s v : ℕ → ι → ℝ) (m l o : ℕ → ℝ)
    (h0m : m 0 = Finset.univ.sup' Finset.univ_nonempty (s 0))
    (h0l : l 0 = ∑ r, Real.exp (s 0 r - m 0))
    (h0o : o 0 = ∑ r, v 0 r * Real.exp (s 0 r - m 0))
    (hm : ∀ j, m (j + 1) = max (m j) (Finset.univ.sup' Finset.univ_nonempty (s (j + 1))))
    (hl : ∀ j, l (j + 1) = Real.exp (m j - m (j + 1)) * l j
        + ∑ r, Real.exp (s (j + 1) r - m (j + 1)))
    (ho : ∀ j, o (j + 1) = Real.exp (m j - m (j + 1)) * o j
        + ∑ r, v (j + 1) r * Real.exp (s (j + 1) r - m (j + 1))) :
    ∀ j, ((∀ i ≤ j, ∀ r, s i r ≤ m j) ∧ (∃ i ≤ j, ∃ r, m j = s i r))
      ∧ l j = ∑ i ∈ range (j + 1), ∑ r, Real.exp (s i r - m j)
      ∧ 0 < l j
      ∧ o j = ∑ i ∈ range (j + 1), ∑ r, v i r * Real.exp (s i r - m j)
      ∧ o j / l j = ∑ i ∈ range (j + 1), ∑ r, (Real.exp (s i r - m j) / l j) * v i r :=
  fun j => ⟨runmax_isMax s m h0m hm j, runsum_eq s m l h0l hl j, runsum_pos s m l h0l hl j,
    runacc_eq s v m o h0o ho j, online_quotient s v m l o h0o ho j⟩

end Cert.Lib.OnlineSoftmax
-- ==== Proof.TilesThm.lean ====
import proofs.«104582_j57698590654943_2_alg».proof.Proof.Tiles
import proofs.«104582_j57698590654943_2_alg».proof.Proof.LibOnlineSoftmax

/-!
# The eight tiles cover the column: the online recursion computes the column softmax

The recursions `mSeq`, `lSeq`, `oSeq` visit the 2048 rows in eight tiles of 256.  Because
`(i, r) ↦ 256 * i + r` is a bijection from `{0,…,7} × {0,…,255}` onto `{0,…,2047}`, sums and maxima over the
tiles are sums and maxima over the whole column, so after the last tile the running quantities are the
column maximum, the column's shifted exponential sum, and the quotient is the softmax-weighted sum.
-/

noncomputable section

namespace Cert.Tiles

open Cert.Lib.OnlineSoftmax

/-- Row `n` lies in tile `n / 256` at position `n % 256`:  `256 * (n / 256) + n % 256 = n`, and
`n / 256 < 8` because `n < 2048`. -/
theorem row_div_mod (n : Fin 2048) :
    row (n.val / 256) ⟨n.val % 256, Nat.mod_lt _ (by norm_num)⟩ = n := by
  apply Fin.ext
  have h := n.isLt
  show n.val / 256 % 8 * 256 + n.val % 256 = n.val
  omega

/-- The tiling re-indexes sums: summing over the eight tiles and, inside each, over its 256 rows is summing
over all 2048 rows, because `(i, r) ↦ 256 * i + r` is a bijection `Fin 8 × Fin 256 ≃ Fin 2048`. -/
theorem sum_tiles (f : Fin 2048 → ℝ) :
    ∑ i ∈ Finset.range 8, ∑ r : Fin 256, f (row i r) = ∑ n : Fin 2048, f n := by
  rw [Finset.sum_range (fun i => ∑ r : Fin 256, f (row i r))]
  rw [← Fintype.sum_prod_type' (fun (i : Fin 8) (r : Fin 256) => f (row i.val r))]
  refine Fintype.sum_equiv (finProdFinEquiv.trans (finCongr (by norm_num))) _ _ (fun p => ?_)
  congr 1
  apply Fin.ext
  have h1 := p.1.isLt
  have h2 := p.2.isLt
  show p.1.val % 8 * 256 + p.2.val = p.2.val + 256 * p.1.val
  omega

/-- The running maximum starts as the maximum of tile 0. -/
theorem mSeq_zero (S : Fin 2048 → ℝ) :
    mSeq S 0 = Finset.univ.sup' Finset.univ_nonempty (fun r : Fin 256 => S (row 0 r)) := rfl

/-- Adding a tile replaces the running maximum by its maximum with the tile's maximum. -/
theorem mSeq_succ (S : Fin 2048 → ℝ) (j : ℕ) :
    mSeq S (j + 1)
      = max (mSeq S j) (Finset.univ.sup' Finset.univ_nonempty (fun r : Fin 256 => S (row (j + 1) r))) := rfl

/-- After the eighth tile the running maximum is the maximum of the whole column: it is attained at some
row, hence at most the column maximum, and it dominates the score of every row `n`, which sits in tile
`n / 256 ≤ 7`. -/
theorem mSeq_seven (S : Fin 2048 → ℝ) : mSeq S 7 = RealSpec.rowMax S := by
  apply le_antisymm
  · obtain ⟨i, _, r, hr⟩ :=
      runmax_attained (fun j r => S (row j r)) (mSeq S) (mSeq_zero S) (mSeq_succ S) 7
    rw [hr]
    exact Finset.le_sup' S (Finset.mem_univ (row i r))
  · refine Finset.sup'_le _ _ (fun n _ => ?_)
    have hn := n.isLt
    have h := runmax_ge (fun j r => S (row j r)) (mSeq S) (mSeq_zero S) (mSeq_succ S) 7
      (n.val / 256) (by omega) ⟨n.val % 256, Nat.mod_lt _ (by norm_num)⟩
    simpa only [row_div_mod] using h

/-- The running sum of exponentials is positive: it is a nonempty sum of exponentials. -/
theorem lSeq_pos (S : Fin 2048 → ℝ) (j : ℕ) : 0 < lSeq S j :=
  runsum_pos (fun j r => S (row j r)) (mSeq S) (lSeq S) rfl (fun _ => rfl) j

/-- After the eighth tile the running sum is the column's sum of exponentials shifted by the column
maximum:  `lSeq S 7 = ∑ n, exp (S n − max S)`. -/
theorem lSeq_seven (S : Fin 2048 → ℝ) :
    lSeq S 7 = ∑ n : Fin 2048, Real.exp (S n - RealSpec.rowMax S) := by
  rw [runsum_eq (fun j r => S (row j r)) (mSeq S) (lSeq S) rfl (fun _ => rfl) 7, mSeq_seven]
  exact sum_tiles (fun n => Real.exp (S n - RealSpec.rowMax S))

/-- The online quotient after the eighth tile is the softmax-weighted sum of the column:
`oSeq S X 7 / lSeq S 7 = ∑ n, softmax(S) n * X n`. -/
theorem online_tiles (S X : Fin 2048 → ℝ) :
    oSeq S X 7 / lSeq S 7 = ∑ n : Fin 2048, RealSpec.softmaxW S n * X n := by
  rw [online_quotient (fun j r => S (row j r)) (fun j r => X (row j r)) (mSeq S) (lSeq S) (oSeq S X)
    rfl (fun _ => rfl) 7, mSeq_seven, lSeq_seven]
  exact sum_tiles (fun n => RealSpec.softmaxW S n * X n)

end Cert.Tiles

end
-- ==== Proof.KV.AttnState.lean ====
/-
  What the attention region's written buffers hold after each grid point, when the region finds real numbers in its four
  operand arrays.  Point t = (batch b, row tile j).  The first result's block at (r, h) is the row-softmax-weighted sum of
  the second input for row j·256 + r.  The carried rows and the accumulator hold, at column m, the running maximum, the
  running sum and the running weighted sum of the online column softmax over tiles 0 … j of batch b — by induction along
  the grid, the first tile of a batch starting afresh; after the last tile the accumulator holds the quotient.
-/
import proofs.«104582_j57698590654943_2_alg».proof.Proof.KI.AttnBlocks
import proofs.«104582_j57698590654943_2_alg».proof.Proof.KV.AttnStep
import proofs.«104582_j57698590654943_2_alg».proof.Proof.TilesThm

set_option maxRecDepth 16384

noncomputable section

namespace Cert.KernelIdeal.KV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.KernelIdeal.Fr Idealize.ShloMosaic.ValueIdx Cert.Tiles Cert.Lib.ERealCoe

variable (V : (c : Dev nD) → (b : Ref sig .tc) → Buf (Elt Ideal) ((c : Thread nD τ).loc b)) (c : Dev nD)
variable (Qr Kr A0 A1 : Fin 8 → Fin 2048 → Fin 512 → ℝ)

/-- The region finds real numbers in its four operand arrays. -/
structure RealIn : Prop where
  hq : ∀ (b : Fin 8) (n : Fin 2048) (k : Fin 512), V c main_v0 (ix3 b n k) = ((Qr b n k : ℝ) : EReal)
  hk : ∀ (b : Fin 8) (m : Fin 2048) (k : Fin 512), V c main_v1 (ix3 b m k) = ((Kr b m k : ℝ) : EReal)
  ha0 : ∀ (b : Fin 8) (n : Fin 2048) (h : Fin 512), V c main_arg0 (ix3 b n h) = ((A0 b n h : ℝ) : EReal)
  ha1 : ∀ (b : Fin 8) (m : Fin 2048) (h : Fin 512), V c main_arg1 (ix3 b m h) = ((A1 b m h : ℝ) : EReal)

/-- The score of row n against row m in batch b. -/
def SR (b : Fin 8) (n m : Fin 2048) : ℝ := ∑ kk : Fin 512, Qr b n kk * Kr b m kk

theorem nOf_eq_row (t : Fin cfg2.N) (r : Fin 256) : nOf t r = Tiles.row (t.val % 8) r :=
  Fin.ext (by simp only [nOf, Tiles.row, Nat.mod_mod])

variable {V c Qr Kr A0 A1}

/-- The point's score tile at (r, m). -/
theorem sc2_at (H : RealIn V c Qr Kr A0 A1) (t : Fin cfg2.N) (r : Fin 256) (m : Fin 2048) :
    k2_pay12 (F := Ideal) (iblk2 V c 0 t) (iblk2 V c 1 t) (ix2 r m) = ((SR Qr Kr (bOf t) (Tiles.row (t.val % 8) r) m : ℝ) : EReal) := by
  rw [pay12_at]
  simp only [iblk2_0_at, iblk2_1_at, H.hq, H.hk, nOf_eq_row]
  exact sum_mul_coe _ _ _

/-- The first input's row tile at (r, h). -/
theorem x1blk_at (H : RealIn V c Qr Kr A0 A1) (t : Fin cfg2.N) (r : Fin 256) (h : Fin 512) :
    iblk2 V c 2 t (ix3 (0 : Fin 1) r h) = ((A0 (bOf t) (Tiles.row (t.val % 8) r) h : ℝ) : EReal) := by
  rw [iblk2_2_at, H.ha0, nOf_eq_row]

theorem outsAt2_zero (hn : 0 < cfg2.N) : outsAt2 V c 0 hn = step2 V c ⟨0, hn⟩ junkSt := rfl
theorem outsAt2_succ (n : ℕ) (hn : n + 1 < cfg2.N) :
    outsAt2 V c (n + 1) hn = step2 V c ⟨n + 1, hn⟩ (outsAt2 V c n (Nat.lt_of_succ_lt hn)) := rfl

/-- In every case the first result's buffer ends at the same value of the point's input blocks. -/
theorem outs_fst (t : Fin cfg2.N) :
    (outsAt2 V c t.val t.isLt).1 = k2_pay13 (F := Ideal) (iblk2 V c 0 t) (iblk2 V c 1 t) (iblk2 V c 3 t) := by
  by_cases h0 : t.val % 8 = 0
  · rw [outsAt2_A V c t h0, stepA_eq]
  · by_cases h1 : t.val % 8 = 7
    · rw [outsAt2_C V c t h0 h1, stepC_eq]
    · rw [outsAt2_B V c t h0 h1, stepB_eq]

/-- THE FIRST RESULT at a point: row r of the tile, feature h. -/
theorem o1_point (H : RealIn V c Qr Kr A0 A1) (t : Fin cfg2.N) (r : Fin 256) (h : Fin 512) :
    (outsAt2 V c t.val t.isLt).1 (ix3 (0 : Fin 1) r h)
      = ((∑ m : Fin 2048, Cert.RealSpec.softmaxW (fun m => SR Qr Kr (bOf t) (Tiles.row (t.val % 8) r) m) m * A1 (bOf t) m h : ℝ) : EReal) := by
  rw [outs_fst]
  exact row_out _ _ _ _ _ r h (fun m => sc2_at H t r m) (fun m => by rw [iblk2_3_at, H.ha1])

/-- What the carried rows and the accumulator hold after tile j of batch b. -/
def StOK (Qr Kr A0 : Fin 8 → Fin 2048 → Fin 512 → ℝ) (b : Fin 8) (j : ℕ) (st : St2 Ideal) : Prop :=
  ∀ m : Fin 2048,
    st.2.2.1 (ix2 (0 : Fin 1) m) = ((mSeq (fun n => SR Qr Kr b n m) j : ℝ) : EReal)
    ∧ st.2.2.2 (ix2 (0 : Fin 1) m) = ((lSeq (fun n => SR Qr Kr b n m) j : ℝ) : EReal)
    ∧ ∀ h : Fin 512, st.2.1 (ix3 (0 : Fin 1) h m)
        = if j = 7 then ((oSeq (fun n => SR Qr Kr b n m) (fun n => A0 b n h) 7 / lSeq (fun n => SR Qr Kr b n m) 7 : ℝ) : EReal)
          else ((oSeq (fun n => SR Qr Kr b n m) (fun n => A0 b n h) j : ℝ) : EReal)

theorem bOf_succ (n : ℕ) (hn : n + 1 < cfg2.N) (h0 : ¬(n + 1) % 8 = 0) :
    bOf ⟨n + 1, hn⟩ = bOf ⟨n, Nat.lt_of_succ_lt hn⟩ := Fin.ext (by simp only [bOf]; omega)

/-- A batch's first tile. -/
theorem state_first (H : RealIn V c Qr Kr A0 A1) (t : Fin cfg2.N) (h0 : t.val % 8 = 0) :
    StOK Qr Kr A0 (bOf t) 0 (stepA V c t h0) := by
  rw [stepA_eq]
  intro m
  have hsc : ∀ r : Fin 256, k2_pay12 (F := Ideal) (iblk2 V c 0 t) (iblk2 V c 1 t) (ix2 r m) = (((fun n => SR Qr Kr (bOf t) n m) (Tiles.row 0 r) : ℝ) : EReal) :=
    fun r => by rw [sc2_at H t r m, h0]
  have hx : ∀ (h : Fin 512) (r : Fin 256), iblk2 V c 2 t (ix3 (0 : Fin 1) r h) = (((fun n => A0 (bOf t) n h) (Tiles.row 0 r) : ℝ) : EReal) :=
    fun h r => by rw [x1blk_at H t r h, h0]
  have T := fun h : Fin 512 => tile_first (sc2 V c t) (iblk2 V c 2 t) (k2_pay8 (F := Ideal)) (k2_pay9 (F := Ideal)) (k2_pay10 (F := Ideal)) (fun n => SR Qr Kr (bOf t) n m) (fun n => A0 (bOf t) n h) m h hsc (hx h) (pay8_at m)
  refine ⟨(T 0).1, (T 0).2.1, fun h => ?_⟩
  rw [if_neg (by decide)]
  exact (T h).2.2

/-- A later tile, from the tile before. -/
theorem state_next (H : RealIn V c Qr Kr A0 A1) (t : Fin cfg2.N) (j : ℕ) (hj : t.val % 8 = j + 1) (hj7 : j + 1 ≠ 7 ∨ True) (p : St2 Ideal)
    (hp : StOK Qr Kr A0 (bOf t) j p) (hjlt : j ≠ 7) (m : Fin 2048) :
    k2_pay6 (F := Ideal) (sc2 V c t) p.2.2.1 (ix2 (0 : Fin 1) m) = ((mSeq (fun n => SR Qr Kr (bOf t) n m) (j + 1) : ℝ) : EReal)
    ∧ k2_pay4 (F := Ideal) (sc2 V c t) p.2.2.1 p.2.2.2 (ix2 (0 : Fin 1) m) = ((lSeq (fun n => SR Qr Kr (bOf t) n m) (j + 1) : ℝ) : EReal)
    ∧ ∀ h : Fin 512, k2_pay5 (F := Ideal) (k2_pay11 (iblk2 V c 2 t)) (sc2 V c t) p.2.2.1 p.2.1 (ix3 (0 : Fin 1) h m)
        = ((oSeq (fun n => SR Qr Kr (bOf t) n m) (fun n => A0 (bOf t) n h) (j + 1) : ℝ) : EReal) := by
  have hsc : ∀ r : Fin 256, k2_pay12 (F := Ideal) (iblk2 V c 0 t) (iblk2 V c 1 t) (ix2 r m) = (((fun n => SR Qr Kr (bOf t) n m) (Tiles.row (j + 1) r) : ℝ) : EReal) :=
    fun r => by rw [sc2_at H t r m, hj]
  have hx : ∀ (h : Fin 512) (r : Fin 256), iblk2 V c 2 t (ix3 (0 : Fin 1) r h) = (((fun n => A0 (bOf t) n h) (Tiles.row (j + 1) r) : ℝ) : EReal) :=
    fun h r => by rw [x1blk_at H t r h, hj]
  obtain ⟨hm, hl, ho⟩ := hp m
  have T := fun h : Fin 512 => tile_next (sc2 V c t) (iblk2 V c 2 t) p.2.2.1 p.2.2.2 p.2.1 (fun n => SR Qr Kr (bOf t) n m) (fun n => A0 (bOf t) n h) m h j hsc (hx h) hm hl
    (by rw [ho h, if_neg hjlt])
  exact ⟨(T 0).1, (T 0).2.1, fun h => (T h).2.2⟩

/-- THE CARRIED STATE after every grid point. -/
theorem state_at (H : RealIn V c Qr Kr A0 A1) : ∀ (n : ℕ) (hn : n < cfg2.N), StOK Qr Kr A0 (bOf ⟨n, hn⟩) (n % 8) (outsAt2 V c n hn) := by
  intro n
  induction n with
  | zero =>
    intro hn
    rw [outsAt2_zero]; unfold step2; rw [dif_pos (show (⟨0, hn⟩ : Fin cfg2.N).val % 8 = 0 from rfl)]
    exact state_first H ⟨0, hn⟩ rfl
  | succ n ih =>
    intro hn
    have hN : n + 1 < 64 := lt_of_lt_of_eq hn (show cfg2.N = 64 from N_2)
    rw [outsAt2_succ]; unfold step2
    by_cases h0 : (n + 1) % 8 = 0
    · rw [dif_pos (show (⟨n + 1, hn⟩ : Fin cfg2.N).val % 8 = 0 from h0)]
      exact (congrArg (fun j => StOK Qr Kr A0 (bOf ⟨n + 1, hn⟩) j (stepA V c ⟨n + 1, hn⟩ h0)) h0).mpr (state_first H ⟨n + 1, hn⟩ h0)
    · have ihn := ih (Nat.lt_of_succ_lt hn)
      rw [← bOf_succ n hn h0] at ihn
      have hj : (⟨n + 1, hn⟩ : Fin cfg2.N).val % 8 = n % 8 + 1 := by show (n + 1) % 8 = n % 8 + 1; omega
      have hjlt : n % 8 ≠ 7 := by omega
      have hmod : (n + 1) % 8 = n % 8 + 1 := by omega
      by_cases h1 : (n + 1) % 8 = 7
      · rw [dif_neg (show ¬(⟨n + 1, hn⟩ : Fin cfg2.N).val % 8 = 0 from h0), dif_pos (show (⟨n + 1, hn⟩ : Fin cfg2.N).val % 8 = 7 from h1), stepC_eq]
        intro m
        obtain ⟨e1, e2, e3⟩ := state_next H ⟨n + 1, hn⟩ (n % 8) hj (Or.inr trivial) _ ihn hjlt m
        have h6 : n % 8 + 1 = 7 := by omega
        rw [hmod]
        refine ⟨e1, e2, fun h => ?_⟩
        rw [if_pos h6]
        have hl : lSeq (fun n' => SR Qr Kr (bOf ⟨n + 1, hn⟩) n' m) 7 ≠ 0 := (lSeq_pos _ 7).ne'
        have e3' := e3 h
        rw [h6] at e3' e2
        exact tile_div m h _ _ hl _ _ e3' e2
      · rw [dif_neg (show ¬(⟨n + 1, hn⟩ : Fin cfg2.N).val % 8 = 0 from h0), dif_neg (show ¬(⟨n + 1, hn⟩ : Fin cfg2.N).val % 8 = 7 from h1), stepB_eq]
        intro m
        obtain ⟨e1, e2, e3⟩ := state_next H ⟨n + 1, hn⟩ (n % 8) hj (Or.inr trivial) _ ihn hjlt m
        rw [hmod]
        refine ⟨e1, e2, fun h => ?_⟩
        rw [if_neg (by omega)]
        exact e3 h

end Cert.KernelIdeal.KV

end
-- ==== Proof.KV.AttnGeom.lean ====
/-
  Where region 2's two output blocks sit in their arrays, on its 64-point grid (batch b = t / 8, row tile j = t % 8).
  The first output's block at point t is rows j·256 … j·256 + 255 of batch b; the second output's block is the whole of
  batch b, written back at the last row tile of the batch (j = 7).  Every index of either array lies in the block of a
  point that writes it back.
-/
import proofs.«104582_j57698590654943_2_alg».proof.Proof.KI.AttnBlocks
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.Fr Idealize.ShloMosaic Idealize.ShloMosaic.ValueIdx

/-! ### Grid points by batch and row tile -/

/-- The grid point of batch b and row tile j. -/
def tOf (b : Fin 8) (j : Fin 8) : Fin cfg2.N :=
  ⟨b.val * 8 + j.val, by have hN : cfg2.N = 64 := N_2; have := b.isLt; have := j.isLt; omega⟩

/-- The batch of the point of batch b and row tile j is b. -/
theorem bOf_tOf (b j : Fin 8) : bOf (tOf b j) = b := by
  apply Fin.ext
  show (b.val * 8 + j.val) / 8 = b.val
  have := j.isLt
  omega

/-- The row tile of the point of batch b and row tile j is j. -/
theorem tOf_mod (b j : Fin 8) : (tOf b j).val % 8 = j.val := by
  show (b.val * 8 + j.val) % 8 = j.val
  have := j.isLt
  omega

/-- The value of the point of batch b and row tile j. -/
theorem tOf_val (b j : Fin 8) : (tOf b j).val = b.val * 8 + j.val := rfl

/-- Row r of the row tile of the point of batch b and row tile j is row j·256 + r of the batch. -/
theorem nOf_tOf_val (b j : Fin 8) (r : Fin 256) : (nOf (tOf b j) r).val = j.val * 256 + r.val := by
  show (b.val * 8 + j.val) % 8 * 256 + r.val = j.val * 256 + r.val
  have := j.isLt
  omega

/-- Every grid point is the point of its batch and its row tile. -/
theorem tOf_bOf (t : Fin cfg2.N) : tOf (bOf t) ⟨t.val % 8, Nat.mod_lt _ (by decide)⟩ = t := by
  apply Fin.ext
  show t.val / 8 * 8 + t.val % 8 = t.val
  omega

/-! ### The blocks' embeddings -/

/-- Entry (r, h) of the first output's block at point t is entry (b, j·256 + r, h) of the array. -/
theorem emb4 (t : Fin cfg2.N) (r : Fin 256) (h : Fin 512) :
    ((cfg2.win 4).blk t).view.emb (ix3 (0 : Fin 1) r h) = ix3 (bOf t) (nOf t r) h := by
  obtain ⟨-, -, -, -, ⟨e0, e1, e2⟩, -⟩ := idx_facts2 t
  funext a; apply Fin.ext
  match a with
  | ⟨0, _⟩ => show win2_4.index t (0 : Fin 3) * 1 + 1 * 0 = t.val / 8; omega
  | ⟨1, _⟩ => show win2_4.index t (1 : Fin 3) * 256 + 1 * r.val = t.val % 8 * 256 + r.val; omega
  | ⟨2, _⟩ => show win2_4.index t (2 : Fin 3) * 512 + 1 * h.val = h.val; omega

/-- Entry (h, m) of the second output's block at point t is entry (b, h, m) of the array. -/
theorem emb5 (t : Fin cfg2.N) (h : Fin 512) (m : Fin 2048) :
    ((cfg2.win 5).blk t).view.emb (ix3 (0 : Fin 1) h m) = ix3 (bOf t) h m := by
  obtain ⟨-, -, -, -, -, ⟨e0, e1, e2⟩⟩ := idx_facts2 t
  funext a; apply Fin.ext
  match a with
  | ⟨0, _⟩ => show win2_5.index t (0 : Fin 3) * 1 + 1 * 0 = t.val / 8; omega
  | ⟨1, _⟩ => show win2_5.index t (1 : Fin 3) * 512 + 1 * h.val = h.val; omega
  | ⟨2, _⟩ => show win2_5.index t (2 : Fin 3) * 2048 + 1 * m.val = m.val; omega

/-! ### Membership in a block -/

/-- An index of the first output array is in point t's block iff each coordinate is in the block's range on its axis. -/
theorem mem_blk4 (t : Fin cfg2.N) (i : S8x2048x512.Idx) :
    i ∈ ((cfg2.win 4).blk t).view.set ↔ ∀ a : Fin 3, win2_4.index t a * S1x256x512.size a ≤ (i a).val
      ∧ (i a).val < win2_4.index t a * S1x256x512.size a + S1x256x512.size a := by
  show i ∈ ((View.whole main_v2_0).slice (win2_4.rect t)).set ↔ _
  rw [View.set_slice_whole, Rect.mem_set_unit]
  exact Iff.rfl

/-- An index of the second output array is in point t's block iff each coordinate is in the block's range on its axis. -/
theorem mem_blk5 (t : Fin cfg2.N) (i : S8x512x2048.Idx) :
    i ∈ ((cfg2.win 5).blk t).view.set ↔ ∀ a : Fin 3, win2_5.index t a * S1x512x2048.size a ≤ (i a).val
      ∧ (i a).val < win2_5.index t a * S1x512x2048.size a + S1x512x2048.size a := by
  show i ∈ ((View.whole main_v2_1).slice (win2_5.rect t)).set ↔ _
  rw [View.set_slice_whole, Rect.mem_set_unit]
  exact Iff.rfl

/-! ### Every index is written back -/

/-- Every index (b, n, h) of the first output array is in the block of the point of batch b and row tile n / 256,
    and every point writes its block back. -/
theorem cover4 : ∀ i : S8x2048x512.Idx, ∃ t : Fin cfg2.N, (cfg2.win 4).flush t = true ∧ i ∈ ((cfg2.win 4).blk t).view.set := by
  intro i
  have hi0 : (i 0).val < 8 := (i 0).isLt
  have hi1 : (i 1).val < 2048 := (i 1).isLt
  have hi2 : (i 2).val < 512 := (i 2).isLt
  have hN : cfg2.N = 64 := N_2
  let t : Fin cfg2.N := ⟨(i 0).val * 8 + (i 1).val / 256, by omega⟩
  have ht : t.val = (i 0).val * 8 + (i 1).val / 256 := rfl
  obtain ⟨-, -, -, -, ⟨e0, e1, e2⟩, -⟩ := idx_facts2 t
  refine ⟨t, flush2_4 t, ?_⟩
  rw [mem_blk4]
  intro a
  match a with
  | ⟨0, _⟩ => show win2_4.index t (0 : Fin 3) * 1 ≤ (i 0).val ∧ (i 0).val < win2_4.index t (0 : Fin 3) * 1 + 1; omega
  | ⟨1, _⟩ => show win2_4.index t (1 : Fin 3) * 256 ≤ (i 1).val ∧ (i 1).val < win2_4.index t (1 : Fin 3) * 256 + 256; omega
  | ⟨2, _⟩ => show win2_4.index t (2 : Fin 3) * 512 ≤ (i 2).val ∧ (i 2).val < win2_4.index t (2 : Fin 3) * 512 + 512; omega

/-- Every index (b, h, m) of the second output array is in the block of the last point of batch b (row tile 7), which
    writes its block back. -/
theorem cover5 : ∀ i : S8x512x2048.Idx, ∃ t : Fin cfg2.N, (cfg2.win 5).flush t = true ∧ i ∈ ((cfg2.win 5).blk t).view.set := by
  intro i
  have hi0 : (i 0).val < 8 := (i 0).isLt
  have hi1 : (i 1).val < 512 := (i 1).isLt
  have hi2 : (i 2).val < 2048 := (i 2).isLt
  have hN : cfg2.N = 64 := N_2
  let t : Fin cfg2.N := ⟨(i 0).val * 8 + 7, by omega⟩
  have ht : t.val = (i 0).val * 8 + 7 := rfl
  obtain ⟨-, -, -, -, -, ⟨e0, e1, e2⟩⟩ := idx_facts2 t
  refine ⟨t, (flush2_5 t).2 (by omega), ?_⟩
  rw [mem_blk5]
  intro a
  match a with
  | ⟨0, _⟩ => show win2_5.index t (0 : Fin 3) * 1 ≤ (i 0).val ∧ (i 0).val < win2_5.index t (0 : Fin 3) * 1 + 1; omega
  | ⟨1, _⟩ => show win2_5.index t (1 : Fin 3) * 512 ≤ (i 1).val ∧ (i 1).val < win2_5.index t (1 : Fin 3) * 512 + 512; omega
  | ⟨2, _⟩ => show win2_5.index t (2 : Fin 3) * 2048 ≤ (i 2).val ∧ (i 2).val < win2_5.index t (2 : Fin 3) * 2048 + 2048; omega

end Cert.KernelIdeal.KV

end
-- ==== Proof.KV.AttnFinal.lean ====
/-
  The attention region's two result arrays after the run, when it finds real numbers in its operand arrays:
  the first result at (b, n, h) is the row-softmax-weighted sum of the second input; the transposed second result at
  (b, h, m) is the column-softmax-weighted sum of the first input (the online recurrence's last quotient, which is the
  plain softmax-weighted sum over all 2048 rows).  Every index of either array lies in some written-back block.
-/
import proofs.«104582_j57698590654943_2_alg».proof.Proof.KV.AttnState
import proofs.«104582_j57698590654943_2_alg».proof.Proof.KV.AttnGeom
import proofs.«104582_j57698590654943_2_alg».proof.Proof.TilesThm

set_option maxRecDepth 16384

noncomputable section

namespace Cert.KernelIdeal.KV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.KernelIdeal.Fr Idealize.ShloMosaic.ValueIdx Cert.Tiles Cert.Lib.ERealCoe

variable {V : (c : Dev nD) → (b : Ref sig .tc) → Buf (Elt Ideal) ((c : Thread nD τ).loc b)} {c : Dev nD}
variable {Qr Kr A0 A1 : Fin 8 → Fin 2048 → Fin 512 → ℝ}

/-- The first result over the reals: the softmax of row n's scores weighting the second input's rows. -/
def O1 (Qr Kr A1 : Fin 8 → Fin 2048 → Fin 512 → ℝ) (b : Fin 8) (n : Fin 2048) (h : Fin 512) : ℝ :=
  ∑ m : Fin 2048, Cert.RealSpec.softmaxW (fun m => SR Qr Kr b n m) m * A1 b m h
/-- The second result over the reals: the softmax of column m's scores weighting the first input's rows. -/
def O2 (Qr Kr A0 : Fin 8 → Fin 2048 → Fin 512 → ℝ) (b : Fin 8) (m : Fin 2048) (h : Fin 512) : ℝ :=
  ∑ n : Fin 2048, Cert.RealSpec.softmaxW (fun n => SR Qr Kr b n m) n * A0 b n h

/-- The first result as an array. -/
def G4 (Qr Kr A1 : Fin 8 → Fin 2048 → Fin 512 → ℝ) : S8x2048x512.Idx → EReal :=
  fun i => ((O1 Qr Kr A1 ⟨(i 0).val, (i 0).isLt⟩ ⟨(i 1).val, (i 1).isLt⟩ ⟨(i 2).val, (i 2).isLt⟩ : ℝ) : EReal)
/-- The transposed second result as an array: (b, h, m). -/
def G5 (Qr Kr A0 : Fin 8 → Fin 2048 → Fin 512 → ℝ) : S8x512x2048.Idx → EReal :=
  fun i => ((O2 Qr Kr A0 ⟨(i 0).val, (i 0).isLt⟩ ⟨(i 2).val, (i 2).isLt⟩ ⟨(i 1).val, (i 1).isLt⟩ : ℝ) : EReal)

theorem G4_ix3 (b : Fin 8) (n : Fin 2048) (h : Fin 512) : G4 Qr Kr A1 (ix3 b n h) = ((O1 Qr Kr A1 b n h : ℝ) : EReal) := rfl
theorem G5_ix3 (b : Fin 8) (h : Fin 512) (m : Fin 2048) : G5 Qr Kr A0 (ix3 b h m) = ((O2 Qr Kr A0 b m h : ℝ) : EReal) := rfl

/-- What point t writes back of the first result is block t of `G4`. -/
theorem flushed4_eq (H : RealIn V c Qr Kr A0 A1) (t : Fin cfg2.N) :
    (dat2 V c).flushed 4 t = ((cfg2.win 4).blk t).view.read (Elt Ideal) (G4 Qr Kr A1) := by
  show (cfg2.win 4).cut (grid2.coords t) ((dat2 V c).after 4 t) = _
  rw [after2_4]
  funext y
  obtain ⟨z, r, h, rfl⟩ : ∃ (z : Fin 1) (r : Fin 256) (h : Fin 512), y = ix3 z r h := ⟨y 0, y 1, y 2, eq_ix3 y⟩
  obtain rfl : z = 0 := Subsingleton.elim _ _
  show (outsAt2 V c t.val t.isLt).1 (ix3 (0 : Fin 1) r h) = G4 Qr Kr A1 (((cfg2.win 4).blk t).view.emb (ix3 (0 : Fin 1) r h))
  rw [emb4, G4_ix3, o1_point H t r h, nOf_eq_row]
  rfl

/-- What a batch's last point writes back of the transposed second result is block t of `G5`. -/
theorem flushed5_eq (H : RealIn V c Qr Kr A0 A1) (t : Fin cfg2.N) (hf : (cfg2.win 5).flush t = true) :
    (dat2 V c).flushed 5 t = ((cfg2.win 5).blk t).view.read (Elt Ideal) (G5 Qr Kr A0) := by
  have h7 : t.val % 8 = 7 := (flush2_5 t).mp hf
  show (cfg2.win 5).cut (grid2.coords t) ((dat2 V c).after 5 t) = _
  rw [after2_5]
  funext y
  obtain ⟨z, h, m, rfl⟩ : ∃ (z : Fin 1) (h : Fin 512) (m : Fin 2048), y = ix3 z h m := ⟨y 0, y 1, y 2, eq_ix3 y⟩
  obtain rfl : z = 0 := Subsingleton.elim _ _
  show (outsAt2 V c t.val t.isLt).2.1 (ix3 (0 : Fin 1) h m) = G5 Qr Kr A0 (((cfg2.win 5).blk t).view.emb (ix3 (0 : Fin 1) h m))
  rw [emb5, G5_ix3]
  have st := (state_at H t.val t.isLt m).2.2 h
  rw [h7, if_pos rfl, online_tiles] at st
  exact st

/-- THE FIRST RESULT ARRAY after the run. -/
theorem final4 (H : RealIn V c Qr Kr A0 A1) : (dat2 V c).arrAt 4 cfg2.N = G4 Qr Kr A1 :=
  (dat2 V c).arrAt_eq_of_cover 4 (G4 Qr Kr A1) (fun t _ => flushed4_eq H t) cover4

/-- THE TRANSPOSED SECOND RESULT ARRAY after the run. -/
theorem final5 (H : RealIn V c Qr Kr A0 A1) : (dat2 V c).arrAt 5 cfg2.N = G5 Qr Kr A0 :=
  (dat2 V c).arrAt_eq_of_cover 5 (G5 Qr Kr A0) (fun t hf => flushed5_eq H t hf) cover5

end Cert.KernelIdeal.KV

end
-- ==== Proof.KV.Arr.lean ====
/-
  The arrays of the programs as curried functions, and the projection as an array-level function:
  `projArr x w` at (b, n, k) is `∑ h, x[b,n,h] · w[k,h]`.
-/
import proofs.«104582_j57698590654943_2_alg».proof.Proof.Spec
import proofs.«104582_j57698590654943_2_alg».proof.KernelIdeal
import Idealize.ShloMosaic.Lib.ValueIdx

noncomputable section

namespace Cert.KernelIdeal.KV

open Idealize.ShloMosaic Idealize.ShloMosaic.ValueIdx Cert.KernelIdeal

/-- A [8, 2048, 512] array as a function of its three coordinates. -/
def cur3 (x : S8x2048x512.Idx → EReal) : Fin 8 → Fin 2048 → Fin 512 → EReal := fun b n h => x (ix3 b n h)
/-- A [512, 512] matrix as a function of its two coordinates. -/
def cur2 (w : S512x512.Idx → EReal) : Fin 512 → Fin 512 → EReal := fun k h => w (ix2 k h)

/-- The projection of a batch of rows by a weight matrix, as an array: at (b, n, k) the sum over h of x[b,n,h] · w[k,h]. -/
def projArr (x : S8x2048x512.Idx → EReal) (w : S512x512.Idx → EReal) : S8x2048x512.Idx → EReal :=
  fun i => Cert.Spec.proj (cur3 x) (cur2 w) ⟨(i 0).val, (i 0).isLt⟩ ⟨(i 1).val, (i 1).isLt⟩ ⟨(i 2).val, (i 2).isLt⟩

theorem projArr_ix3 (x : S8x2048x512.Idx → EReal) (w : S512x512.Idx → EReal) (b : Fin 8) (n : Fin 2048) (k : Fin 512) :
    projArr x w (ix3 b n k) = Cert.Spec.proj (cur3 x) (cur2 w) b n k := rfl

theorem projArr_ix3_sum (x : S8x2048x512.Idx → EReal) (w : S512x512.Idx → EReal) (b : Fin 8) (n : Fin 2048) (k : Fin 512) :
    projArr x w (ix3 b n k) = ∑ h : Fin 512, x (ix3 b n h) * w (ix2 k h) := rfl

end Cert.KernelIdeal.KV

end
-- ==== Proof.KV.ProjVal.lean ====
/-
  The two projection regions, read as values.  Each grid point `t` loads slab `t` of the input array and the whole
  weight matrix, and stores the matrix product of the slab by the transposed weights over slab `t` of the result; at
  the extended reals the two roundings are the identity and the product's element is the plain sum of products.  So
  after the eight points the result array is the projection of the input array by the weight matrix, index by index.
-/
import proofs.«104582_j57698590654943_2_alg».proof.Proof.KI.Proj0
import proofs.«104582_j57698590654943_2_alg».proof.Proof.KI.Proj1
import proofs.«104582_j57698590654943_2_alg».proof.Proof.KV.Arr
import Idealize.ShloMosaic.Lib.Pipeline.Value
import Idealize.ShloMosaic.Lib.ValueIdx
import Idealize.ShloMosaic.PureOps.Ideal.Laws

noncomputable section

namespace Cert.KernelIdeal.KV

open Cert.KernelIdeal Cert.KernelIdeal.Gen Cert.KernelIdeal.Fr Idealize.ShloMosaic Idealize.ShloMosaic.ValueIdx
open Idealize.ShloMosaic.TcCoe
open Idealize.ShloMosaic.Pipeline (Dat)

/-! ## The matrix product at an index -/

/-- The left operand's row is the result's row. -/
theorem dot_lhs_0 (i : S2048x512.Idx) (q : dot_S2048x512_S512x512_S2048x512_1_1_0_0_n_n.contr.Idx) :
    (dot_S2048x512_S512x512_S2048x512_1_1_0_0_n_n.lhsIdx i q 0).val = (i 0).val := by
  unfold DotDims.lhsIdx
  rw [dif_neg (show ¬(0 : Fin S2048x512.rank) ∈ dot_S2048x512_S512x512_S2048x512_1_1_0_0_n_n.lhsBatch by decide), dif_pos (show (0 : Fin S2048x512.rank) ∈ dot_S2048x512_S512x512_S2048x512_1_1_0_0_n_n.lhsNonContracting by decide)]
  rfl
/-- The left operand's column is the contraction position. -/
theorem dot_lhs_1 (i : S2048x512.Idx) (q : dot_S2048x512_S512x512_S2048x512_1_1_0_0_n_n.contr.Idx) :
    (dot_S2048x512_S512x512_S2048x512_1_1_0_0_n_n.lhsIdx i q 1).val = (q ⟨0, by decide⟩).val :=
  dot_S2048x512_S512x512_S2048x512_1_1_0_0_n_n.lhsIdx_val_of_single rfl i q
/-- The right operand's row is the result's column: the weights enter transposed. -/
theorem dot_rhs_0 (i : S2048x512.Idx) (q : dot_S2048x512_S512x512_S2048x512_1_1_0_0_n_n.contr.Idx) :
    (dot_S2048x512_S512x512_S2048x512_1_1_0_0_n_n.rhsIdx i q 0).val = (i 1).val := by
  unfold DotDims.rhsIdx
  rw [dif_neg (show ¬(0 : Fin S512x512.rank) ∈ dot_S2048x512_S512x512_S2048x512_1_1_0_0_n_n.rhsBatch by decide), dif_pos (show (0 : Fin S512x512.rank) ∈ dot_S2048x512_S512x512_S2048x512_1_1_0_0_n_n.rhsNonContracting by decide)]
  rfl
/-- The right operand's column is the contraction position. -/
theorem dot_rhs_1 (i : S2048x512.Idx) (q : dot_S2048x512_S512x512_S2048x512_1_1_0_0_n_n.contr.Idx) :
    (dot_S2048x512_S512x512_S2048x512_1_1_0_0_n_n.rhsIdx i q 1).val = (q ⟨0, by decide⟩).val :=
  dot_S2048x512_S512x512_S2048x512_1_1_0_0_n_n.rhsIdx_val_of_single rfl i q

/-- The product into the zero accumulator, at (n, k): the sum over h of a[n, h] · b[k, h]. -/
theorem matmul_apply_nk (a : FVec Ideal S2048x512 .bf16) (b : FVec Ideal S512x512 .bf16) (n : Fin 2048) (k : Fin 512) :
    FloatOps.matmul dot_S2048x512_S512x512_S2048x512_1_1_0_0_n_n none a b (constant (F := Ideal) S2048x512 .f32 0x00000000#32) (ix2 n k)
      = ∑ h : Fin 512, a (ix2 n h) * b (ix2 k h) := by
  rw [Ideal.matmul_constant_zero_apply, ← Equiv.sum_comp (contrEquiv1 dot_S2048x512_S512x512_S2048x512_1_1_0_0_n_n 512 rfl rfl).symm]
  refine Finset.sum_congr rfl fun h _ => ?_
  have hk := contrEquiv1_symm_val dot_S2048x512_S512x512_S2048x512_1_1_0_0_n_n 512 rfl rfl h
  have el : dot_S2048x512_S512x512_S2048x512_1_1_0_0_n_n.lhsIdx (ix2 n k) ((contrEquiv1 dot_S2048x512_S512x512_S2048x512_1_1_0_0_n_n 512 rfl rfl).symm h) = ix2 n h := funext fun a => Fin.ext (by
    match a with
    | ⟨0, _⟩ => exact dot_lhs_0 _ _
    | ⟨1, _⟩ => exact (dot_lhs_1 _ _).trans hk)
  have er : dot_S2048x512_S512x512_S2048x512_1_1_0_0_n_n.rhsIdx (ix2 n k) ((contrEquiv1 dot_S2048x512_S512x512_S2048x512_1_1_0_0_n_n 512 rfl rfl).symm h) = ix2 k h := funext fun a => Fin.ext (by
    match a with
    | ⟨0, _⟩ => exact dot_rhs_0 _ _
    | ⟨1, _⟩ => exact (dot_rhs_1 _ _).trans hk)
  rw [el, er]

/-- A [1, 2048, 512] block read as a [2048, 512] matrix: the element (n, h) is the block's (0, n, h). -/
theorem dropUnit_apply_nh {α : Type} (v : S1x2048x512.Idx → α) (n : Fin 2048) (h : Fin 512) :
    shapeCast S2048x512 v shapeCasts_S1x2048x512_S2048x512 (ix2 n h) = v (ix3 (0 : Fin 1) n h) := by
  refine (shapeCast_dropUnit_apply ![2048, 512] v shapeCasts_S1x2048x512_S2048x512 (ix2 n h)).trans (congrArg v ?_)
  funext a; match a with | ⟨0, _⟩ => rfl | ⟨1, _⟩ => rfl | ⟨2, _⟩ => rfl

/-- A [2048, 512] matrix stored as a [1, 2048, 512] block: the block's (0, n, k) is the matrix's (n, k). -/
theorem addUnit_apply_nk {α : Type} (v : S2048x512.Idx → α) (n : Fin 2048) (k : Fin 512) :
    shapeCast S1x2048x512 v shapeCasts_S2048x512_S1x2048x512 (ix3 (0 : Fin 1) n k) = v (ix2 n k) := by
  refine (shapeCast_addUnit_apply ![2048, 512] v shapeCasts_S2048x512_S1x2048x512 (ix3 (0 : Fin 1) n k)).trans (congrArg v ?_)
  funext a; match a with | ⟨0, _⟩ => rfl | ⟨1, _⟩ => rfl

/-- The body's stored value of region 0 at (0, n, k): the sum over h of x[0, n, h] · w[k, h]. -/
theorem pay0_apply (x0 : Vec Ideal S1x2048x512 .f32) (x1 : Vec Ideal S512x512 .f32) (n : Fin 2048) (k : Fin 512) :
    k0_pay1 (F := Ideal) x0 x1 (ix3 (0 : Fin 1) n k) = ∑ h : Fin 512, x0 (ix3 (0 : Fin 1) n h) * x1 (ix2 k h) := by
  unfold k0_pay1
  refine (addUnit_apply_nk _ n k).trans ?_
  rw [truncf_apply]
  refine (matmul_apply_nk _ _ n k).trans ?_
  refine Finset.sum_congr rfl fun h _ => ?_
  rw [truncf_apply, truncf_apply, dropUnit_apply_nh]

/-- The body's stored value of region 1 at (0, n, k): the same sum. -/
theorem pay1_apply (x0 : Vec Ideal S1x2048x512 .f32) (x1 : Vec Ideal S512x512 .f32) (n : Fin 2048) (k : Fin 512) :
    k1_pay1 (F := Ideal) x0 x1 (ix3 (0 : Fin 1) n k) = ∑ h : Fin 512, x0 (ix3 (0 : Fin 1) n h) * x1 (ix2 k h) := by
  unfold k1_pay1
  refine (addUnit_apply_nk _ n k).trans ?_
  rw [truncf_apply]
  refine (matmul_apply_nk _ _ n k).trans ?_
  refine Finset.sum_congr rfl fun h _ => ?_
  rw [truncf_apply, truncf_apply, dropUnit_apply_nh]

/-! ## The slabs -/

theorem hz3 : (![0, 0, 0] : Fin 3 → Nat) = fun _ => 0 := funext fun a => by fin_cases a <;> rfl
theorem hz2 : (![0, 0] : Fin 2 → Nat) = fun _ => 0 := funext fun a => by fin_cases a <;> rfl

/-- One element of a slab's stored value is the projection at the array index it lands on: over a loaded slab `x0`
    that is slab `b` of the array `x`, and a loaded matrix `x1` that is `w`. -/
theorem pay0_eq_projArr (x : S8x2048x512.Idx → EReal) (w : S512x512.Idx → EReal)
    (x0 : Vec Ideal S1x2048x512 .f32) (x1 : Vec Ideal S512x512 .f32) (b : Fin 8)
    (h0 : ∀ (n : Fin 2048) (h : Fin 512), x0 (ix3 (0 : Fin 1) n h) = x (ix3 b n h))
    (h1 : ∀ (k h : Fin 512), x1 (ix2 k h) = w (ix2 k h))
    (j : S1x2048x512.Idx) (i : S8x2048x512.Idx)
    (hi0 : (i 0).val = b.val) (hi1 : (i 1).val = (j 1).val) (hi2 : (i 2).val = (j 2).val) :
    k0_pay1 (F := Ideal) x0 x1 j = projArr x w i := by
  obtain ⟨p, n, k, rfl⟩ : ∃ (p : Fin 1) (n : Fin 2048) (k : Fin 512), j = ix3 p n k := ⟨j 0, j 1, j 2, eq_ix3 j⟩
  obtain rfl : p = 0 := Subsingleton.elim _ _
  obtain rfl : i = ix3 b n k := funext fun a => Fin.ext (by
    match a with
    | ⟨0, _⟩ => exact hi0
    | ⟨1, _⟩ => exact hi1
    | ⟨2, _⟩ => exact hi2)
  rw [pay0_apply, projArr_ix3_sum]
  exact Finset.sum_congr rfl fun h _ => by rw [h0, h1]

/-- The same for region 1's stored value. -/
theorem pay1_eq_projArr (x : S8x2048x512.Idx → EReal) (w : S512x512.Idx → EReal)
    (x0 : Vec Ideal S1x2048x512 .f32) (x1 : Vec Ideal S512x512 .f32) (b : Fin 8)
    (h0 : ∀ (n : Fin 2048) (h : Fin 512), x0 (ix3 (0 : Fin 1) n h) = x (ix3 b n h))
    (h1 : ∀ (k h : Fin 512), x1 (ix2 k h) = w (ix2 k h))
    (j : S1x2048x512.Idx) (i : S8x2048x512.Idx)
    (hi0 : (i 0).val = b.val) (hi1 : (i 1).val = (j 1).val) (hi2 : (i 2).val = (j 2).val) :
    k1_pay1 (F := Ideal) x0 x1 j = projArr x w i := by
  obtain ⟨p, n, k, rfl⟩ : ∃ (p : Fin 1) (n : Fin 2048) (k : Fin 512), j = ix3 p n k := ⟨j 0, j 1, j 2, eq_ix3 j⟩
  obtain rfl : p = 0 := Subsingleton.elim _ _
  obtain rfl : i = ix3 b n k := funext fun a => Fin.ext (by
    match a with
    | ⟨0, _⟩ => exact hi0
    | ⟨1, _⟩ => exact hi1
    | ⟨2, _⟩ => exact hi2)
  rw [pay1_apply, projArr_ix3_sum]
  exact Finset.sum_congr rfl fun h _ => by rw [h0, h1]

/-! ## Region 0: from the eight slabs to the array -/

/-- The block maps of region 0 over its eight points: the input slab and the result slab are slab `t`, and the
    weight matrix is its one block. -/
theorem idx_facts0 : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- WHAT POINT `t` WRITES BACK is slab `t` of the projection of the input array by the weight matrix. -/
theorem flushed0_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (projArr (V c main_arg0) (V c main_arg2)) := by
  show (cfg0.win 2).cut (grid0.coords t) ((dat0 V c).after 2 t) = _
  rw [after0_2]
  unfold out0_2
  rw [View.canon_unit_zero hz3]
  simp only [View.ld_unit_zero (S := S1x2048x512) hz3, View.ld_unit_zero (S := S512x512) hz2]
  obtain ⟨e00, e01, e02, e10, e11, e20, e21, e22⟩ := idx_facts0 t
  funext j
  have hN : grid0.N = 8 := N_0
  have ht : t.val < 8 := hN ▸ t.isLt
  have hj : (j 0).val < 1 := (j 0).isLt
  show k0_pay1 (F := Ideal) (iblk0 V c 0 t) (iblk0 V c 1 t) ((cfg0.win 2).xinj (grid0.coords t) j)
    = projArr (V c main_arg0) (V c main_arg2) (((cfg0.win 2).blk t).view.emb j)
  refine pay0_eq_projArr _ _ _ _ ⟨t.val, ht⟩ (fun n h => ?_) (fun k h => ?_) _ _ ?_ ?_ ?_
  · show V c main_arg0 (((cfg0.win 0).blk t).view.emb (ix3 (0 : Fin 1) n h)) = V c main_arg0 (ix3 ⟨t.val, ht⟩ n h)
    refine congrArg (V c main_arg0) (funext fun a => Fin.ext ?_)
    match a with
    | ⟨0, _⟩ => show win0_0.index t (0 : Fin 3) * 1 + 1 * 0 = t.val; omega
    | ⟨1, _⟩ => show win0_0.index t (1 : Fin 3) * 2048 + 1 * n.val = n.val; omega
    | ⟨2, _⟩ => show win0_0.index t (2 : Fin 3) * 512 + 1 * h.val = h.val; omega
  · show V c main_arg2 (((cfg0.win 1).blk t).view.emb (ix2 k h)) = V c main_arg2 (ix2 k h)
    refine congrArg (V c main_arg2) (funext fun a => Fin.ext ?_)
    match a with
    | ⟨0, _⟩ => show win0_1.index t (0 : Fin 2) * 512 + 1 * k.val = k.val; omega
    | ⟨1, _⟩ => show win0_1.index t (1 : Fin 2) * 512 + 1 * h.val = h.val; omega
  · show win0_2.index t (0 : Fin 3) * 1 + 1 * (j 0).val = t.val; omega
  · show win0_2.index t (1 : Fin 3) * 2048 + 1 * (j 1).val = (j 1).val; omega
  · show win0_2.index t (2 : Fin 3) * 512 + 1 * (j 2).val = (j 2).val; omega

/-- An index of the result array is in point `t`'s slab iff each coordinate is in the slab's range on its axis. -/
theorem mem_blk0 (t : Fin cfg0.N) (i : S8x2048x512.Idx) :
    i ∈ ((cfg0.win 2).blk t).view.set ↔ ∀ a : Fin 3, win0_2.index t a * S1x2048x512.size a ≤ (i a).val ∧ (i a).val < win0_2.index t a * S1x2048x512.size a + S1x2048x512.size a := by
  show i ∈ ((View.whole main_v0).slice (win0_2.rect t)).set ↔ _
  rw [View.set_slice_whole, Rect.mem_set_unit]
  exact Iff.rfl

/-- Every index of the result array is in the slab of the point numbered by its first coordinate. -/
theorem cover0 (i : S8x2048x512.Idx) :
    ∃ t : Fin cfg0.N, (cfg0.win 2).flush t = true ∧ i ∈ ((cfg0.win 2).blk t).view.set := by
  have hN : grid0.N = 8 := N_0
  have hi0 : (i 0).val < 8 := (i 0).isLt
  have hi1 : (i 1).val < 2048 := (i 1).isLt
  have hi2 : (i 2).val < 512 := (i 2).isLt
  obtain ⟨t, ht⟩ : ∃ t : Fin cfg0.N, t.val = (i 0).val := ⟨⟨(i 0).val, by show (i 0).val < grid0.N; omega⟩, rfl⟩
  obtain ⟨e00, e01, e02, e10, e11, e20, e21, e22⟩ := idx_facts0 t
  refine ⟨t, flush0_2 t, ?_⟩
  rw [mem_blk0]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 512 ≤ (i 2).val ∧ (i 2).val < win0_2.index t (2 : Fin 3) * 512 + 512; omega

/-- THE RESULT ARRAY of region 0 after its eight points: the projection of the input array by the weight matrix. -/
theorem proj0_final (V : (c : Dev nD) → (b : Ref sig .tc) → Buf (Elt Ideal) ((c : Thread nD τ).loc b)) (c : Dev nD) :
    (dat0 (F := Ideal) V c).arrAt 2 cfg0.N = projArr (V c main_arg0) (V c main_arg2) :=
  (dat0 (F := Ideal) V c).arrAt_eq_of_cover 2 (projArr (V c main_arg0) (V c main_arg2)) (fun t _ => flushed0_eq V c t) cover0

/-! ## Region 1: from the eight slabs to the array -/

/-- The block maps of region 1 over its eight points: the input slab and the result slab are slab `t`, and the
    weight matrix is its one block. -/
theorem idx_facts1 : ∀ t : Fin cfg1.N, win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0 :=
  (by decide +kernel : ∀ t : Fin grid1.N, _)

/-- WHAT POINT `t` WRITES BACK is slab `t` of the projection of the input array by the weight matrix. -/
theorem flushed1_eq (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (projArr (V c main_arg1) (V c main_arg3)) := by
  show (cfg1.win 2).cut (grid1.coords t) ((dat1 V c).after 2 t) = _
  rw [after1_2]
  unfold out1_2
  rw [View.canon_unit_zero hz3]
  simp only [View.ld_unit_zero (S := S1x2048x512) hz3, View.ld_unit_zero (S := S512x512) hz2]
  obtain ⟨e00, e01, e02, e10, e11, e20, e21, e22⟩ := idx_facts1 t
  funext j
  have hN : grid1.N = 8 := N_1
  have ht : t.val < 8 := hN ▸ t.isLt
  have hj : (j 0).val < 1 := (j 0).isLt
  show k1_pay1 (F := Ideal) (iblk1 V c 0 t) (iblk1 V c 1 t) ((cfg1.win 2).xinj (grid1.coords t) j)
    = projArr (V c main_arg1) (V c main_arg3) (((cfg1.win 2).blk t).view.emb j)
  refine pay1_eq_projArr _ _ _ _ ⟨t.val, ht⟩ (fun n h => ?_) (fun k h => ?_) _ _ ?_ ?_ ?_
  · show V c main_arg1 (((cfg1.win 0).blk t).view.emb (ix3 (0 : Fin 1) n h)) = V c main_arg1 (ix3 ⟨t.val, ht⟩ n h)
    refine congrArg (V c main_arg1) (funext fun a => Fin.ext ?_)
    match a with
    | ⟨0, _⟩ => show win1_0.index t (0 : Fin 3) * 1 + 1 * 0 = t.val; omega
    | ⟨1, _⟩ => show win1_0.index t (1 : Fin 3) * 2048 + 1 * n.val = n.val; omega
    | ⟨2, _⟩ => show win1_0.index t (2 : Fin 3) * 512 + 1 * h.val = h.val; omega
  · show V c main_arg3 (((cfg1.win 1).blk t).view.emb (ix2 k h)) = V c main_arg3 (ix2 k h)
    refine congrArg (V c main_arg3) (funext fun a => Fin.ext ?_)
    match a with
    | ⟨0, _⟩ => show win1_1.index t (0 : Fin 2) * 512 + 1 * k.val = k.val; omega
    | ⟨1, _⟩ => show win1_1.index t (1 : Fin 2) * 512 + 1 * h.val = h.val; omega
  · show win1_2.index t (0 : Fin 3) * 1 + 1 * (j 0).val = t.val; omega
  · show win1_2.index t (1 : Fin 3) * 2048 + 1 * (j 1).val = (j 1).val; omega
  · show win1_2.index t (2 : Fin 3) * 512 + 1 * (j 2).val = (j 2).val; omega

/-- An index of the result array is in point `t`'s slab iff each coordinate is in the slab's range on its axis. -/
theorem mem_blk1 (t : Fin cfg1.N) (i : S8x2048x512.Idx) :
    i ∈ ((cfg1.win 2).blk t).view.set ↔ ∀ a : Fin 3, win1_2.index t a * S1x2048x512.size a ≤ (i a).val ∧ (i a).val < win1_2.index t a * S1x2048x512.size a + S1x2048x512.size a := by
  show i ∈ ((View.whole main_v1).slice (win1_2.rect t)).set ↔ _
  rw [View.set_slice_whole, Rect.mem_set_unit]
  exact Iff.rfl

/-- Every index of the result array is in the slab of the point numbered by its first coordinate. -/
theorem cover1 (i : S8x2048x512.Idx) :
    ∃ t : Fin cfg1.N, (cfg1.win 2).flush t = true ∧ i ∈ ((cfg1.win 2).blk t).view.set := by
  have hN : grid1.N = 8 := N_1
  have hi0 : (i 0).val < 8 := (i 0).isLt
  have hi1 : (i 1).val < 2048 := (i 1).isLt
  have hi2 : (i 2).val < 512 := (i 2).isLt
  obtain ⟨t, ht⟩ : ∃ t : Fin cfg1.N, t.val = (i 0).val := ⟨⟨(i 0).val, by show (i 0).val < grid1.N; omega⟩, rfl⟩
  obtain ⟨e00, e01, e02, e10, e11, e20, e21, e22⟩ := idx_facts1 t
  refine ⟨t, flush1_2 t, ?_⟩
  rw [mem_blk1]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 2048 ≤ (i 1).val ∧ (i 1).val < win1_2.index t (1 : Fin 3) * 2048 + 2048; omega
  | ⟨2, _⟩ => show win1_2.index t (2 : Fin 3) * 512 ≤ (i 2).val ∧ (i 2).val < win1_2.index t (2 : Fin 3) * 512 + 512; omega

/-- THE RESULT ARRAY of region 1 after its eight points: the projection of the input array by the weight matrix. -/
theorem proj1_final (V : (c : Dev nD) → (b : Ref sig .tc) → Buf (Elt Ideal) ((c : Thread nD τ).loc b)) (c : Dev nD) :
    (dat1 (F := Ideal) V c).arrAt 2 cfg1.N = projArr (V c main_arg1) (V c main_arg3) :=
  (dat1 (F := Ideal) V c).arrAt_eq_of_cover 2 (projArr (V c main_arg1) (V c main_arg3)) (fun t _ => flushed1_eq V c t) cover1

end Cert.KernelIdeal.KV

end
-- ==== Proof.KV.Chain.lean ====
/-
  The arrays between the segments of the program, read back to the launch memory.  The two inputs reach the attention
  region as launched; the two projection regions leave the projections of the inputs by their weight matrices, and
  nothing later writes them before the attention region reads them; after the host transpose the first result is the
  attention region's first output array and the second result is its second output array with its last two axes swapped.
-/
import proofs.«104582_j57698590654943_2_alg».proof.Proof.KI.RunAll
import proofs.«104582_j57698590654943_2_alg».proof.Proof.KV.ProjVal
import Idealize.ShloMosaic.Lib.Pipeline.Value
import Idealize.ShloMosaic.Lib.StableHlo.Run

noncomputable section

namespace Cert.KernelIdeal.KV

open Cert.KernelIdeal Cert.KernelIdeal.Gen Cert.KernelIdeal.Fr Idealize.ShloMosaic Idealize.ShloMosaic.ValueIdx
open Idealize.ShloMosaic.TcCoe Idealize.ShloMosaic.StableHlo
open Idealize.ShloMosaic.Pipeline (Dat)

variable (m : (ℓ : Loc nD τ sig) → Buf (Elt Ideal) ℓ) (c : Dev nD)

/-! ## The operands of region 1 as it finds them -/

/-- Region 0 does not write the second input. -/
theorem Vb_arg1 : Vb m c main_arg1 = m ((c : Thread nD τ).loc main_arg1) :=
  calc Wb m c (Proc.devRef .tc main_arg1)
    _ = Wa m c (Proc.devRef .tc main_arg1) := Wb_of_ne m c main_arg1 (by decide)
    _ = m ((c : Thread nD τ).loc main_arg1) := rfl

/-- Region 0 does not write the second weight matrix. -/
theorem Vb_arg3 : Vb m c main_arg3 = m ((c : Thread nD τ).loc main_arg3) :=
  calc Wb m c (Proc.devRef .tc main_arg3)
    _ = Wa m c (Proc.devRef .tc main_arg3) := Wb_of_ne m c main_arg3 (by decide)
    _ = m ((c : Thread nD τ).loc main_arg3) := rfl

/-! ## The attention region's entry contents -/

/-- The first input: region 0 stages it and never writes it back, region 1 does not touch it. -/
theorem Vc_arg0 : Vc m c main_arg0 = m ((c : Thread nD τ).loc main_arg0) :=
  calc Wc m c (Proc.devRef .tc main_arg0)
    _ = Wb m c (Proc.devRef .tc main_arg0) := Wc_of_ne m c main_arg0 (by decide)
    _ = Wa m c (Proc.devRef .tc main_arg0) := (Wb_arr m c 0).trans (((dat0 (Va m) c).arrAt_in 0 rfl _).trans (A_eq0 (Va m) c 0))
    _ = m ((c : Thread nD τ).loc main_arg0) := rfl

/-- The second input: region 1 stages it and never writes it back, region 0 does not touch it. -/
theorem Vc_arg1 : Vc m c main_arg1 = m ((c : Thread nD τ).loc main_arg1) :=
  calc Wc m c (Proc.devRef .tc main_arg1)
    _ = Wb m c (Proc.devRef .tc main_arg1) := (Wc_arr m c 0).trans (((dat1 (Vb m) c).arrAt_in 0 rfl _).trans (A_eq1 (Vb m) c 0))
    _ = Wa m c (Proc.devRef .tc main_arg1) := Wb_of_ne m c main_arg1 (by decide)
    _ = m ((c : Thread nD τ).loc main_arg1) := rfl

/-- The first projection: region 0's result array, which region 1 does not write. -/
theorem Vc_v0 : Vc m c main_v0 = projArr (m ((c : Thread nD τ).loc main_arg0)) (m ((c : Thread nD τ).loc main_arg2)) :=
  calc Wc m c (Proc.devRef .tc main_v0)
    _ = Wb m c (Proc.devRef .tc main_v0) := Wc_of_ne m c main_v0 (by decide)
    _ = (dat0 (Va m) c).arrAt 2 cfg0.N := Wb_arr m c 2
    _ = projArr (Va m c main_arg0) (Va m c main_arg2) := proj0_final (Va m) c
    _ = projArr (m ((c : Thread nD τ).loc main_arg0)) (m ((c : Thread nD τ).loc main_arg2)) := rfl

/-- The second projection: region 1's result array, of its operands as launched. -/
theorem Vc_v1 : Vc m c main_v1 = projArr (m ((c : Thread nD τ).loc main_arg1)) (m ((c : Thread nD τ).loc main_arg3)) :=
  calc Wc m c (Proc.devRef .tc main_v1)
    _ = (dat1 (Vb m) c).arrAt 2 cfg1.N := Wc_arr m c 2
    _ = projArr (Vb m c main_arg1) (Vb m c main_arg3) := proj1_final (Vb m) c
    _ = projArr (m ((c : Thread nD τ).loc main_arg1)) (m ((c : Thread nD τ).loc main_arg3)) :=
      congrArg₂ projArr (Vb_arg1 m c) (Vb_arg3 m c)

/-! ## The results after the host transpose -/

/-- The first result is the attention region's first output array: the transpose does not write it. -/
theorem We_v2_0 : We m c (Proc.devRef .tc main_v2_0) = (dat2 (Vc m) c).arrAt 4 cfg2.N :=
  (We_of m c main_v2_0 (by decide)).trans (Wd_arr m c 4)

/-- The second result at (b, m, h) is the attention region's second output array at (b, h, m). -/
theorem We_v3_at (b : Fin 8) (mm : Fin 2048) (h : Fin 512) :
    We m c (Proc.devRef .tc main_v3) (ix3 b mm h) = (dat2 (Vc m) c).arrAt 5 cfg2.N (ix3 b h mm) := by
  show StableHlo.after hostOps3 (Wd m c) (Proc.devRef .tc main_v3) _ = _
  after_results
  refine (transpose_apply [0, 2, 1] _ transposes_S8x512x2048_S8x2048x512_0_2_1 (ix3 b mm h) (ix3 b h mm) (fun a => ?_)).trans ?_
  · match a with
    | ⟨0, _⟩ => rfl
    | ⟨1, _⟩ => rfl
    | ⟨2, _⟩ => rfl
  · exact congrFun (Wd_arr m c 5) (ix3 b h mm)

end Cert.KernelIdeal.KV

end
-- ==== Proof.KV.Finite.lean ====
/-
  Every entry of every argument array is a real number.  The precondition says, of each of the four
  argument arrays, that all of its entries have absolute value below plus infinity; an extended real
  whose absolute value is below plus infinity is neither infinity, hence a real.
-/
import proofs.«104582_j57698590654943_2_alg».proof.Defs
import proofs.«104582_j57698590654943_2_alg».proof.Proof.Gen.Pre_finite_inputs
import proofs.«104582_j57698590654943_2_alg».proof.Proof.LibERealCoe
import Idealize.ShloMosaic.Lib.ReduceAll
import Idealize.ShloMosaic.Lib.ValueIdx

namespace Cert.KernelIdeal.KV

open Idealize.ShloMosaic Idealize.ShloMosaic.ValueIdx Idealize.SL.Sem

/-- The scalar shape has exactly one index. -/
instance subsingleton_scalar_idx : Subsingleton Cert.Pre_finite_inputs.S_.Idx :=
  ⟨fun a b => funext fun d => d.elim0⟩

/-- An extended real whose absolute value max x (-x) is strictly below plus infinity is a real number:
    at either infinity the absolute value is plus infinity itself. -/
theorem real_of_abs_lt_inf (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  change Ideal.cmp .olt (max x (-x)) (Ideal.ofBits .f32 0x7F800000#32) = 1#1 at h
  rw [Cert.Lib.ERealCoe.ofBits_pos_inf_f32] at h
  induction x using EReal.rec with
  | bot => simp [Ideal.cmp] at h
  | top => simp [Ideal.cmp] at h
  | coe r => exact ⟨r, rfl⟩

/-- If the conjunction, over all entries of an array, of "the absolute value is below plus infinity" is
    true, then every entry of the array is a real number. -/
theorem all_real_of_all_abs_lt_inf {s : Shape} {axes : List (Fin s.rank)} (x : FVec Ideal s .f32)
    (init : IVec Cert.Pre_finite_inputs.S_ 1)
    (bc : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] bc (constant (F := Ideal) Cert.Pre_finite_inputs.S_ .f32 0x7F800000#32)))
          init hr hu ix0 = 1#1)
    (i : s.Idx) : ∃ r : ℝ, x i = (r : EReal) :=
  real_of_abs_lt_inf (x i) (Host.reduce_andi_all _ init hr hu ix0 e i)

/-- Under the precondition, every entry of each of the four argument arrays is a real number. -/
theorem finite_of_pre
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) :
    (∀ i : Cert.KernelIdeal.S8x2048x512.Idx, ∃ r : ℝ,
        m ((c.tc : Thread Cert.KernelIdeal.nD Cert.KernelIdeal.τ).loc Cert.KernelIdeal.main_arg0) i = (r : EReal))
    ∧ (∀ i : Cert.KernelIdeal.S8x2048x512.Idx, ∃ r : ℝ,
        m ((c.tc : Thread Cert.KernelIdeal.nD Cert.KernelIdeal.τ).loc Cert.KernelIdeal.main_arg1) i = (r : EReal))
    ∧ (∀ i : Cert.KernelIdeal.S512x512.Idx, ∃ r : ℝ,
        m ((c.tc : Thread Cert.KernelIdeal.nD Cert.KernelIdeal.τ).loc Cert.KernelIdeal.main_arg2) i = (r : EReal))
    ∧ (∀ i : Cert.KernelIdeal.S512x512.Idx, ∃ r : ℝ,
        m ((c.tc : Thread Cert.KernelIdeal.nD Cert.KernelIdeal.τ).loc Cert.KernelIdeal.main_arg3) i = (r : EReal)) := by
  have h0 := congrFun (h c) ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨all_real_of_all_abs_lt_inf _ _ _ _ _ h0', all_real_of_all_abs_lt_inf _ _ _ _ _ h1,
    all_real_of_all_abs_lt_inf _ _ _ _ _ h2, all_real_of_all_abs_lt_inf _ _ _ _ _ h3⟩

end Cert.KernelIdeal.KV
-- ==== Proof.KV.KernelValue.lean ====
/-
  The kernel program's two results after the run, for argument arrays all of whose entries are real numbers:
  the attention region finds the projections (the first two regions' results, read back through the segment boundaries)
  and the two inputs; its result arrays are then the real specification's two results, and the host transpose puts the
  second one back into (batch, row, feature) order.
-/
import proofs.«104582_j57698590654943_2_alg».proof.Proof.KV.AttnFinal
import proofs.«104582_j57698590654943_2_alg».proof.Proof.KV.Chain
import proofs.«104582_j57698590654943_2_alg».proof.Proof.KV.Finite
import proofs.«104582_j57698590654943_2_alg».proof.Proof.SpecReal

set_option maxRecDepth 16384

noncomputable section

namespace Cert.KernelIdeal.KV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.KernelIdeal.Fr Idealize.ShloMosaic.ValueIdx Cert.Lib.ERealCoe

variable (m : (ℓ : Loc nD τ sig) → Buf (Elt Ideal) ℓ) (c : Dev nD)
variable (X1 X2 : Fin 8 → Fin 2048 → Fin 512 → ℝ) (W1 W2 : Fin 512 → Fin 512 → ℝ)

/-- The four argument arrays hold the real arrays X1, X2, W1, W2. -/
structure RealArgs : Prop where
  h0 : ∀ (b : Fin 8) (n : Fin 2048) (h : Fin 512), m ((c : Thread nD τ).loc main_arg0) (ix3 b n h) = ((X1 b n h : ℝ) : EReal)
  h1 : ∀ (b : Fin 8) (n : Fin 2048) (h : Fin 512), m ((c : Thread nD τ).loc main_arg1) (ix3 b n h) = ((X2 b n h : ℝ) : EReal)
  h2 : ∀ (k h : Fin 512), m ((c : Thread nD τ).loc main_arg2) (ix2 k h) = ((W1 k h : ℝ) : EReal)
  h3 : ∀ (k h : Fin 512), m ((c : Thread nD τ).loc main_arg3) (ix2 k h) = ((W2 k h : ℝ) : EReal)

variable {m c X1 X2 W1 W2}

theorem cur3_0 (H : RealArgs m c X1 X2 W1 W2) : cur3 (m ((c : Thread nD τ).loc main_arg0)) = Cert.SpecReal.c3 X1 :=
  funext fun b => funext fun n => funext fun h => H.h0 b n h
theorem cur3_1 (H : RealArgs m c X1 X2 W1 W2) : cur3 (m ((c : Thread nD τ).loc main_arg1)) = Cert.SpecReal.c3 X2 :=
  funext fun b => funext fun n => funext fun h => H.h1 b n h
theorem cur2_2 (H : RealArgs m c X1 X2 W1 W2) : cur2 (m ((c : Thread nD τ).loc main_arg2)) = Cert.SpecReal.c2 W1 :=
  funext fun k => funext fun h => H.h2 k h
theorem cur2_3 (H : RealArgs m c X1 X2 W1 W2) : cur2 (m ((c : Thread nD τ).loc main_arg3)) = Cert.SpecReal.c2 W2 :=
  funext fun k => funext fun h => H.h3 k h

/-- The attention region finds the real projections and the real inputs. -/
theorem realIn (H : RealArgs m c X1 X2 W1 W2) :
    RealIn (Vc m) c (Cert.RealSpec.proj X1 W1) (Cert.RealSpec.proj X2 W2) X1 X2 where
  hq b n k := by rw [Vc_v0, projArr_ix3, cur3_0 H, cur2_2 H]; exact Cert.SpecReal.proj_coe X1 W1 b n k
  hk b n k := by rw [Vc_v1, projArr_ix3, cur3_1 H, cur2_3 H]; exact Cert.SpecReal.proj_coe X2 W2 b n k
  ha0 b n h := by rw [Vc_arg0]; exact H.h0 b n h
  ha1 b n h := by rw [Vc_arg1]; exact H.h1 b n h

/-- THE FIRST RESULT of the kernel program. -/
theorem kernel_out1 (H : RealArgs m c X1 X2 W1 W2) (b : Fin 8) (n : Fin 2048) (h : Fin 512) :
    We m c (Proc.devRef .tc main_v2_0) (ix3 b n h) = ((Cert.RealSpec.out1 X1 X2 W1 W2 b n h : ℝ) : EReal) := by
  rw [We_v2_0, final4 (realIn H), G4_ix3]; rfl

/-- THE SECOND RESULT of the kernel program. -/
theorem kernel_out2 (H : RealArgs m c X1 X2 W1 W2) (b : Fin 8) (mm : Fin 2048) (h : Fin 512) :
    We m c (Proc.devRef .tc main_v3) (ix3 b mm h) = ((Cert.RealSpec.out2 X1 X2 W1 W2 b mm h : ℝ) : EReal) := by
  rw [We_v3_at, final5 (realIn H), G5_ix3]; rfl

/-- Under the precondition the argument arrays hold real arrays. -/
theorem exists_realArgs (hpre : Cert.Pre_KernelIdeal (hPre_finite_inputs := Cert.Pre_finite_inputs.Gen.facts) m) (c : Dev nD) :
    ∃ (X1 X2 : Fin 8 → Fin 2048 → Fin 512 → ℝ) (W1 W2 : Fin 512 → Fin 512 → ℝ), RealArgs m c X1 X2 W1 W2 := by
  obtain ⟨f0, f1, f2, f3⟩ := finite_of_pre m hpre c
  choose g0 hg0 using f0
  choose g1 hg1 using f1
  choose g2 hg2 using f2
  choose g3 hg3 using f3
  exact ⟨fun b n h => g0 (ix3 b n h), fun b n h => g1 (ix3 b n h), fun k h => g2 (ix2 k h), fun k h => g3 (ix2 k h),
    ⟨fun b n h => hg0 _, fun b n h => hg1 _, fun k h => hg2 _, fun k h => hg3 _⟩⟩

end Cert.KernelIdeal.KV

end
-- ==== Proof.RefIsSpec.lean ====
import proofs.«104582_j57698590654943_2_alg».proof.Proof.Gen.ReferenceIdeal.Read
import proofs.«104582_j57698590654943_2_alg».proof.Proof.Spec

/-!
# The reference computes the specification

The reference program is read one operation at a time, at an index given by coordinates, until
each of its two results is the specification's `out1` / `out2` of the curried argument arrays.
Per operation: the two projections and the score are finite sums; the row maximum is a fold of
`max` from `-∞`, that is the supremum of the row; the shifted exponentials, their sum from `0` and
the quotient are the softmax weight; the last contraction is the weighted sum.
-/

noncomputable section

namespace Cert.ReferenceIdeal.RefValue

open Cert.ReferenceIdeal Cert.ReferenceIdeal.Gen Cert.ReferenceIdeal.Read Idealize.ShloMosaic
  Idealize.ShloMosaic.ValueIdx Idealize.SL.Sem Idealize.ShloMosaic.StableHlo

/-- A rank-3 argument array as a curried function of its coordinates. -/
abbrev cur3 (a : (⟨S8x2048x512, .f32⟩ : BufTy).Contents (Elt Ideal)) : Fin 8 → Fin 2048 → Fin 512 → EReal :=
  fun b n h => a (ix3 b n h)
/-- A rank-2 argument array as a curried function of its coordinates. -/
abbrev cur2 (a : (⟨S512x512, .f32⟩ : BufTy).Contents (Elt Ideal)) : Fin 512 → Fin 512 → EReal :=
  fun k h => a (ix2 k h)

/-- Two rank-3 indices with equal coordinates are equal. -/
local macro "idx3" : tactic =>
  `(tactic| exact funext fun a => Fin.ext (by match a with | ⟨0, _⟩ => rfl | ⟨1, _⟩ => rfl | ⟨2, _⟩ => rfl))
/-- Two rank-2 indices with equal coordinates are equal. -/
local macro "idx2" : tactic =>
  `(tactic| exact funext fun a => Fin.ext (by match a with | ⟨0, _⟩ => rfl | ⟨1, _⟩ => rfl))

/-! ## Two facts about the extended reals -/

/-- The f32 pattern of `-∞` denotes the bottom element. -/
theorem ofBits_neg_inf_f32 : Ideal.ofBits .f32 0xFF800000#32 = ⊥ := by simp [Ideal.ofBits, Ideal.ieee]

/-- A fold of `max` from `⊥` over a finite nonempty index type is the supremum over it. -/
theorem fold_max_bot_eq_sup' {ι : Type} [Fintype ι] [Nonempty ι] (g : ι → EReal) :
    (Finset.univ : Finset ι).fold (FloatOps.maximumf (F := Ideal) (φ := .f32)) ⊥ g
      = Finset.univ.sup' Finset.univ_nonempty g := by
  rw [Finset.sup'_eq_sup]
  rfl

variable (a0 a1 : (⟨S8x2048x512, .f32⟩ : BufTy).Contents (Elt Ideal))
  (a2 a3 : (⟨S512x512, .f32⟩ : BufTy).Contents (Elt Ideal))

/-! ## The projections and the score -/

/-- The first projection at `(b, n, k)`. -/
theorem v0_at (b : Fin 8) (n : Fin 2048) (k : Fin 512) :
    val_main_v0 (F := Ideal) a0 a2 (ix3 b n k) = Spec.proj (cur3 a0) (cur2 a2) b n k := by
  rw [val_main_v0_apply]
  unfold Spec.proj
  refine Finset.sum_congr rfl fun h _ => ?_
  have el : lidx_main_v0 (ix3 b n k) h = ix3 b n h := by idx3
  have er : ridx_main_v0 (ix3 b n k) h = ix2 k h := by idx2
  rw [el, er]

/-- The second projection at `(b, m, k)`. -/
theorem v1_at (b : Fin 8) (m : Fin 2048) (k : Fin 512) :
    val_main_v1 (F := Ideal) a1 a3 (ix3 b m k) = Spec.proj (cur3 a1) (cur2 a3) b m k := by
  rw [val_main_v1_apply]
  unfold Spec.proj
  refine Finset.sum_congr rfl fun h _ => ?_
  have el : lidx_main_v1 (ix3 b m k) h = ix3 b m h := by idx3
  have er : ridx_main_v1 (ix3 b m k) h = ix2 k h := by idx2
  rw [el, er]

/-- The score at `(b, n, m)`. -/
theorem v2_at (b : Fin 8) (n m : Fin 2048) :
    val_main_v2 (F := Ideal) a0 a1 a2 a3 (ix3 b n m) = Spec.score (cur3 a0) (cur3 a1) (cur2 a2) (cur2 a3) b n m := by
  rw [val_main_v2_apply]
  unfold Spec.score
  refine Finset.sum_congr rfl fun k _ => ?_
  have el : lidx_main_v2 (ix3 b n m) k = ix3 b n k := by idx3
  have er : ridx_main_v2 (ix3 b n m) k = ix3 b m k := by idx3
  rw [el, er, v0_at, v1_at]

/-! ## The row maximum (softmax along `m`) -/

/-- The score array reduces along its last axis to the [8, 2048] array of rows. -/
theorem red : Shape.Reduces S8x2048x2048 [2] S8x2048 := by decide

/-- A one-axis `max`-reduce from `-∞` of any [8, 2048, 2048] array, at `(b, r)`, is the supremum of
its row `(b, r, ·)`. -/
theorem reduce_max_at (x : S8x2048x2048.Idx → EReal) (init : S_.Idx → EReal)
    (hinit : init (Shape.Idx.first h_S_) = ⊥) (b : Fin 8) (r : Fin 2048) :
    Host.reduce (α := EReal) (FloatOps.maximumf (F := Ideal) (φ := .f32)) x init
        reducesTo_S8x2048x2048_S8x2048_d2 h_S_ (ix2 b r)
      = Finset.univ.sup' Finset.univ_nonempty (fun c : Fin 2048 => x (ix3 b r c)) := by
  rw [Host.reduce_eq_fold_single (FloatOps.maximumf (F := Ideal) (φ := .f32)) x init
    reducesTo_S8x2048x2048_S8x2048_d2 red h_S_, hinit]
  have hf : (x ∘ red.lift (ix2 b r)) = fun c : Fin 2048 => x (ix3 b r c) :=
    funext fun c => congrArg x (by idx3)
  rw [hf]
  exact fold_max_bot_eq_sup' (ι := Fin 2048) _

/-- The reduced maximum of the scores at `(b, n)` is the maximum of row `n`. -/
theorem v3_at (b : Fin 8) (n : Fin 2048) :
    val_main_v3 (F := Ideal) a0 a1 a2 a3 (ix2 b n)
      = Spec.rowMax (fun m => Spec.score (cur3 a0) (cur3 a1) (cur2 a2) (cur2 a3) b n m) := by
  unfold val_main_v3
  rw [reduce_max_at _ _ (by rw [val_main_cst_apply, Ideal.ofBits_def, ofBits_neg_inf_f32])]
  unfold Spec.rowMax
  exact congrArg _ (funext fun m => v2_at a0 a1 a2 a3 b n m)

/-- Taking the maximum with the broadcast `-∞` changes nothing. -/
theorem v5_at (b : Fin 8) (n : Fin 2048) :
    val_main_v5 (F := Ideal) a0 a1 a2 a3 (ix2 b n)
      = Spec.rowMax (fun m => Spec.score (cur3 a0) (cur3 a1) (cur2 a2) (cur2 a3) b n m) := by
  rw [val_main_v5_apply, val_main_v4_apply, val_main_cst_0_apply, v3_at, Ideal.maximumf_def, Ideal.ofBits_def,
    ofBits_neg_inf_f32, max_bot_left]

/-- The maximum broadcast back along the row. -/
theorem v7_at (b : Fin 8) (n m : Fin 2048) :
    val_main_v7 (F := Ideal) a0 a1 a2 a3 (ix3 b n m) = val_main_v5 (F := Ideal) a0 a1 a2 a3 (ix2 b n) := by
  rw [val_main_v7_apply, val_main_v6_apply]
  exact congrArg _ (by idx2)

/-- The shifted exponential at `(b, n, m)`. -/
theorem v9_at (b : Fin 8) (n m : Fin 2048) :
    val_main_v9 (F := Ideal) a0 a1 a2 a3 (ix3 b n m)
      = Ideal.exp (Spec.score (cur3 a0) (cur3 a1) (cur2 a2) (cur2 a3) b n m
          - Spec.rowMax (fun m => Spec.score (cur3 a0) (cur3 a1) (cur2 a2) (cur2 a3) b n m)) := by
  rw [val_main_v9_apply, val_main_v8_apply, v2_at, v7_at, v5_at, Ideal.hostUnary_exp_def, Ideal.subf_def]

/-- The normaliser at `(b, n)`: the sum, from `0`, of the shifted exponentials of row `n`. -/
theorem v10_at (b : Fin 8) (n : Fin 2048) :
    val_main_v10 (F := Ideal) a0 a1 a2 a3 (ix2 b n)
      = ∑ i : Fin 2048, Ideal.exp (Spec.score (cur3 a0) (cur3 a1) (cur2 a2) (cur2 a3) b n i
          - Spec.rowMax (fun m => Spec.score (cur3 a0) (cur3 a1) (cur2 a2) (cur2 a3) b n m)) := by
  rw [val_main_v10_apply, val_main_cst_1_apply, Ideal.ofBits_def, Ideal.ofBits_zero_f32, zero_add]
  refine Finset.sum_congr rfl fun i _ => ?_
  have e : idx_main_v10 (ix2 b n) i = ix3 b n i := by idx3
  rw [e, v9_at]

/-- The normaliser broadcast back along the row. -/
theorem v12_at (b : Fin 8) (n m : Fin 2048) :
    val_main_v12 (F := Ideal) a0 a1 a2 a3 (ix3 b n m) = val_main_v10 (F := Ideal) a0 a1 a2 a3 (ix2 b n) := by
  rw [val_main_v12_apply, val_main_v11_apply]
  exact congrArg _ (by idx2)

/-- The softmax weight along `m` at `(b, n, m)`. -/
theorem v13_at (b : Fin 8) (n m : Fin 2048) :
    val_main_v13 (F := Ideal) a0 a1 a2 a3 (ix3 b n m)
      = Spec.softmaxW (fun m => Spec.score (cur3 a0) (cur3 a1) (cur2 a2) (cur2 a3) b n m) m := by
  rw [val_main_v13_apply, v9_at, v12_at, v10_at, Ideal.hostDivf_def]
  rfl

/-- FIRST RESULT: the reference's `main_v26` at `(b, n, h)` is the specification's `out1`. -/
theorem ref_out1 (b : Fin 8) (n : Fin 2048) (h : Fin 512) :
    val_main_v26 (F := Ideal) a0 a1 a2 a3 (ix3 b n h)
      = Spec.out1 (fun b n h => a0 (ix3 b n h)) (fun b n h => a1 (ix3 b n h))
          (fun k h => a2 (ix2 k h)) (fun k h => a3 (ix2 k h)) b n h := by
  rw [val_main_v26_apply]
  unfold Spec.out1
  refine Finset.sum_congr rfl fun m _ => ?_
  have el : lidx_main_v26 (ix3 b n h) m = ix3 b n m := by idx3
  have er : ridx_main_v26 (ix3 b n h) m = ix3 b m h := by idx3
  rw [el, er, v13_at]

/-! ## The same along `n`: the transposed scores -/

/-- The transposed score array at `(b, m, n)` is the score at `(b, n, m)`. -/
theorem v14_at (b : Fin 8) (m n : Fin 2048) :
    val_main_v14 (F := Ideal) a0 a1 a2 a3 (ix3 b m n) = Spec.score (cur3 a0) (cur3 a1) (cur2 a2) (cur2 a3) b n m := by
  rw [val_main_v14_apply]
  have e : idx_main_v14 (ix3 b m n) = ix3 b n m := by idx3
  rw [e, v2_at]

/-- The reduced maximum of the transposed scores at `(b, m)` is the maximum of column `m`. -/
theorem v15_at (b : Fin 8) (m : Fin 2048) :
    val_main_v15 (F := Ideal) a0 a1 a2 a3 (ix2 b m)
      = Spec.rowMax (fun n => Spec.score (cur3 a0) (cur3 a1) (cur2 a2) (cur2 a3) b n m) := by
  unfold val_main_v15
  rw [reduce_max_at _ _ (by rw [val_main_cst_2_apply, Ideal.ofBits_def, ofBits_neg_inf_f32])]
  unfold Spec.rowMax
  exact congrArg _ (funext fun n => v14_at a0 a1 a2 a3 b m n)

/-- Taking the maximum with the broadcast `-∞` changes nothing. -/
theorem v17_at (b : Fin 8) (m : Fin 2048) :
    val_main_v17 (F := Ideal) a0 a1 a2 a3 (ix2 b m)
      = Spec.rowMax (fun n => Spec.score (cur3 a0) (cur3 a1) (cur2 a2) (cur2 a3) b n m) := by
  rw [val_main_v17_apply, val_main_v16_apply, val_main_cst_3_apply, v15_at, Ideal.maximumf_def, Ideal.ofBits_def,
    ofBits_neg_inf_f32, max_bot_left]

/-- The column maximum broadcast back. -/
theorem v19_at (b : Fin 8) (m n : Fin 2048) :
    val_main_v19 (F := Ideal) a0 a1 a2 a3 (ix3 b m n) = val_main_v17 (F := Ideal) a0 a1 a2 a3 (ix2 b m) := by
  rw [val_main_v19_apply, val_main_v18_apply]
  exact congrArg _ (by idx2)

/-- The shifted exponential of the transposed scores at `(b, m, n)`. -/
theorem v21_at (b : Fin 8) (m n : Fin 2048) :
    val_main_v21 (F := Ideal) a0 a1 a2 a3 (ix3 b m n)
      = Ideal.exp (Spec.score (cur3 a0) (cur3 a1) (cur2 a2) (cur2 a3) b n m
          - Spec.rowMax (fun n => Spec.score (cur3 a0) (cur3 a1) (cur2 a2) (cur2 a3) b n m)) := by
  rw [val_main_v21_apply, val_main_v20_apply, v14_at, v19_at, v17_at, Ideal.hostUnary_exp_def, Ideal.subf_def]

/-- The normaliser at `(b, m)`: the sum, from `0`, of the shifted exponentials of column `m`. -/
theorem v22_at (b : Fin 8) (m : Fin 2048) :
    val_main_v22 (F := Ideal) a0 a1 a2 a3 (ix2 b m)
      = ∑ i : Fin 2048, Ideal.exp (Spec.score (cur3 a0) (cur3 a1) (cur2 a2) (cur2 a3) b i m
          - Spec.rowMax (fun n => Spec.score (cur3 a0) (cur3 a1) (cur2 a2) (cur2 a3) b n m)) := by
  rw [val_main_v22_apply, val_main_cst_4_apply, Ideal.ofBits_def, Ideal.ofBits_zero_f32, zero_add]
  refine Finset.sum_congr rfl fun i _ => ?_
  have e : idx_main_v22 (ix2 b m) i = ix3 b m i := by idx3
  rw [e, v21_at]

/-- The normaliser broadcast back. -/
theorem v24_at (b : Fin 8) (m n : Fin 2048) :
    val_main_v24 (F := Ideal) a0 a1 a2 a3 (ix3 b m n) = val_main_v22 (F := Ideal) a0 a1 a2 a3 (ix2 b m) := by
  rw [val_main_v24_apply, val_main_v23_apply]
  exact congrArg _ (by idx2)

/-- The softmax weight along `n` at `(b, m, n)`. -/
theorem v25_at (b : Fin 8) (m n : Fin 2048) :
    val_main_v25 (F := Ideal) a0 a1 a2 a3 (ix3 b m n)
      = Spec.softmaxW (fun n => Spec.score (cur3 a0) (cur3 a1) (cur2 a2) (cur2 a3) b n m) n := by
  rw [val_main_v25_apply, v21_at, v24_at, v22_at, Ideal.hostDivf_def]
  rfl

/-- SECOND RESULT: the reference's `main_v27` at `(b, m, h)` is the specification's `out2`. -/
theorem ref_out2 (b : Fin 8) (m : Fin 2048) (h : Fin 512) :
    val_main_v27 (F := Ideal) a0 a1 a2 a3 (ix3 b m h)
      = Spec.out2 (fun b n h => a0 (ix3 b n h)) (fun b n h => a1 (ix3 b n h))
          (fun k h => a2 (ix2 k h)) (fun k h => a3 (ix2 k h)) b m h := by
  rw [val_main_v27_apply]
  unfold Spec.out2
  refine Finset.sum_congr rfl fun n _ => ?_
  have el : lidx_main_v27 (ix3 b m h) n = ix3 b m n := by idx3
  have er : ridx_main_v27 (ix3 b m h) n = ix3 b n h := by idx3
  rw [el, er, v25_at]

/-! ## The two results as whole arrays -/

/-- The first result as a function of the index. -/
theorem ref_out1_fun :
    val_main_v26 (F := Ideal) a0 a1 a2 a3
      = fun i => Spec.out1 (fun b n h => a0 (ix3 b n h)) (fun b n h => a1 (ix3 b n h))
          (fun k h => a2 (ix2 k h)) (fun k h => a3 (ix2 k h)) (i 0) (i 1) (i 2) := by
  funext i
  obtain ⟨b, n, h, rfl⟩ : ∃ (b : Fin 8) (n : Fin 2048) (h : Fin 512), i = ix3 b n h := ⟨i 0, i 1, i 2, eq_ix3 i⟩
  exact ref_out1 a0 a1 a2 a3 b n h

/-- The second result as a function of the index. -/
theorem ref_out2_fun :
    val_main_v27 (F := Ideal) a0 a1 a2 a3
      = fun i => Spec.out2 (fun b n h => a0 (ix3 b n h)) (fun b n h => a1 (ix3 b n h))
          (fun k h => a2 (ix2 k h)) (fun k h => a3 (ix2 k h)) (i 0) (i 1) (i 2) := by
  funext i
  obtain ⟨b, m, h, rfl⟩ : ∃ (b : Fin 8) (m : Fin 2048) (h : Fin 512), i = ix3 b m h := ⟨i 0, i 1, i 2, eq_ix3 i⟩
  exact ref_out2 a0 a1 a2 a3 b m h

end Cert.ReferenceIdeal.RefValue

end
-- ==== Proof.RefReal.lean ====
import proofs.«104582_j57698590654943_2_alg».proof.Proof.RefIsSpec
import proofs.«104582_j57698590654943_2_alg».proof.Proof.SpecReal

/-!
# The reference at real inputs

When every entry of the four argument arrays is (the coercion of) a real number, the reference's two
results are, entry by entry, the coercions of the real specification's `out1` and `out2`: the reference
computes the specification over the extended reals of its curried arguments, the curried arguments are the
coerced real arrays, and the specification over the extended reals at coerced real arrays is the coercion of
the specification over the reals.

The reference's run is also restated with each result given as its stage function of the four arguments'
launch contents.
-/

noncomputable section

namespace Cert.ReferenceIdeal.RefValue2

open Cert.ReferenceIdeal Cert.ReferenceIdeal.Gen Cert.ReferenceIdeal.Read Idealize.ShloMosaic
  Idealize.ShloMosaic.ValueIdx Idealize.ShloMosaic.TcCoe Idealize.SL.Sem Idealize.ShloMosaic.StableHlo

/-- A rank-3 array whose entries are the coercions of the real array `X`, curried, is the coerced `X`. -/
theorem cur3_eq (X : Fin 8 → Fin 2048 → Fin 512 → ℝ)
    (a : (⟨S8x2048x512, .f32⟩ : BufTy).Contents (Elt Ideal))
    (ha : ∀ b n h, a (ix3 b n h) = ((X b n h : ℝ) : EReal)) :
    (fun b n h => a (ix3 b n h)) = Cert.SpecReal.c3 X :=
  funext fun b => funext fun n => funext fun h => ha b n h

/-- A rank-2 array whose entries are the coercions of the real matrix `W`, curried, is the coerced `W`. -/
theorem cur2_eq (W : Fin 512 → Fin 512 → ℝ)
    (a : (⟨S512x512, .f32⟩ : BufTy).Contents (Elt Ideal))
    (ha : ∀ k h, a (ix2 k h) = ((W k h : ℝ) : EReal)) :
    (fun k h => a (ix2 k h)) = Cert.SpecReal.c2 W :=
  funext fun k => funext fun h => ha k h

/-- FIRST RESULT at real inputs: the reference's `main_v26` at `(b, n, h)` is the coercion of the real
`out1 = ∑ m, softmax_m (s[b, n, ·]) * x2[b, m, h]`. -/
theorem ref1_real (X1 X2 : Fin 8 → Fin 2048 → Fin 512 → ℝ) (W1 W2 : Fin 512 → Fin 512 → ℝ)
    (a0 a1 : (⟨S8x2048x512, .f32⟩ : BufTy).Contents (Elt Ideal))
    (a2 a3 : (⟨S512x512, .f32⟩ : BufTy).Contents (Elt Ideal))
    (h0 : ∀ b n h, a0 (ix3 b n h) = ((X1 b n h : ℝ) : EReal))
    (h1 : ∀ b n h, a1 (ix3 b n h) = ((X2 b n h : ℝ) : EReal))
    (h2 : ∀ k h, a2 (ix2 k h) = ((W1 k h : ℝ) : EReal))
    (h3 : ∀ k h, a3 (ix2 k h) = ((W2 k h : ℝ) : EReal)) :
    ∀ (b : Fin 8) (n : Fin 2048) (h : Fin 512),
      val_main_v26 (F := Ideal) a0 a1 a2 a3 (ix3 b n h)
        = ((Cert.RealSpec.out1 X1 X2 W1 W2 b n h : ℝ) : EReal) := by
  intro b n h
  rw [RefValue.ref_out1, cur3_eq X1 a0 h0, cur3_eq X2 a1 h1, cur2_eq W1 a2 h2, cur2_eq W2 a3 h3]
  exact Cert.SpecReal.out1_coe X1 X2 W1 W2 b n h

/-- SECOND RESULT at real inputs: the reference's `main_v27` at `(b, m, h)` is the coercion of the real
`out2 = ∑ n, softmax_n (s[b, ·, m]) * x1[b, n, h]`. -/
theorem ref2_real (X1 X2 : Fin 8 → Fin 2048 → Fin 512 → ℝ) (W1 W2 : Fin 512 → Fin 512 → ℝ)
    (a0 a1 : (⟨S8x2048x512, .f32⟩ : BufTy).Contents (Elt Ideal))
    (a2 a3 : (⟨S512x512, .f32⟩ : BufTy).Contents (Elt Ideal))
    (h0 : ∀ b n h, a0 (ix3 b n h) = ((X1 b n h : ℝ) : EReal))
    (h1 : ∀ b n h, a1 (ix3 b n h) = ((X2 b n h : ℝ) : EReal))
    (h2 : ∀ k h, a2 (ix2 k h) = ((W1 k h : ℝ) : EReal))
    (h3 : ∀ k h, a3 (ix2 k h) = ((W2 k h : ℝ) : EReal)) :
    ∀ (b : Fin 8) (m : Fin 2048) (h : Fin 512),
      val_main_v27 (F := Ideal) a0 a1 a2 a3 (ix3 b m h)
        = ((Cert.RealSpec.out2 X1 X2 W1 W2 b m h : ℝ) : EReal) := by
  intro b m h
  rw [RefValue.ref_out2, cur3_eq X1 a0 h0, cur3_eq X2 a1 h1, cur2_eq W1 a2 h2, cur2_eq W2 a3 h3]
  exact Cert.SpecReal.out2_coe X1 X2 W1 W2 b m h

/-- The reference's run, with each result as its stage function: from any memory with zero counters, every
weakly fair execution terminates with `main_v26` and `main_v27` equal to the stage functions
`val_main_v26`, `val_main_v27` of the four arguments' launch contents, and the four arguments unchanged. -/
theorem ref_run_real (m' : (ℓ : Loc nD τ sig) → Buf (Elt Ideal) ℓ) (ρ' : Dev nD → PrngReg) :
    θ_run defs (onTc (τ := τ) (main (F := Ideal))) ⟨m', fun _ => 0, ρ'⟩ fun r => ∀ c : Dev nD,
      r.2.mem ((c.tc : Thread nD τ).loc main_v26)
          = val_main_v26 (F := Ideal) (m' ((c.tc : Thread nD τ).loc main_arg0))
              (m' ((c.tc : Thread nD τ).loc main_arg1)) (m' ((c.tc : Thread nD τ).loc main_arg2))
              (m' ((c.tc : Thread nD τ).loc main_arg3))
      ∧ r.2.mem ((c.tc : Thread nD τ).loc main_v27)
          = val_main_v27 (F := Ideal) (m' ((c.tc : Thread nD τ).loc main_arg0))
              (m' ((c.tc : Thread nD τ).loc main_arg1)) (m' ((c.tc : Thread nD τ).loc main_arg2))
              (m' ((c.tc : Thread nD τ).loc main_arg3))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3) :=
  (θ_run defs _ _).mono
    (fun _ hr c =>
      ⟨(hr c).1.trans (val_main_v26_eq (F := Ideal) (m' ((c.tc : Thread nD τ).loc main_arg0))
          (m' ((c.tc : Thread nD τ).loc main_arg1)) (m' ((c.tc : Thread nD τ).loc main_arg2))
          (m' ((c.tc : Thread nD τ).loc main_arg3))),
        (hr c).2.1.trans (val_main_v27_eq (F := Ideal) (m' ((c.tc : Thread nD τ).loc main_arg0))
          (m' ((c.tc : Thread nD τ).loc main_arg1)) (m' ((c.tc : Thread nD τ).loc main_arg2))
          (m' ((c.tc : Thread nD τ).loc main_arg3))),
        (hr c).2.2⟩)
    (Value.run (F := Ideal) m' ρ')

end Cert.ReferenceIdeal.RefValue2

end
-- ==== Proof.lean ====
/-
  The certificate's five claims.
  Frames: the kernel program is three pipelined regions and a host transpose; each region's body runs without a fault at
  every grid point and the argument arrays are never written, at the word level and at the ideal level alike (the same
  proof text at either float instance).  The reference is a straight line of host operations; its run is generated.
  The idealization rewrote nothing, so `preserves` is trivial.
  Value: at the ideal instance both programs compute, for finite inputs, the two softmax-weighted sums of the projected
  inputs — the kernel by an online column softmax over eight row tiles and a row softmax normalised after the product,
  the reference directly.
-/
import proofs.«104582_j57698590654943_2_alg».proof.Defs
import proofs.«104582_j57698590654943_2_alg».proof.Proof.Gen.Kernel
import proofs.«104582_j57698590654943_2_alg».proof.Proof.Gen.KernelIdeal
import proofs.«104582_j57698590654943_2_alg».proof.Proof.Gen.ReferenceIdeal
import proofs.«104582_j57698590654943_2_alg».proof.Proof.Gen.Pre_finite_inputs
import proofs.«104582_j57698590654943_2_alg».proof.Proof.Gen.ReferenceIdeal.Run
import proofs.«104582_j57698590654943_2_alg».proof.Proof.Gen.ReferenceIdeal.Read
import proofs.«104582_j57698590654943_2_alg».proof.Proof.KB.RunAll
import proofs.«104582_j57698590654943_2_alg».proof.Proof.KI.RunAll
import proofs.«104582_j57698590654943_2_alg».proof.Proof.KV.KernelValue
import proofs.«104582_j57698590654943_2_alg».proof.Proof.RefReal
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Fr.frame (F := Bits) m ρ
theorem frame_ki : Cert.frame_KernelIdeal (hKernelIdeal := Cert.KernelIdeal.Gen.facts) (hPre_finite_inputs := Cert.Pre_finite_inputs.Gen.facts) :=
  fun m ρ _ => Cert.KernelIdeal.Fr.frame (F := Ideal) m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)
theorem preserves : Cert.preserves_Kernel_KernelIdeal := trivial

/-- At the ideal instance, from memories agreeing on the four inputs, both programs run to the end; the kernel's two result
    arrays are what its last segment boundary holds, and at every index both programs' results are the real specification's
    two softmax-weighted sums of the (real, by the precondition) inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Fr.We m c (Proc.devRef .tc Cert.KernelIdeal.main_v2_0),
    fun c => Cert.KernelIdeal.Fr.We m c (Proc.devRef .tc Cert.KernelIdeal.main_v3), ?_, ?_⟩
  · exact (θ_run Cert.KernelIdeal.defs _ _).mono (fun r h c =>
      ⟨h c _ (Cert.KernelIdeal.Fr.mem_uc Cert.KernelIdeal.main_v2_0 (by decide)),
       h c _ (Cert.KernelIdeal.Fr.mem_uc Cert.KernelIdeal.main_v3 (by decide)),
       (h c _ (Cert.KernelIdeal.Fr.mem_uc Cert.KernelIdeal.main_arg0 (by decide))).trans (Cert.KernelIdeal.Fr.We_main_arg0 m c),
       (h c _ (Cert.KernelIdeal.Fr.mem_uc Cert.KernelIdeal.main_arg1 (by decide))).trans (Cert.KernelIdeal.Fr.We_main_arg1 m c),
       (h c _ (Cert.KernelIdeal.Fr.mem_uc Cert.KernelIdeal.main_arg2 (by decide))).trans (Cert.KernelIdeal.Fr.We_main_arg2 m c),
       (h c _ (Cert.KernelIdeal.Fr.mem_uc Cert.KernelIdeal.main_arg3 (by decide))).trans (Cert.KernelIdeal.Fr.We_main_arg3 m c)⟩)
      (Cert.KernelIdeal.Fr.run_all (F := Ideal) m ρ)
  · refine (θ_run Cert.ReferenceIdeal.defs _ _).mono (fun r h c => ?_) (Cert.ReferenceIdeal.RefValue2.ref_run_real m' ρ')
    obtain ⟨X1, X2, W1, W2, HA⟩ := Cert.KernelIdeal.KV.exists_realArgs hpre c
    obtain ⟨ha0, ha1, ha2, ha3⟩ := hagree c
    refine ⟨(h c).1.trans ?_, (h c).2.1.trans ?_, (h c).2.2⟩
    · funext (i : Cert.ReferenceIdeal.S8x2048x512.Idx)
      obtain ⟨b, n, hh, rfl⟩ : ∃ (b : Fin 8) (n : Fin 2048) (hh : Fin 512), i = ValueIdx.ix3 b n hh := ⟨i 0, i 1, i 2, ValueIdx.eq_ix3 i⟩
      rw [Cert.ReferenceIdeal.RefValue2.ref1_real X1 X2 W1 W2 _ _ _ _
        (fun b n h => by rw [ha0]; exact HA.h0 b n h) (fun b n h => by rw [ha1]; exact HA.h1 b n h)
        (fun k h => by rw [ha2]; exact HA.h2 k h) (fun k h => by rw [ha3]; exact HA.h3 k h) b n hh]
      exact (Cert.KernelIdeal.KV.kernel_out1 HA b n hh).symm
    · funext (i : Cert.ReferenceIdeal.S8x2048x512.Idx)
      obtain ⟨b, n, hh, rfl⟩ : ∃ (b : Fin 8) (n : Fin 2048) (hh : Fin 512), i = ValueIdx.ix3 b n hh := ⟨i 0, i 1, i 2, ValueIdx.eq_ix3 i⟩
      rw [Cert.ReferenceIdeal.RefValue2.ref2_real X1 X2 W1 W2 _ _ _ _
        (fun b n h => by rw [ha0]; exact HA.h0 b n h) (fun b n h => by rw [ha1]; exact HA.h1 b n h)
        (fun k h => by rw [ha2]; exact HA.h2 k h) (fun k h => by rw [ha3]; exact HA.h3 k h) b n hh]
      exact (Cert.KernelIdeal.KV.kernel_out2 HA b n hh).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
